-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v401) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S56x56x64 : S_.BroadcastsInDim S56x56x64 (![] : Fin 0 → Fin S56x56x64.rank)
  reducesTo_S56x56x64_S_d0_1_2 : S56x56x64.ReducesTo [0, 1, 2] S_
  bcast_S_S28x28x128 : S_.BroadcastsInDim S28x28x128 (![] : Fin 0 → Fin S28x28x128.rank)
  reducesTo_S28x28x128_S_d0_1_2 : S28x28x128.ReducesTo [0, 1, 2] S_
  bcast_S_S14x14x256 : S_.BroadcastsInDim S14x14x256 (![] : Fin 0 → Fin S14x14x256.rank)
  reducesTo_S14x14x256_S_d0_1_2 : S14x14x256.ReducesTo [0, 1, 2] S_
  bcast_S_S7x7x512 : S_.BroadcastsInDim S7x7x512 (![] : Fin 0 → Fin S7x7x512.rank)
  reducesTo_S7x7x512_S_d0_1_2 : S7x7x512.ReducesTo [0, 1, 2] S_

variable [Facts]

def fn_part1 {F : FTy → Type} [FloatOps F] (main_arg4 : FVec F S7x7x512 .f32) (main_v13 : IVec S_ 1) (main_v16 : IVec S14x14x256 1) : IVec S_ 1 :=
  let main_c_5 : IVec S_ 1 := constantI S_ 1 1#1
  let main_v17 : IVec S_ 1 := (fun x v => Host.reduce IntOp.andi x v reducesTo_S14x14x256_S_d0_1_2 h_S_) main_v16 main_c_5
  let main_v18 : IVec S_ 1 := andi main_v13 main_v17
  let main_v19 : FVec F S7x7x512 .f32 := Host.absf main_arg4
  let main_cst_6 : FVec F S_ .f32 := constant S_ .f32 0x7F800000#32
  let main_v20 : FVec F S7x7x512 .f32 := broadcastInDim S7x7x512 ![] bcast_S_S7x7x512 main_cst_6
  let main_v21 : IVec S7x7x512 1 := cmpf .olt main_v19 main_v20
  let main_c_7 : IVec S_ 1 := constantI S_ 1 1#1
  let main_v22 : IVec S_ 1 := (fun x v => Host.reduce IntOp.andi x v reducesTo_S7x7x512_S_d0_1_2 h_S_) main_v21 main_c_7
  let main_v23 : IVec S_ 1 := andi main_v18 main_v22
  main_v23

def fn {F : FTy → Type} [FloatOps F] (main_arg0 : FVec F S131072x3 .f32) (main_arg1 : FVec F S56x56x64 .f32) (main_arg2 : FVec F S28x28x128 .f32) (main_arg3 : FVec F S14x14x256 .f32) (main_arg4 : FVec F S7x7x512 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S56x56x64 .f32 := Host.absf main_arg1
  let main_cst_0 : FVec F S_ .f32 := constant S_ .f32 0x7F800000#32
  let main_v5 : FVec F S56x56x64 .f32 := broadcastInDim S56x56x64 ![] bcast_S_S56x56x64 main_cst_0
  let main_v6 : IVec S56x56x64 1 := cmpf .olt main_v4 main_v5
  let main_c_1 : IVec S_ 1 := constantI S_ 1 1#1
  let main_v7 : IVec S_ 1 := (fun x v => Host.reduce IntOp.andi x v reducesTo_S56x56x64_S_d0_1_2 h_S_) main_v6 main_c_1
  let main_v8 : IVec S_ 1 := andi main_v3 main_v7
  let main_v9 : FVec F S28x28x128 .f32 := Host.absf main_arg2
  let main_cst_2 : FVec F S_ .f32 := constant S_ .f32 0x7F800000#32
  let main_v10 : FVec F S28x28x128 .f32 := broadcastInDim S28x28x128 ![] bcast_S_S28x28x128 main_cst_2
  let main_v11 : IVec S28x28x128 1 := cmpf .olt main_v9 main_v10
  let main_c_3 : IVec S_ 1 := constantI S_ 1 1#1
  let main_v12 : IVec S_ 1 := (fun x v => Host.reduce IntOp.andi x v reducesTo_S28x28x128_S_d0_1_2 h_S_) main_v11 main_c_3
  let main_v13 : IVec S_ 1 := andi main_v8 main_v12
  let main_v14 : FVec F S14x14x256 .f32 := Host.absf main_arg3
  let main_cst_4 : FVec F S_ .f32 := constant S_ .f32 0x7F800000#32
  let main_v15 : FVec F S14x14x256 .f32 := broadcastInDim S14x14x256 ![] bcast_S_S14x14x256 main_cst_4
  let main_v16 : IVec S14x14x256 1 := cmpf .olt main_v14 main_v15
  fn_part1 (F := F) main_arg4 main_v13 main_v16
-- ==== Kernel.lean ====
abbrev S131072x3 : Shape := ⟨2, ![131072, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S3136x64 : Shape := ⟨2, ![3136, 64]⟩
abbrev S784x128 : Shape := ⟨2, ![784, 128]⟩
abbrev S196x256 : Shape := ⟨2, ![196, 256]⟩
abbrev S49x512 : Shape := ⟨2, ![49, 512]⟩
abbrev S131072x963 : Shape := ⟨2, ![131072, 963]⟩
abbrev S256x3 : Shape := ⟨2, ![256, 3]⟩
abbrev S256x963 : Shape := ⟨2, ![256, 963]⟩
abbrev S256x1 : Shape := ⟨2, ![256, 1]⟩
abbrev S256x3136 : Shape := ⟨2, ![256, 3136]⟩
abbrev S256x64 : Shape := ⟨2, ![256, 64]⟩
abbrev S256x784 : Shape := ⟨2, ![256, 784]⟩
abbrev S256x128 : Shape := ⟨2, ![256, 128]⟩
abbrev S256x196 : Shape := ⟨2, ![256, 196]⟩
abbrev S256x256 : Shape := ⟨2, ![256, 256]⟩
abbrev S256x49 : Shape := ⟨2, ![256, 49]⟩
abbrev S256x512 : Shape := ⟨2, ![256, 512]⟩

abbrev nBuf : Space → Nat
  | .hbm => 10
  | .vmem => 8
  | .smem => 0
  | _ => 0

abbrev bufTy : (tb : Table) → Fin (tcTables nBuf tb) → BufTy
  | .hbm, ⟨0, _⟩ => ⟨S131072x3, .f32⟩
  | .hbm, ⟨1, _⟩ => ⟨S56x56x64, .f32⟩
  | .hbm, ⟨2, _⟩ => ⟨S28x28x128, .f32⟩
  | .hbm, ⟨3, _⟩ => ⟨S14x14x256, .f32⟩
  | .hbm, ⟨4, _⟩ => ⟨S7x7x512, .f32⟩
  | .hbm, ⟨5, _⟩ => ⟨S3136x64, .f32⟩
  | .hbm, ⟨6, _⟩ => ⟨S784x128, .f32⟩
  | .hbm, ⟨7, _⟩ => ⟨S196x256, .f32⟩
  | .hbm, ⟨8, _⟩ => ⟨S49x512, .f32⟩
  | .hbm, ⟨9, _⟩ => ⟨S131072x963, .f32⟩
  | .local _ .vmem, ⟨0, _⟩ => ⟨S256x3, .f32⟩
  | .local _ .vmem, ⟨1, _⟩ => ⟨S256x3, .f32⟩
  | .local _ .vmem, ⟨2, _⟩ => ⟨S3136x64, .f32⟩
  | .local _ .vmem, ⟨3, _⟩ => ⟨S784x128, .f32⟩
  | .local _ .vmem, ⟨4, _⟩ => ⟨S196x256, .f32⟩
  | .local _ .vmem, ⟨5, _⟩ => ⟨S49x512, .f32⟩
  | .local _ .vmem, ⟨6, _⟩ => ⟨S256x963, .f32⟩
  | .local _ .vmem, ⟨7, _⟩ => ⟨S256x963, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3136x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S196x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S49x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x963 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S56x56x64_S3136x64 : S56x56x64.ShapeCasts S3136x64
  shapeCasts_S28x28x128_S784x128 : S28x28x128.ShapeCasts S784x128
  shapeCasts_S14x14x256_S196x256 : S14x14x256.ShapeCasts S196x256
  shapeCasts_S7x7x512_S49x512 : S7x7x512.ShapeCasts S49x512
  inb_S256x3_S256x3_0_0 : ∀ a, (![0, 0] : Fin 2 → Nat) a + S256x3.size a ≤ S256x3.size a
  h_S256x3 : 0 < S256x3.numel
  slices_S256x3_o0_0_S256x1 : S256x3.Slices ![0, 0] S256x1
  slices_S256x3_o0_1_S256x1 : S256x3.Slices ![0, 1] S256x1
  slices_S256x3_o0_2_S256x1 : S256x3.Slices ![0, 2] S256x1
  iota_S256x3136_d1_w32 : S256x3136.Iotas .tc 32 [1]
  broadcasts_S256x1_S256x3136 : S256x1.Broadcasts S256x3136
  shapeCasts_S256x1_S256x1 : S256x1.ShapeCasts S256x1
  inb_S3136x64_S3136x64_0_0 : ∀ a, (![0, 0] : Fin 2 → Nat) a + S3136x64.size a ≤ S3136x64.size a
  h_S3136x64 : 0 < S3136x64.numel
  shapeCasts_S3136x64_S3136x64 : S3136x64.ShapeCasts S3136x64
  iota_S256x784_d1_w32 : S256x784.Iotas .tc 32 [1]
  broadcasts_S256x1_S256x784 : S256x1.Broadcasts S256x784
  inb_S784x128_S784x128_0_0 : ∀ a, (![0, 0] : Fin 2 → Nat) a + S784x128.size a ≤ S784x128.size a
  h_S784x128 : 0 < S784x128.numel
  shapeCasts_S784x128_S784x128 : S784x128.ShapeCasts S784x128
  iota_S256x196_d1_w32 : S256x196.Iotas .tc 32 [1]
  broadcasts_S256x1_S256x196 : S256x1.Broadcasts S256x196
  inb_S196x256_S196x256_0_0 : ∀ a, (![0, 0] : Fin 2 → Nat) a + S196x256.size a ≤ S196x256.size a
  h_S196x256 : 0 < S196x256.numel
  shapeCasts_S196x256_S196x256 : S196x256.ShapeCasts S196x256
  iota_S256x49_d1_w32 : S256x49.Iotas .tc 32 [1]
  broadcasts_S256x1_S256x49 : S256x1.Broadcasts S256x49
  inb_S49x512_S49x512_0_0 : ∀ a, (![0, 0] : Fin 2 → Nat) a + S49x512.size a ≤ S49x512.size a
  h_S49x512 : 0 < S49x512.numel
  shapeCasts_S49x512_S49x512 : S49x512.ShapeCasts S49x512
  concatenates_S256x3_S256x64_S256x128_S256x256_S256x512_S256x963_d1 : Shape.Concatenates [S256x3, S256x64, S256x128, S256x256, S256x512] S256x963 1
  inb_S256x963_S256x963_0_0 : ∀ a, (![0, 0] : Fin 2 → Nat) a + S256x963.size a ≤ S256x963.size a
  h_S256x963 : 0 < S256x963.numel
  dot_S256x3136_S3136x64_S256x64_1_0_0_1_n_n_wf : DotDims.WF S256x3136 S3136x64 S256x64 [1] [0] [0] [1] [] []
  dot_S256x784_S784x128_S256x128_1_0_0_1_n_n_wf : DotDims.WF S256x784 S784x128 S256x128 [1] [0] [0] [1] [] []
  dot_S256x196_S196x256_S256x256_1_0_0_1_n_n_wf : DotDims.WF S256x196 S196x256 S256x256 [1] [0] [0] [1] [] []
  dot_S256x49_S49x512_S256x512_1_0_0_1_n_n_wf : DotDims.WF S256x49 S49x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S131072x3.size a
  hwx0_0 : ∀ i : grid0.Coords, EltTy.bits .f32 = 32 ∨ (Rect.block (s := S131072x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3136x64.size a ≤ S3136x64.size a
  hwx0_1 : ∀ i : grid0.Coords, EltTy.bits .f32 = 32 ∨ (Rect.block (s := S3136x64) S3136x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x128.size a ≤ S784x128.size a
  hwx0_2 : ∀ i : grid0.Coords, EltTy.bits .f32 = 32 ∨ (Rect.block (s := S784x128) S784x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S196x256.size a ≤ S196x256.size a
  hwx0_3 : ∀ i : grid0.Coords, EltTy.bits .f32 = 32 ∨ (Rect.block (s := S196x256) S196x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S49x512.size a ≤ S49x512.size a
  hwx0_4 : ∀ i : grid0.Coords, EltTy.bits .f32 = 32 ∨ (Rect.block (s := S49x512) S49x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x963.size a ≤ S131072x963.size a
  hwx0_5 : ∀ i : grid0.Coords, EltTy.bits .f32 = 32 ∨ (Rect.block (s := S131072x963) S256x963.size (cc0_transform_5 i) (hinb0_5 i)).WholeWords (EltTy.packing .f32)

variable [Facts₀]

def dot_S256x3136_S3136x64_S256x64_1_0_0_1_n_n : DotDims S256x3136 S3136x64 S256x64 where
  lhsContracting := [1]
  rhsContracting := [0]
  lhsNonContracting := [0]
  rhsNonContracting := [1]
  lhsBatch := []
  rhsBatch := []
  wf := dot_S256x3136_S3136x64_S256x64_1_0_0_1_n_n_wf
def dot_S256x784_S784x128_S256x128_1_0_0_1_n_n : DotDims S256x784 S784x128 S256x128 where
  lhsContracting := [1]
  rhsContracting := [0]
  lhsNonContracting := [0]
  rhsNonContracting := [1]
  lhsBatch := []
  rhsBatch := []
  wf := dot_S256x784_S784x128_S256x128_1_0_0_1_n_n_wf
def dot_S256x196_S196x256_S256x256_1_0_0_1_n_n : DotDims S256x196 S196x256 S256x256 where
  lhsContracting := [1]
  rhsContracting := [0]
  lhsNonContracting := [0]
  rhsNonContracting := [1]
  lhsBatch := []
  rhsBatch := []
  wf := dot_S256x196_S196x256_S256x256_1_0_0_1_n_n_wf
def dot_S256x49_S49x512_S256x512_1_0_0_1_n_n : DotDims S256x49 S49x512 S256x512 where
  lhsContracting := [1]
  rhsContracting := [0]
  lhsNonContracting := [0]
  rhsNonContracting := [1]
  lhsBatch := []
  rhsBatch := []
  wf := dot_S256x49_S49x512_S256x512_1_0_0_1_n_n_wf

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3136x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S784x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S196x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S49x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x963.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x3 : Shape := ⟨2, ![131072, 3]⟩
abbrev S56x56x64 : Shape := ⟨3, ![56, 56, 64]⟩
abbrev S28x28x128 : Shape := ⟨3, ![28, 28, 128]⟩
abbrev S14x14x256 : Shape := ⟨3, ![14, 14, 256]⟩
abbrev S7x7x512 : Shape := ⟨3, ![7, 7, 512]⟩
abbrev S131072x1 : Shape := ⟨2, ![131072, 1]⟩
abbrev S131072 : Shape := ⟨1, ![131072]⟩
abbrev S_ : Shape := ⟨0, ![]⟩
abbrev S131072x2 : Shape := ⟨2, ![131072, 2]⟩
abbrev S131072x64 : Shape := ⟨2, ![131072, 64]⟩
abbrev S131072x128 : Shape := ⟨2, ![131072, 128]⟩
abbrev S131072x256 : Shape := ⟨2, ![131072, 256]⟩
abbrev S131072x512 : Shape := ⟨2, ![131072, 512]⟩
abbrev S131072x963 : Shape := ⟨2, ![131072, 963]⟩

abbrev nBuf : Space → Nat
  | .hbm => 497
  | .vmem => 0
  | .smem => 0
  | _ => 0

abbrev hbmTy0_0 (i : Nat) : BufTy := match i % 128 with
  | 0 => ⟨S131072x3, .f32⟩
  | 1 => ⟨S56x56x64, .f32⟩
  | 2 => ⟨S28x28x128, .f32⟩
  | 3 => ⟨S14x14x256, .f32⟩
  | 4 => ⟨S7x7x512, .f32⟩
  | 5 => ⟨S131072x1, .f32⟩
  | 6 => ⟨S131072, .f32⟩
  | 7 => ⟨S131072x1, .f32⟩
  | 8 => ⟨S131072, .f32⟩
  | 9 => ⟨S131072x1, .f32⟩
  | 10 => ⟨S131072, .f32⟩
  | 11 => ⟨S131072, .f32⟩
  | 12 => ⟨S131072, .f32⟩
  | 13 => ⟨S131072, .f32⟩
  | 14 => ⟨S_, .f32⟩
  | 15 => ⟨S131072, .f32⟩
  | 16 => ⟨S131072, .f32⟩
  | 17 => ⟨S_, .f32⟩
  | 18 => ⟨S131072, .f32⟩
  | 19 => ⟨S131072, .f32⟩
  | 20 => ⟨S131072, .f32⟩
  | 21 => ⟨S131072, .f32⟩
  | 22 => ⟨S_, .f32⟩
  | 23 => ⟨S131072, .f32⟩
  | 24 => ⟨S131072, .f32⟩
  | 25 => ⟨S_, .f32⟩
  | 26 => ⟨S131072, .f32⟩
  | 27 => ⟨S131072, .f32⟩
  | 28 => ⟨S_, .f32⟩
  | 29 => ⟨S_, .f32⟩
  | 30 => ⟨S_, .f32⟩
  | 31 => ⟨S131072, .f32⟩
  | 32 => ⟨S131072, .f32⟩
  | 33 => ⟨S_, .f32⟩
  | 34 => ⟨S131072, .f32⟩
  | 35 => ⟨S131072, .f32⟩
  | 36 => ⟨S_, .f32⟩
  | 37 => ⟨S_, .f32⟩
  | 38 => ⟨S_, .f32⟩
  | 39 => ⟨S131072, .f32⟩
  | 40 => ⟨S131072, .f32⟩
  | 41 => ⟨S_, .f32⟩
  | 42 => ⟨S131072, .f32⟩
  | 43 => ⟨S131072, .f32⟩
  | 44 => ⟨S_, .f32⟩
  | 45 => ⟨S131072, .f32⟩
  | 46 => ⟨S131072, .f32⟩
  | 47 => ⟨S_, .f32⟩
  | 48 => ⟨S131072, .f32⟩
  | 49 => ⟨S131072, .f32⟩
  | 50 => ⟨S131072, .f32⟩
  | 51 => ⟨S131072, .f32⟩
  | 52 => ⟨S131072, .f32⟩
  | 53 => ⟨S131072, .f32⟩
  | 54 => ⟨S131072, .i32⟩
  | 55 => ⟨S131072, .i32⟩
  | 56 => ⟨S131072, .i32⟩
  | 57 => ⟨S131072, .i32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S_, .i32⟩
  | 66 => ⟨S131072, .i32⟩
  | 67 => ⟨S131072, .i1⟩
  | 68 => ⟨S_, .i32⟩
  | 69 => ⟨S131072, .i32⟩
  | 70 => ⟨S131072, .i32⟩
  | 71 => ⟨S131072, .i32⟩
  | 72 => ⟨S131072x1, .i32⟩
  | 73 => ⟨S131072x1, .i32⟩
  | 74 => ⟨S131072x2, .i32⟩
  | 75 => ⟨S131072x64, .f32⟩
  | 76 => ⟨S_, .i32⟩
  | 77 => ⟨S131072, .i32⟩
  | 78 => ⟨S131072, .i1⟩
  | 79 => ⟨S_, .i32⟩
  | 80 => ⟨S131072, .i32⟩
  | 81 => ⟨S131072, .i32⟩
  | 82 => ⟨S131072, .i32⟩
  | 83 => ⟨S_, .i32⟩
  | 84 => ⟨S131072, .i32⟩
  | 85 => ⟨S131072, .i1⟩
  | 86 => ⟨S_, .i32⟩
  | 87 => ⟨S131072, .i32⟩
  | 88 => ⟨S131072, .i32⟩
  | 89 => ⟨S131072, .i32⟩
  | 90 => ⟨S131072x1, .i32⟩
  | 91 => ⟨S131072x1, .i32⟩
  | 92 => ⟨S131072x2, .i32⟩
  | 93 => ⟨S131072x64, .f32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S131072x1, .i32⟩
  | 109 => ⟨S131072x1, .i32⟩
  | 110 => ⟨S131072x2, .i32⟩
  | 111 => ⟨S131072x64, .f32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072x1, .i32⟩
  | _ => ⟨S131072x3, .f32⟩

abbrev hbmTy0_1 (i : Nat) : BufTy := match i % 128 with
  | 0 => ⟨S131072x2, .i32⟩
  | 1 => ⟨S131072x64, .f32⟩
  | 2 => ⟨S131072, .f32⟩
  | 3 => ⟨S131072, .f32⟩
  | 4 => ⟨S131072, .f32⟩
  | 5 => ⟨S131072x1, .f32⟩
  | 6 => ⟨S131072, .f32⟩
  | 7 => ⟨S131072, .f32⟩
  | 8 => ⟨S131072, .f32⟩
  | 9 => ⟨S131072x1, .f32⟩
  | 10 => ⟨S131072, .f32⟩
  | 11 => ⟨S131072, .f32⟩
  | 12 => ⟨S131072, .f32⟩
  | 13 => ⟨S131072x1, .f32⟩
  | 14 => ⟨S131072, .f32⟩
  | 15 => ⟨S131072, .f32⟩
  | 16 => ⟨S131072, .f32⟩
  | 17 => ⟨S131072x1, .f32⟩
  | 18 => ⟨S131072x64, .f32⟩
  | 19 => ⟨S131072x64, .f32⟩
  | 20 => ⟨S131072x64, .f32⟩
  | 21 => ⟨S131072x64, .f32⟩
  | 22 => ⟨S131072x64, .f32⟩
  | 23 => ⟨S131072x64, .f32⟩
  | 24 => ⟨S131072x64, .f32⟩
  | 25 => ⟨S131072x64, .f32⟩
  | 26 => ⟨S131072x64, .f32⟩
  | 27 => ⟨S131072x64, .f32⟩
  | 28 => ⟨S131072x64, .f32⟩
  | 29 => ⟨S_, .f32⟩
  | 30 => ⟨S131072, .f32⟩
  | 31 => ⟨S131072, .f32⟩
  | 32 => ⟨S_, .f32⟩
  | 33 => ⟨S131072, .f32⟩
  | 34 => ⟨S131072, .f32⟩
  | 35 => ⟨S131072, .f32⟩
  | 36 => ⟨S131072, .f32⟩
  | 37 => ⟨S131072, .f32⟩
  | 38 => ⟨S131072, .f32⟩
  | 39 => ⟨S131072, .i32⟩
  | 40 => ⟨S131072, .i32⟩
  | 41 => ⟨S131072, .i32⟩
  | 42 => ⟨S131072, .i32⟩
  | 43 => ⟨S_, .i32⟩
  | 44 => ⟨S131072, .i32⟩
  | 45 => ⟨S131072, .i1⟩
  | 46 => ⟨S_, .i32⟩
  | 47 => ⟨S131072, .i32⟩
  | 48 => ⟨S131072, .i32⟩
  | 49 => ⟨S131072, .i32⟩
  | 50 => ⟨S_, .i32⟩
  | 51 => ⟨S131072, .i32⟩
  | 52 => ⟨S131072, .i1⟩
  | 53 => ⟨S_, .i32⟩
  | 54 => ⟨S131072, .i32⟩
  | 55 => ⟨S131072, .i32⟩
  | 56 => ⟨S131072, .i32⟩
  | 57 => ⟨S131072x1, .i32⟩
  | 58 => ⟨S131072x1, .i32⟩
  | 59 => ⟨S131072x2, .i32⟩
  | 60 => ⟨S131072x128, .f32⟩
  | 61 => ⟨S_, .i32⟩
  | 62 => ⟨S131072, .i32⟩
  | 63 => ⟨S131072, .i1⟩
  | 64 => ⟨S_, .i32⟩
  | 65 => ⟨S131072, .i32⟩
  | 66 => ⟨S131072, .i32⟩
  | 67 => ⟨S131072, .i32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072x1, .i32⟩
  | 77 => ⟨S131072x2, .i32⟩
  | 78 => ⟨S131072x128, .f32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S_, .i32⟩
  | 87 => ⟨S131072, .i32⟩
  | 88 => ⟨S131072, .i1⟩
  | 89 => ⟨S_, .i32⟩
  | 90 => ⟨S131072, .i32⟩
  | 91 => ⟨S131072, .i32⟩
  | 92 => ⟨S131072, .i32⟩
  | 93 => ⟨S131072x1, .i32⟩
  | 94 => ⟨S131072x1, .i32⟩
  | 95 => ⟨S131072x2, .i32⟩
  | 96 => ⟨S131072x128, .f32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S_, .i32⟩
  | 105 => ⟨S131072, .i32⟩
  | 106 => ⟨S131072, .i1⟩
  | 107 => ⟨S_, .i32⟩
  | 108 => ⟨S131072, .i32⟩
  | 109 => ⟨S131072, .i32⟩
  | 110 => ⟨S131072, .i32⟩
  | 111 => ⟨S131072x1, .i32⟩
  | 112 => ⟨S131072x1, .i32⟩
  | 113 => ⟨S131072x2, .i32⟩
  | 114 => ⟨S131072x128, .f32⟩
  | 115 => ⟨S131072, .f32⟩
  | 116 => ⟨S131072, .f32⟩
  | 117 => ⟨S131072, .f32⟩
  | 118 => ⟨S131072x1, .f32⟩
  | 119 => ⟨S131072, .f32⟩
  | 120 => ⟨S131072, .f32⟩
  | 121 => ⟨S131072, .f32⟩
  | 122 => ⟨S131072x1, .f32⟩
  | 123 => ⟨S131072, .f32⟩
  | 124 => ⟨S131072, .f32⟩
  | 125 => ⟨S131072, .f32⟩
  | 126 => ⟨S131072x1, .f32⟩
  | 127 => ⟨S131072, .f32⟩
  | _ => ⟨S131072x3, .f32⟩

abbrev hbmTy0_2 (i : Nat) : BufTy := match i % 128 with
  | 0 => ⟨S131072, .f32⟩
  | 1 => ⟨S131072, .f32⟩
  | 2 => ⟨S131072x1, .f32⟩
  | 3 => ⟨S131072x128, .f32⟩
  | 4 => ⟨S131072x128, .f32⟩
  | 5 => ⟨S131072x128, .f32⟩
  | 6 => ⟨S131072x128, .f32⟩
  | 7 => ⟨S131072x128, .f32⟩
  | 8 => ⟨S131072x128, .f32⟩
  | 9 => ⟨S131072x128, .f32⟩
  | 10 => ⟨S131072x128, .f32⟩
  | 11 => ⟨S131072x128, .f32⟩
  | 12 => ⟨S131072x128, .f32⟩
  | 13 => ⟨S131072x128, .f32⟩
  | 14 => ⟨S_, .f32⟩
  | 15 => ⟨S131072, .f32⟩
  | 16 => ⟨S131072, .f32⟩
  | 17 => ⟨S_, .f32⟩
  | 18 => ⟨S131072, .f32⟩
  | 19 => ⟨S131072, .f32⟩
  | 20 => ⟨S131072, .f32⟩
  | 21 => ⟨S131072, .f32⟩
  | 22 => ⟨S131072, .f32⟩
  | 23 => ⟨S131072, .f32⟩
  | 24 => ⟨S131072, .i32⟩
  | 25 => ⟨S131072, .i32⟩
  | 26 => ⟨S131072, .i32⟩
  | 27 => ⟨S131072, .i32⟩
  | 28 => ⟨S_, .i32⟩
  | 29 => ⟨S131072, .i32⟩
  | 30 => ⟨S131072, .i1⟩
  | 31 => ⟨S_, .i32⟩
  | 32 => ⟨S131072, .i32⟩
  | 33 => ⟨S131072, .i32⟩
  | 34 => ⟨S131072, .i32⟩
  | 35 => ⟨S_, .i32⟩
  | 36 => ⟨S131072, .i32⟩
  | 37 => ⟨S131072, .i1⟩
  | 38 => ⟨S_, .i32⟩
  | 39 => ⟨S131072, .i32⟩
  | 40 => ⟨S131072, .i32⟩
  | 41 => ⟨S131072, .i32⟩
  | 42 => ⟨S131072x1, .i32⟩
  | 43 => ⟨S131072x1, .i32⟩
  | 44 => ⟨S131072x2, .i32⟩
  | 45 => ⟨S131072x256, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S_, .i32⟩
  | 54 => ⟨S131072, .i32⟩
  | 55 => ⟨S131072, .i1⟩
  | 56 => ⟨S_, .i32⟩
  | 57 => ⟨S131072, .i32⟩
  | 58 => ⟨S131072, .i32⟩
  | 59 => ⟨S131072, .i32⟩
  | 60 => ⟨S131072x1, .i32⟩
  | 61 => ⟨S131072x1, .i32⟩
  | 62 => ⟨S131072x2, .i32⟩
  | 63 => ⟨S131072x256, .f32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072x1, .i32⟩
  | 80 => ⟨S131072x2, .i32⟩
  | 81 => ⟨S131072x256, .f32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072x1, .i32⟩
  | 98 => ⟨S131072x2, .i32⟩
  | 99 => ⟨S131072x256, .f32⟩
  | 100 => ⟨S131072, .f32⟩
  | 101 => ⟨S131072, .f32⟩
  | 102 => ⟨S131072, .f32⟩
  | 103 => ⟨S131072x1, .f32⟩
  | 104 => ⟨S131072, .f32⟩
  | 105 => ⟨S131072, .f32⟩
  | 106 => ⟨S131072, .f32⟩
  | 107 => ⟨S131072x1, .f32⟩
  | 108 => ⟨S131072, .f32⟩
  | 109 => ⟨S131072, .f32⟩
  | 110 => ⟨S131072, .f32⟩
  | 111 => ⟨S131072x1, .f32⟩
  | 112 => ⟨S131072, .f32⟩
  | 113 => ⟨S131072, .f32⟩
  | 114 => ⟨S131072, .f32⟩
  | 115 => ⟨S131072x1, .f32⟩
  | 116 => ⟨S131072x256, .f32⟩
  | 117 => ⟨S131072x256, .f32⟩
  | 118 => ⟨S131072x256, .f32⟩
  | 119 => ⟨S131072x256, .f32⟩
  | 120 => ⟨S131072x256, .f32⟩
  | 121 => ⟨S131072x256, .f32⟩
  | 122 => ⟨S131072x256, .f32⟩
  | 123 => ⟨S131072x256, .f32⟩
  | 124 => ⟨S131072x256, .f32⟩
  | 125 => ⟨S131072x256, .f32⟩
  | 126 => ⟨S131072x256, .f32⟩
  | 127 => ⟨S_, .f32⟩
  | _ => ⟨S131072x3, .f32⟩

abbrev hbmTy0_3 (i : Nat) : BufTy := match i % 128 with
  | 0 => ⟨S131072, .f32⟩
  | 1 => ⟨S131072, .f32⟩
  | 2 => ⟨S_, .f32⟩
  | 3 => ⟨S131072, .f32⟩
  | 4 => ⟨S131072, .f32⟩
  | 5 => ⟨S131072, .f32⟩
  | 6 => ⟨S131072, .f32⟩
  | 7 => ⟨S131072, .f32⟩
  | 8 => ⟨S131072, .f32⟩
  | 9 => ⟨S131072, .i32⟩
  | 10 => ⟨S131072, .i32⟩
  | 11 => ⟨S131072, .i32⟩
  | 12 => ⟨S131072, .i32⟩
  | 13 => ⟨S_, .i32⟩
  | 14 => ⟨S131072, .i32⟩
  | 15 => ⟨S131072, .i1⟩
  | 16 => ⟨S_, .i32⟩
  | 17 => ⟨S131072, .i32⟩
  | 18 => ⟨S131072, .i32⟩
  | 19 => ⟨S131072, .i32⟩
  | 20 => ⟨S_, .i32⟩
  | 21 => ⟨S131072, .i32⟩
  | 22 => ⟨S131072, .i1⟩
  | 23 => ⟨S_, .i32⟩
  | 24 => ⟨S131072, .i32⟩
  | 25 => ⟨S131072, .i32⟩
  | 26 => ⟨S131072, .i32⟩
  | 27 => ⟨S131072x1, .i32⟩
  | 28 => ⟨S131072x1, .i32⟩
  | 29 => ⟨S131072x2, .i32⟩
  | 30 => ⟨S131072x512, .f32⟩
  | 31 => ⟨S_, .i32⟩
  | 32 => ⟨S131072, .i32⟩
  | 33 => ⟨S131072, .i1⟩
  | 34 => ⟨S_, .i32⟩
  | 35 => ⟨S131072, .i32⟩
  | 36 => ⟨S131072, .i32⟩
  | 37 => ⟨S131072, .i32⟩
  | 38 => ⟨S_, .i32⟩
  | 39 => ⟨S131072, .i32⟩
  | 40 => ⟨S131072, .i1⟩
  | 41 => ⟨S_, .i32⟩
  | 42 => ⟨S131072, .i32⟩
  | 43 => ⟨S131072, .i32⟩
  | 44 => ⟨S131072, .i32⟩
  | 45 => ⟨S131072x1, .i32⟩
  | 46 => ⟨S131072x1, .i32⟩
  | 47 => ⟨S131072x2, .i32⟩
  | 48 => ⟨S131072x512, .f32⟩
  | 49 => ⟨S_, .i32⟩
  | 50 => ⟨S131072, .i32⟩
  | 51 => ⟨S131072, .i1⟩
  | 52 => ⟨S_, .i32⟩
  | 53 => ⟨S131072, .i32⟩
  | 54 => ⟨S131072, .i32⟩
  | 55 => ⟨S131072, .i32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072x1, .i32⟩
  | 65 => ⟨S131072x2, .i32⟩
  | 66 => ⟨S131072x512, .f32⟩
  | 67 => ⟨S_, .i32⟩
  | 68 => ⟨S131072, .i32⟩
  | 69 => ⟨S131072, .i1⟩
  | 70 => ⟨S_, .i32⟩
  | 71 => ⟨S131072, .i32⟩
  | 72 => ⟨S131072, .i32⟩
  | 73 => ⟨S131072, .i32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S131072x1, .i32⟩
  | 82 => ⟨S131072x1, .i32⟩
  | 83 => ⟨S131072x2, .i32⟩
  | 84 => ⟨S131072x512, .f32⟩
  | 85 => ⟨S131072, .f32⟩
  | 86 => ⟨S131072, .f32⟩
  | 87 => ⟨S131072, .f32⟩
  | 88 => ⟨S131072x1, .f32⟩
  | 89 => ⟨S131072, .f32⟩
  | 90 => ⟨S131072, .f32⟩
  | 91 => ⟨S131072, .f32⟩
  | 92 => ⟨S131072x1, .f32⟩
  | 93 => ⟨S131072, .f32⟩
  | 94 => ⟨S131072, .f32⟩
  | 95 => ⟨S131072, .f32⟩
  | 96 => ⟨S131072x1, .f32⟩
  | 97 => ⟨S131072, .f32⟩
  | 98 => ⟨S131072, .f32⟩
  | 99 => ⟨S131072, .f32⟩
  | 100 => ⟨S131072x1, .f32⟩
  | 101 => ⟨S131072x512, .f32⟩
  | 102 => ⟨S131072x512, .f32⟩
  | 103 => ⟨S131072x512, .f32⟩
  | 104 => ⟨S131072x512, .f32⟩
  | 105 => ⟨S131072x512, .f32⟩
  | 106 => ⟨S131072x512, .f32⟩
  | 107 => ⟨S131072x512, .f32⟩
  | 108 => ⟨S131072x512, .f32⟩
  | 109 => ⟨S131072x512, .f32⟩
  | 110 => ⟨S131072x512, .f32⟩
  | 111 => ⟨S131072x512, .f32⟩
  | 112 => ⟨S131072x963, .f32⟩
  | _ => ⟨S131072x3, .f32⟩

abbrev hbmTy (i : Nat) : BufTy := match i / 128 with
  | 0 => hbmTy0_0 i
  | 1 => hbmTy0_1 i
  | 2 => hbmTy0_2 i
  | 3 => hbmTy0_3 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v19 : Ref sig .tc := ⟨.hbm, 35, rfl⟩
abbrev main_cst_5 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v20 : Ref sig .tc := ⟨.hbm, 43, rfl⟩
abbrev main_cst_7 : Ref sig .tc := ⟨.hbm, 44, rfl⟩
abbrev main_v21 : Ref sig .tc := ⟨.hbm, 45, rfl⟩
abbrev main_v22 : Ref sig .tc := ⟨.hbm, 46, rfl⟩
abbrev main_cst_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_10 : Ref sig .tc := ⟨.hbm, 65, rfl⟩
abbrev main_v38 : Ref sig .tc := ⟨.hbm, 66, rfl⟩
abbrev main_v39 : Ref sig .tc := ⟨.hbm, 67, rfl⟩
abbrev main_c_11 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_c_12 : Ref sig .tc := ⟨.hbm, 76, rfl⟩
abbrev main_v47 : Ref sig .tc := ⟨.hbm, 77, rfl⟩
abbrev main_v48 : Ref sig .tc := ⟨.hbm, 78, rfl⟩
abbrev main_c_13 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_c_15 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_v62 : Ref sig .tc := ⟨.hbm, 96, rfl⟩
abbrev main_c_17 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_18 : Ref sig .tc := ⟨.hbm, 101, rfl⟩
abbrev main_v66 : Ref sig .tc := ⟨.hbm, 102, rfl⟩
abbrev main_v67 : Ref sig .tc := ⟨.hbm, 103, rfl⟩
abbrev main_c_19 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_20 : Ref sig .tc := ⟨.hbm, 112, rfl⟩
abbrev main_v75 : Ref sig .tc := ⟨.hbm, 113, rfl⟩
abbrev main_v76 : Ref sig .tc := ⟨.hbm, 114, rfl⟩
abbrev main_c_21 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_22 : Ref sig .tc := ⟨.hbm, 119, rfl⟩
abbrev main_v80 : Ref sig .tc := ⟨.hbm, 120, rfl⟩
abbrev main_v81 : Ref sig .tc := ⟨.hbm, 121, rfl⟩
abbrev main_c_23 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_24 : Ref sig .tc := ⟨.hbm, 157, rfl⟩
abbrev main_v116 : Ref sig .tc := ⟨.hbm, 158, rfl⟩
abbrev main_v117 : Ref sig .tc := ⟨.hbm, 159, rfl⟩
abbrev main_cst_25 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_26 : Ref sig .tc := ⟨.hbm, 171, rfl⟩
abbrev main_v128 : Ref sig .tc := ⟨.hbm, 172, rfl⟩
abbrev main_v129 : Ref sig .tc := ⟨.hbm, 173, rfl⟩
abbrev main_c_27 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_c_28 : Ref sig .tc := ⟨.hbm, 178, rfl⟩
abbrev main_v133 : Ref sig .tc := ⟨.hbm, 179, rfl⟩
abbrev main_v134 : Ref sig .tc := ⟨.hbm, 180, rfl⟩
abbrev main_c_29 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_c_30 : Ref sig .tc := ⟨.hbm, 189, rfl⟩
abbrev main_v142 : Ref sig .tc := ⟨.hbm, 190, rfl⟩
abbrev main_v143 : Ref sig .tc := ⟨.hbm, 191, rfl⟩
abbrev main_c_31 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_c_32 : Ref sig .tc := ⟨.hbm, 196, rfl⟩
abbrev main_v147 : Ref sig .tc := ⟨.hbm, 197, rfl⟩
abbrev main_v148 : Ref sig .tc := ⟨.hbm, 198, rfl⟩
abbrev main_c_33 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_c_34 : Ref sig .tc := ⟨.hbm, 207, rfl⟩
abbrev main_v156 : Ref sig .tc := ⟨.hbm, 208, rfl⟩
abbrev main_v157 : Ref sig .tc := ⟨.hbm, 209, rfl⟩
abbrev main_c_35 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_36 : Ref sig .tc := ⟨.hbm, 214, rfl⟩
abbrev main_v161 : Ref sig .tc := ⟨.hbm, 215, rfl⟩
abbrev main_v162 : Ref sig .tc := ⟨.hbm, 216, rfl⟩
abbrev main_c_37 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_c_38 : Ref sig .tc := ⟨.hbm, 225, rfl⟩
abbrev main_v170 : Ref sig .tc := ⟨.hbm, 226, rfl⟩
abbrev main_v171 : Ref sig .tc := ⟨.hbm, 227, rfl⟩
abbrev main_c_39 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_40 : Ref sig .tc := ⟨.hbm, 232, rfl⟩
abbrev main_v175 : Ref sig .tc := ⟨.hbm, 233, rfl⟩
abbrev main_v176 : Ref sig .tc := ⟨.hbm, 234, rfl⟩
abbrev main_c_41 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_cst_42 : Ref sig .tc := ⟨.hbm, 270, rfl⟩
abbrev main_v211 : Ref sig .tc := ⟨.hbm, 271, rfl⟩
abbrev main_v212 : Ref sig .tc := ⟨.hbm, 272, rfl⟩
abbrev main_cst_43 : Ref sig .tc := ⟨.hbm, 273, rfl⟩
abbrev main_v213 : Ref sig .tc := ⟨.hbm, 274, rfl⟩
abbrev main_v214 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_c_44 : Ref sig .tc := ⟨.hbm, 284, rfl⟩
abbrev main_v223 : Ref sig .tc := ⟨.hbm, 285, rfl⟩
abbrev main_v224 : Ref sig .tc := ⟨.hbm, 286, rfl⟩
abbrev main_c_45 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_c_46 : Ref sig .tc := ⟨.hbm, 291, rfl⟩
abbrev main_v228 : Ref sig .tc := ⟨.hbm, 292, rfl⟩
abbrev main_v229 : Ref sig .tc := ⟨.hbm, 293, rfl⟩
abbrev main_c_47 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_c_48 : Ref sig .tc := ⟨.hbm, 302, rfl⟩
abbrev main_v237 : Ref sig .tc := ⟨.hbm, 303, rfl⟩
abbrev main_v238 : Ref sig .tc := ⟨.hbm, 304, rfl⟩
abbrev main_c_49 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_c_50 : Ref sig .tc := ⟨.hbm, 309, rfl⟩
abbrev main_v242 : Ref sig .tc := ⟨.hbm, 310, rfl⟩
abbrev main_v243 : Ref sig .tc := ⟨.hbm, 311, rfl⟩
abbrev main_c_51 : Ref sig .tc := ⟨.hbm, 312, rfl⟩
abbrev main_v244 : Ref sig .tc := ⟨.hbm, 313, rfl⟩
abbrev main_v245 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_c_52 : Ref sig .tc := ⟨.hbm, 320, rfl⟩
abbrev main_v251 : Ref sig .tc := ⟨.hbm, 321, rfl⟩
abbrev main_v252 : Ref sig .tc := ⟨.hbm, 322, rfl⟩
abbrev main_c_53 : Ref sig .tc := ⟨.hbm, 323, rfl⟩
abbrev main_v253 : Ref sig .tc := ⟨.hbm, 324, rfl⟩
abbrev main_v254 : Ref sig .tc := ⟨.hbm, 325, rfl⟩
abbrev main_v255 : Ref sig .tc := ⟨.hbm, 326, rfl⟩
abbrev main_c_54 : Ref sig .tc := ⟨.hbm, 327, rfl⟩
abbrev main_v256 : Ref sig .tc := ⟨.hbm, 328, rfl⟩
abbrev main_v257 : Ref sig .tc := ⟨.hbm, 329, rfl⟩
abbrev main_c_55 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_c_56 : Ref sig .tc := ⟨.hbm, 338, rfl⟩
abbrev main_v265 : Ref sig .tc := ⟨.hbm, 339, rfl⟩
abbrev main_v266 : Ref sig .tc := ⟨.hbm, 340, rfl⟩
abbrev main_c_57 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_c_58 : Ref sig .tc := ⟨.hbm, 345, rfl⟩
abbrev main_v270 : Ref sig .tc := ⟨.hbm, 346, rfl⟩
abbrev main_v271 : Ref sig .tc := ⟨.hbm, 347, rfl⟩
abbrev main_c_59 : Ref sig .tc := ⟨.hbm, 348, rfl⟩
abbrev main_v272 : Ref sig .tc := ⟨.hbm, 349, rfl⟩
abbrev main_v273 : Ref sig .tc := ⟨.hbm, 350, rfl⟩
abbrev main_v274 : Ref sig .tc := ⟨.hbm, 351, rfl⟩
abbrev main_v275 : Ref sig .tc := ⟨.hbm, 352, rfl⟩
abbrev main_v276 : Ref sig .tc := ⟨.hbm, 353, rfl⟩
abbrev main_v277 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_v282 : Ref sig .tc := ⟨.hbm, 359, rfl⟩
abbrev main_v283 : Ref sig .tc := ⟨.hbm, 360, rfl⟩
abbrev main_v284 : Ref sig .tc := ⟨.hbm, 361, rfl⟩
abbrev main_v285 : Ref sig .tc := ⟨.hbm, 362, rfl⟩
abbrev main_v286 : Ref sig .tc := ⟨.hbm, 363, rfl⟩
abbrev main_v287 : Ref sig .tc := ⟨.hbm, 364, rfl⟩
abbrev main_v288 : Ref sig .tc := ⟨.hbm, 365, rfl⟩
abbrev main_v289 : Ref sig .tc := ⟨.hbm, 366, rfl⟩
abbrev main_v290 : Ref sig .tc := ⟨.hbm, 367, rfl⟩
abbrev main_v291 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_v303 : Ref sig .tc := ⟨.hbm, 380, rfl⟩
abbrev main_v304 : Ref sig .tc := ⟨.hbm, 381, rfl⟩
abbrev main_v305 : Ref sig .tc := ⟨.hbm, 382, rfl⟩
abbrev main_cst_60 : Ref sig .tc := ⟨.hbm, 383, rfl⟩
abbrev main_v306 : Ref sig .tc := ⟨.hbm, 384, rfl⟩
abbrev main_v307 : Ref sig .tc := ⟨.hbm, 385, rfl⟩
abbrev main_cst_61 : Ref sig .tc := ⟨.hbm, 386, rfl⟩
abbrev main_v308 : Ref sig .tc := ⟨.hbm, 387, rfl⟩
abbrev main_v309 : Ref sig .tc := ⟨.hbm, 388, rfl⟩
abbrev main_v310 : Ref sig .tc := ⟨.hbm, 389, rfl⟩
abbrev main_v311 : Ref sig .tc := ⟨.hbm, 390, rfl⟩
abbrev main_v312 : Ref sig .tc := ⟨.hbm, 391, rfl⟩
abbrev main_v313 : Ref sig .tc := ⟨.hbm, 392, rfl⟩
abbrev main_v314 : Ref sig .tc := ⟨.hbm, 393, rfl⟩
abbrev main_v315 : Ref sig .tc := ⟨.hbm, 394, rfl⟩
abbrev main_v316 : Ref sig .tc := ⟨.hbm, 395, rfl⟩
abbrev main_v317 : Ref sig .tc := ⟨.hbm, 396, rfl⟩
abbrev main_c_62 : Ref sig .tc := ⟨.hbm, 397, rfl⟩
abbrev main_v318 : Ref sig .tc := ⟨.hbm, 398, rfl⟩
abbrev main_v319 : Ref sig .tc := ⟨.hbm, 399, rfl⟩
abbrev main_c_63 : Ref sig .tc := ⟨.hbm, 400, rfl⟩
abbrev main_v320 : Ref sig .tc := ⟨.hbm, 401, rfl⟩
abbrev main_v321 : Ref sig .tc := ⟨.hbm, 402, rfl⟩
abbrev main_v322 : Ref sig .tc := ⟨.hbm, 403, rfl⟩
abbrev main_c_64 : Ref sig .tc := ⟨.hbm, 404, rfl⟩
abbrev main_v323 : Ref sig .tc := ⟨.hbm, 405, rfl⟩
abbrev main_v324 : Ref sig .tc := ⟨.hbm, 406, rfl⟩
abbrev main_c_65 : Ref sig .tc := ⟨.hbm, 407, rfl⟩
abbrev main_v325 : Ref sig .tc := ⟨.hbm, 408, rfl⟩
abbrev main_v326 : Ref sig .tc := ⟨.hbm, 409, rfl⟩
abbrev main_v327 : Ref sig .tc := ⟨.hbm, 410, rfl⟩
abbrev main_v328 : Ref sig .tc := ⟨.hbm, 411, rfl⟩
abbrev main_v329 : Ref sig .tc := ⟨.hbm, 412, rfl⟩
abbrev main_v330 : Ref sig .tc := ⟨.hbm, 413, rfl⟩
abbrev main_v331 : Ref sig .tc := ⟨.hbm, 414, rfl⟩
abbrev main_c_66 : Ref sig .tc := ⟨.hbm, 415, rfl⟩
abbrev main_v332 : Ref sig .tc := ⟨.hbm, 416, rfl⟩
abbrev main_v333 : Ref sig .tc := ⟨.hbm, 417, rfl⟩
abbrev main_c_67 : Ref sig .tc := ⟨.hbm, 418, rfl⟩
abbrev main_v334 : Ref sig .tc := ⟨.hbm, 419, rfl⟩
abbrev main_v335 : Ref sig .tc := ⟨.hbm, 420, rfl⟩
abbrev main_v336 : Ref sig .tc := ⟨.hbm, 421, rfl⟩
abbrev main_c_68 : Ref sig .tc := ⟨.hbm, 422, rfl⟩
abbrev main_v337 : Ref sig .tc := ⟨.hbm, 423, rfl⟩
abbrev main_v338 : Ref sig .tc := ⟨.hbm, 424, rfl⟩
abbrev main_c_69 : Ref sig .tc := ⟨.hbm, 425, rfl⟩
abbrev main_v339 : Ref sig .tc := ⟨.hbm, 426, rfl⟩
abbrev main_v340 : Ref sig .tc := ⟨.hbm, 427, rfl⟩
abbrev main_v341 : Ref sig .tc := ⟨.hbm, 428, rfl⟩
abbrev main_v342 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_c_70 : Ref sig .tc := ⟨.hbm, 433, rfl⟩
abbrev main_v346 : Ref sig .tc := ⟨.hbm, 434, rfl⟩
abbrev main_v347 : Ref sig .tc := ⟨.hbm, 435, rfl⟩
abbrev main_c_71 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_c_72 : Ref sig .tc := ⟨.hbm, 440, rfl⟩
abbrev main_v351 : Ref sig .tc := ⟨.hbm, 441, rfl⟩
abbrev main_v352 : Ref sig .tc := ⟨.hbm, 442, rfl⟩
abbrev main_c_73 : Ref sig .tc := ⟨.hbm, 443, rfl⟩
abbrev main_v353 : Ref sig .tc := ⟨.hbm, 444, rfl⟩
abbrev main_v354 : Ref sig .tc := ⟨.hbm, 445, rfl⟩
abbrev main_v355 : Ref sig .tc := ⟨.hbm, 446, rfl⟩
abbrev main_v356 : Ref sig .tc := ⟨.hbm, 447, rfl⟩
abbrev main_v357 : Ref sig .tc := ⟨.hbm, 448, rfl⟩
abbrev main_v358 : Ref sig .tc := ⟨.hbm, 449, rfl⟩
abbrev main_v359 : Ref sig .tc := ⟨.hbm, 450, rfl⟩
abbrev main_c_74 : Ref sig .tc := ⟨.hbm, 451, rfl⟩
abbrev main_v360 : Ref sig .tc := ⟨.hbm, 452, rfl⟩
abbrev main_v361 : Ref sig .tc := ⟨.hbm, 453, rfl⟩
abbrev main_c_75 : Ref sig .tc := ⟨.hbm, 454, rfl⟩
abbrev main_v362 : Ref sig .tc := ⟨.hbm, 455, rfl⟩
abbrev main_v363 : Ref sig .tc := ⟨.hbm, 456, rfl⟩
abbrev main_v364 : Ref sig .tc := ⟨.hbm, 457, rfl⟩
abbrev main_c_76 : Ref sig .tc := ⟨.hbm, 458, rfl⟩
abbrev main_v365 : Ref sig .tc := ⟨.hbm, 459, rfl⟩
abbrev main_v366 : Ref sig .tc := ⟨.hbm, 460, rfl⟩
abbrev main_c_77 : Ref sig .tc := ⟨.hbm, 461, rfl⟩
abbrev main_v367 : Ref sig .tc := ⟨.hbm, 462, rfl⟩
abbrev main_v368 : Ref sig .tc := ⟨.hbm, 463, rfl⟩
abbrev main_v369 : Ref sig .tc := ⟨.hbm, 464, rfl⟩
abbrev main_v370 : Ref sig .tc := ⟨.hbm, 465, rfl⟩
abbrev main_v371 : Ref sig .tc := ⟨.hbm, 466, rfl⟩
abbrev main_v372 : Ref sig .tc := ⟨.hbm, 467, rfl⟩
abbrev main_v373 : Ref sig .tc := ⟨.hbm, 468, rfl⟩
abbrev main_v374 : Ref sig .tc := ⟨.hbm, 469, rfl⟩
abbrev main_v375 : Ref sig .tc := ⟨.hbm, 470, rfl⟩
abbrev main_v376 : Ref sig .tc := ⟨.hbm, 471, rfl⟩
abbrev main_v377 : Ref sig .tc := ⟨.hbm, 472, rfl⟩
abbrev main_v378 : Ref sig .tc := ⟨.hbm, 473, rfl⟩
abbrev main_v379 : Ref sig .tc := ⟨.hbm, 474, rfl⟩
abbrev main_v380 : Ref sig .tc := ⟨.hbm, 475, rfl⟩
abbrev main_v381 : Ref sig .tc := ⟨.hbm, 476, rfl⟩
abbrev main_v382 : Ref sig .tc := ⟨.hbm, 477, rfl⟩
abbrev main_v383 : Ref sig .tc := ⟨.hbm, 478, rfl⟩
abbrev main_v384 : Ref sig .tc := ⟨.hbm, 479, rfl⟩
abbrev main_v385 : Ref sig .tc := ⟨.hbm, 480, rfl⟩
abbrev main_v386 : Ref sig .tc := ⟨.hbm, 481, rfl⟩
abbrev main_v387 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_v391 : Ref sig .tc := ⟨.hbm, 486, rfl⟩
abbrev main_v392 : Ref sig .tc := ⟨.hbm, 487, rfl⟩
abbrev main_v393 : Ref sig .tc := ⟨.hbm, 488, rfl⟩
abbrev main_v394 : Ref sig .tc := ⟨.hbm, 489, rfl⟩
abbrev main_v395 : Ref sig .tc := ⟨.hbm, 490, rfl⟩
abbrev main_v396 : Ref sig .tc := ⟨.hbm, 491, rfl⟩
abbrev main_v397 : Ref sig .tc := ⟨.hbm, 492, rfl⟩
abbrev main_v398 : Ref sig .tc := ⟨.hbm, 493, rfl⟩
abbrev main_v399 : Ref sig .tc := ⟨.hbm, 494, rfl⟩
abbrev main_v400 : Ref sig .tc := ⟨.hbm, 495, rfl⟩
abbrev main_v401 : Ref sig .tc := ⟨.hbm, 496, rfl⟩

abbrev nD : Nat := 1
abbrev τ : Topo := Topo.v7x

variable {F : FTy → Type} [FloatOps F]

class Facts₀ : Prop where
  slices_S131072x3_S131072x1_0_0 : S131072x3.Slices ![0, 0] S131072x1
  shapeCasts_S131072x1_S131072 : S131072x1.ShapeCasts S131072
  slices_S131072x3_S131072x1_0_1 : S131072x3.Slices ![0, 1] S131072x1
  slices_S131072x3_S131072x1_0_2 : S131072x3.Slices ![0, 2] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x2_d1 : Shape.Concatenates [S131072x1, S131072x1] S131072x2 1
  bcast_S131072x1_S131072x64_0_1 : S131072x1.BroadcastsInDim S131072x64 (![0, 1] : Fin 2 → Fin S131072x64.rank)
  bcast_S131072x1_S131072x128_0_1 : S131072x1.BroadcastsInDim S131072x128 (![0, 1] : Fin 2 → Fin S131072x128.rank)
  bcast_S131072x1_S131072x256_0_1 : S131072x1.BroadcastsInDim S131072x256 (![0, 1] : Fin 2 → Fin S131072x256.rank)
  bcast_S131072x1_S131072x512_0_1 : S131072x1.BroadcastsInDim S131072x512 (![0, 1] : Fin 2 → Fin S131072x512.rank)
  concatenates_S131072x3_S131072x64_S131072x128_S131072x256_S131072x512_S131072x963_d1 : Shape.Concatenates [S131072x3, S131072x64, S131072x128, S131072x256, S131072x512] S131072x963 1
  gather_S56x56x64_S131072x2_S131072x64_1_01_n_n_01_1_1164_wf : GatherDims.WF S56x56x64 S131072x2 S131072x64 [1] [0, 1] [] [0, 1] [] 1 ![1, 1, 64]
  gather_S28x28x128_S131072x2_S131072x128_1_01_n_n_01_1_11128_wf : GatherDims.WF S28x28x128 S131072x2 S131072x128 [1] [0, 1] [] [0, 1] [] 1 ![1, 1, 128]
  gather_S14x14x256_S131072x2_S131072x256_1_01_n_n_01_1_11256_wf : GatherDims.WF S14x14x256 S131072x2 S131072x256 [1] [0, 1] [] [0, 1] [] 1 ![1, 1, 256]
  gather_S7x7x512_S131072x2_S131072x512_1_01_n_n_01_1_11512_wf : GatherDims.WF S7x7x512 S131072x2 S131072x512 [1] [0, 1] [] [0, 1] [] 1 ![1, 1, 512]

variable [Facts₀]

def gather_S56x56x64_S131072x2_S131072x64_1_01_n_n_01_1_1164 : GatherDims S56x56x64 S131072x2 S131072x64 where
  offsetDims := [1]
  collapsedSliceDims := [0, 1]
  operandBatchingDims := []
  startIndicesBatchingDims := []
  startIndexMap := [0, 1]
  indexVectorDim := 1
  sliceSizes := ![1, 1, 64]
  wf := gather_S56x56x64_S131072x2_S131072x64_1_01_n_n_01_1_1164_wf
def gather_S28x28x128_S131072x2_S131072x128_1_01_n_n_01_1_11128 : GatherDims S28x28x128 S131072x2 S131072x128 where
  offsetDims := [1]
  collapsedSliceDims := [0, 1]
  operandBatchingDims := []
  startIndicesBatchingDims := []
  startIndexMap := [0, 1]
  indexVectorDim := 1
  sliceSizes := ![1, 1, 128]
  wf := gather_S28x28x128_S131072x2_S131072x128_1_01_n_n_01_1_11128_wf
def gather_S14x14x256_S131072x2_S131072x256_1_01_n_n_01_1_11256 : GatherDims S14x14x256 S131072x2 S131072x256 where
  offsetDims := [1]
  collapsedSliceDims := [0, 1]
  operandBatchingDims := []
  startIndicesBatchingDims := []
  startIndexMap := [0, 1]
  indexVectorDim := 1
  sliceSizes := ![1, 1, 256]
  wf := gather_S14x14x256_S131072x2_S131072x256_1_01_n_n_01_1_11256_wf
def gather_S7x7x512_S131072x2_S131072x512_1_01_n_n_01_1_11512 : GatherDims S7x7x512 S131072x2 S131072x512 where
  offsetDims := [1]
  collapsedSliceDims := [0, 1]
  operandBatchingDims := []
  startIndicesBatchingDims := []
  startIndexMap := [0, 1]
  indexVectorDim := 1
  sliceSizes := ![1, 1, 512]
  wf := gather_S7x7x512_S131072x2_S131072x512_1_01_n_n_01_1_11512_wf

class Facts : Prop extends Facts₀ where

variable [Facts]
-- ==== Proof.KDefs.lean ====
/-
  The kernel's body as named pieces: the two clipped pixel-coordinate columns of a block of points, and per pyramid
  level the weighted row matrix and its product with the level's flat table; the block the body stores is the
  points' coordinates followed by the four products, side by side.
-/
import proofs.«154923_j8203387535722_2_alg».proof.Proof.Gen.KernelIdeal.Frame

noncomputable section

namespace Cert.KernelIdeal.Body

open Cert.KernelIdeal Cert.KernelIdeal.Gen Idealize.ShloMosaic Idealize.ShloMosaic.TcCoe Idealize.SL.Sem

variable {F : FTy → Type} [FloatOps F]

/-- The row coordinate of each point's pixel, clipped: a column over the block's points. -/
def hcol (v0 : Vec F S256x3 .f32) : FVec F S256x1 .f32 :=
  have v2 : FVec F S256x1 .f32 := extractStridedSlice S256x1 ![0, 1] v0 slices_S256x3_o0_1_S256x1
  have v3 : FVec F S256x1 .f32 := extractStridedSlice S256x1 ![0, 2] v0 slices_S256x3_o0_2_S256x1
  have cst : F .f32 := Scalar.ofBits .f32 0x00000000#32
  have v4 : FVec F S256x1 .f32 := broadcast S256x1 cst
  have v5 : FVec F S256x1 .f32 := subf v4 v3
  have cst_1 : F .f32 := Scalar.ofBits .f32 0x00000000#32
  have v6 : FVec F S256x1 .f32 := broadcast S256x1 cst_1
  have v7 : FVec F S256x1 .f32 := subf v6 v2
  have v8 : FVec F S256x1 .f32 := divf v7 v5
  have cst_2 : F .f32 := Scalar.ofBits .f32 0x43780000#32
  have v9 : FVec F S256x1 .f32 := broadcast S256x1 cst_2
  have v10 : FVec F S256x1 .f32 := mulf v9 v8
  have cst_3 : F .f32 := Scalar.ofBits .f32 0x42E00000#32
  have v11 : FVec F S256x1 .f32 := broadcast S256x1 cst_3
  have v12 : FVec F S256x1 .f32 := addf v10 v11
  have cst_6 : F .f32 := Scalar.ofBits .f32 0x00000000#32
  have cst_7 : F .f32 := Scalar.ofBits .f32 0x435F0000#32
  have v18 : FVec F S256x1 .f32 := broadcast S256x1 cst_6
  have v19 : FVec F S256x1 .f32 := maximumf v18 v12
  have v20 : FVec F S256x1 .f32 := broadcast S256x1 cst_7
  have v21 : FVec F S256x1 .f32 := minimumf v20 v19
  v21

/-- The column coordinate of each point's pixel, clipped. -/
def wcol (v0 : Vec F S256x3 .f32) : FVec F S256x1 .f32 :=
  have v1 : FVec F S256x1 .f32 := extractStridedSlice S256x1 ![0, 0] v0 slices_S256x3_o0_0_S256x1
  have v3 : FVec F S256x1 .f32 := extractStridedSlice S256x1 ![0, 2] v0 slices_S256x3_o0_2_S256x1
  have cst : F .f32 := Scalar.ofBits .f32 0x00000000#32
  have v4 : FVec F S256x1 .f32 := broadcast S256x1 cst
  have v5 : FVec F S256x1 .f32 := subf v4 v3
  have v13 : FVec F S256x1 .f32 := divf v1 v5
  have cst_4 : F .f32 := Scalar.ofBits .f32 0x43780000#32
  have v14 : FVec F S256x1 .f32 := broadcast S256x1 cst_4
  have v15 : FVec F S256x1 .f32 := mulf v14 v13
  have cst_5 : F .f32 := Scalar.ofBits .f32 0x42E00000#32
  have v16 : FVec F S256x1 .f32 := broadcast S256x1 cst_5
  have v17 : FVec F S256x1 .f32 := addf v15 v16
  have cst_8 : F .f32 := Scalar.ofBits .f32 0x00000000#32
  have cst_9 : F .f32 := Scalar.ofBits .f32 0x435F0000#32
  have v22 : FVec F S256x1 .f32 := broadcast S256x1 cst_8
  have v23 : FVec F S256x1 .f32 := maximumf v22 v17
  have v24 : FVec F S256x1 .f32 := broadcast S256x1 cst_9
  have v25 : FVec F S256x1 .f32 := minimumf v24 v23
  v25

/-- Level 1: per point a row over the 56×56 cells, zero plus the four corner weights at the corners' flat positions. -/
def rowW1 (v21 v25 : FVec F S256x1 .f32) : FVec F S256x3136 .f32 :=
  have cst_10 : F .f32 := Scalar.ofBits .f32 0x40800000#32
  have v26 : FVec F S256x1 .f32 := broadcast S256x1 cst_10
  have v27 : FVec F S256x1 .f32 := divf v21 v26
  have cst_11 : F .f32 := Scalar.ofBits .f32 0x40800000#32
  have v28 : FVec F S256x1 .f32 := broadcast S256x1 cst_11
  have v29 : FVec F S256x1 .f32 := divf v25 v28
  have v30 : FVec F S256x1 .f32 := floor v27
  have v31 : FVec F S256x1 .f32 := ceil v27
  have v32 : FVec F S256x1 .f32 := floor v29
  have v33 : FVec F S256x1 .f32 := ceil v29
  have cst_12 : F .f32 := Scalar.ofBits .f32 0x00000000#32
  have cst_13 : F .f32 := Scalar.ofBits .f32 0x425C0000#32
  have v34 : FVec F S256x1 .f32 := broadcast S256x1 cst_12
  have v35 : FVec F S256x1 .f32 := maximumf v34 v30
  have v36 : FVec F S256x1 .f32 := broadcast S256x1 cst_13
  have v37 : FVec F S256x1 .f32 := minimumf v36 v35
  have v38 : IVec S256x1 32 := fptosi 32 v37
  have cst_14 : F .f32 := Scalar.ofBits .f32 0x00000000#32
  have cst_15 : F .f32 := Scalar.ofBits .f32 0x425C0000#32
  have v39 : FVec F S256x1 .f32 := broadcast S256x1 cst_14
  have v40 : FVec F S256x1 .f32 := maximumf v39 v31
  have v41 : FVec F S256x1 .f32 := broadcast S256x1 cst_15
  have v42 : FVec F S256x1 .f32 := minimumf v41 v40
  have v43 : IVec S256x1 32 := fptosi 32 v42
  have cst_16 : F .f32 := Scalar.ofBits .f32 0x00000000#32
  have cst_17 : F .f32 := Scalar.ofBits .f32 0x425C0000#32
  have v44 : FVec F S256x1 .f32 := broadcast S256x1 cst_16
  have v45 : FVec F S256x1 .f32 := maximumf v44 v32
  have v46 : FVec F S256x1 .f32 := broadcast S256x1 cst_17
  have v47 : FVec F S256x1 .f32 := minimumf v46 v45
  have v48 : IVec S256x1 32 := fptosi 32 v47
  have cst_18 : F .f32 := Scalar.ofBits .f32 0x00000000#32
  have cst_19 : F .f32 := Scalar.ofBits .f32 0x425C0000#32
  have v49 : FVec F S256x1 .f32 := broadcast S256x1 cst_18
  have v50 : FVec F S256x1 .f32 := maximumf v49 v33
  have v51 : FVec F S256x1 .f32 := broadcast S256x1 cst_19
  have v52 : FVec F S256x1 .f32 := minimumf v51 v50
  have v53 : IVec S256x1 32 := fptosi 32 v52
  have v54 : FVec F S256x1 .f32 := subf v31 v27
  have v55 : FVec F S256x1 .f32 := subf v27 v30
  have v56 : FVec F S256x1 .f32 := subf v33 v29
  have v57 : FVec F S256x1 .f32 := subf v29 v32
  have v58 : FVec F S256x1 .f32 := mulf v54 v56
  have v59 : FVec F S256x1 .f32 := mulf v55 v56
  have v60 : FVec F S256x1 .f32 := mulf v54 v57
  have v61 : FVec F S256x1 .f32 := mulf v55 v57
  have v62 : IVec S256x3136 32 := iota .tc S256x3136 32 [1] iota_S256x3136_d1_w32
  have cst_20 : F .f32 := Scalar.ofBits .f32 0x00000000#32
  have v63 : FVec F S256x3136 .f32 := broadcast S256x3136 cst_20
  have c56_i32 : BitVec 32 := 56#32
  have v64 : IVec S256x1 32 := broadcast S256x1 c56_i32
  have v65 : IVec S256x1 32 := muli v38 v64
  have v66 : IVec S256x1 32 := addi v65 v48
  have v67 : IVec S256x3136 32 := broadcastTo S256x3136 v66 broadcasts_S256x1_S256x3136
  have v68 : IVec S256x3136 1 := cmpi .eq v62 v67
  have cst_21 : F .f32 := Scalar.ofBits .f32 0x00000000#32
  have v69 : FVec F S256x1 .f32 := shapeCast S256x1 v58 shapeCasts_S256x1_S256x1
  have v70 : FVec F S256x3136 .f32 := broadcastTo S256x3136 v69 broadcasts_S256x1_S256x3136
  have v71 : FVec F S256x3136 .f32 := broadcast S256x3136 cst_21
  have v72 : FVec F S256x3136 .f32 := select v68 v70 v71
  have v73 : FVec F S256x3136 .f32 := addf v63 v72
  have c56_i32_22 : BitVec 32 := 56#32
  have v74 : IVec S256x1 32 := broadcast S256x1 c56_i32_22
  have v75 : IVec S256x1 32 := muli v43 v74
  have v76 : IVec S256x1 32 := addi v75 v48
  have v77 : IVec S256x3136 32 := broadcastTo S256x3136 v76 broadcasts_S256x1_S256x3136
  have v78 : IVec S256x3136 1 := cmpi .eq v62 v77
  have cst_23 : F .f32 := Scalar.ofBits .f32 0x00000000#32
  have v79 : FVec F S256x1 .f32 := shapeCast S256x1 v59 shapeCasts_S256x1_S256x1
  have v80 : FVec F S256x3136 .f32 := broadcastTo S256x3136 v79 broadcasts_S256x1_S256x3136
  have v81 : FVec F S256x3136 .f32 := broadcast S256x3136 cst_23
  have v82 : FVec F S256x3136 .f32 := select v78 v80 v81
  have v83 : FVec F S256x3136 .f32 := addf v73 v82
  have c56_i32_24 : BitVec 32 := 56#32
  have v84 : IVec S256x1 32 := broadcast S256x1 c56_i32_24
  have v85 : IVec S256x1 32 := muli v38 v84
  have v86 : IVec S256x1 32 := addi v85 v53
  have v87 : IVec S256x3136 32 := broadcastTo S256x3136 v86 broadcasts_S256x1_S256x3136
  have v88 : IVec S256x3136 1 := cmpi .eq v62 v87
  have cst_25 : F .f32 := Scalar.ofBits .f32 0x00000000#32
  have v89 : FVec F S256x1 .f32 := shapeCast S256x1 v60 shapeCasts_S256x1_S256x1
  have v90 : FVec F S256x3136 .f32 := broadcastTo S256x3136 v89 broadcasts_S256x1_S256x3136
  have v91 : FVec F S256x3136 .f32 := broadcast S256x3136 cst_25
  have v92 : FVec F S256x3136 .f32 := select v88 v90 v91
  have v93 : FVec F S256x3136 .f32 := addf v83 v92
  have c56_i32_26 : BitVec 32 := 56#32
  have v94 : IVec S256x1 32 := broadcast S256x1 c56_i32_26
  have v95 : IVec S256x1 32 := muli v43 v94
  have v96 : IVec S256x1 32 := addi v95 v53
  have v97 : IVec S256x3136 32 := broadcastTo S256x3136 v96 broadcasts_S256x1_S256x3136
  have v98 : IVec S256x3136 1 := cmpi .eq v62 v97
  have cst_27 : F .f32 := Scalar.ofBits .f32 0x00000000#32
  have v99 : FVec F S256x1 .f32 := shapeCast S256x1 v61 shapeCasts_S256x1_S256x1
  have v100 : FVec F S256x3136 .f32 := broadcastTo S256x3136 v99 broadcasts_S256x1_S256x3136
  have v101 : FVec F S256x3136 .f32 := broadcast S256x3136 cst_27
  have v102 : FVec F S256x3136 .f32 := select v98 v100 v101
  have v103 : FVec F S256x3136 .f32 := addf v93 v102
  v103

/-- Level 1: the rows against the level's flat table. -/
def lvl1 (v21 v25 : FVec F S256x1 .f32) (f : Vec F S3136x64 .f32) : FVec F S256x64 .f32 :=
  matmul dot_S256x3136_S3136x64_S256x64_1_0_0_1_n_n (some .fp32) (rowW1 v21 v25) (shapeCast S3136x64 f shapeCasts_S3136x64_S3136x64) (constant S256x64 .f32 0x00000000#32)

/-- Level 2: per point a row over the 28×28 cells, zero plus the four corner weights at the corners' flat positions. -/
def rowW2 (v21 v25 : FVec F S256x1 .f32) : FVec F S256x784 .f32 :=
  have cst_31 : F .f32 := Scalar.ofBits .f32 0x41000000#32
  have v107 : FVec F S256x1 .f32 := broadcast S256x1 cst_31
  have v108 : FVec F S256x1 .f32 := divf v21 v107
  have cst_32 : F .f32 := Scalar.ofBits .f32 0x41000000#32
  have v109 : FVec F S256x1 .f32 := broadcast S256x1 cst_32
  have v110 : FVec F S256x1 .f32 := divf v25 v109
  have v111 : FVec F S256x1 .f32 := floor v108
  have v112 : FVec F S256x1 .f32 := ceil v108
  have v113 : FVec F S256x1 .f32 := floor v110
  have v114 : FVec F S256x1 .f32 := ceil v110
  have cst_33 : F .f32 := Scalar.ofBits .f32 0x00000000#32
  have cst_34 : F .f32 := Scalar.ofBits .f32 0x41D80000#32
  have v115 : FVec F S256x1 .f32 := broadcast S256x1 cst_33
  have v116 : FVec F S256x1 .f32 := maximumf v115 v111
  have v117 : FVec F S256x1 .f32 := broadcast S256x1 cst_34
  have v118 : FVec F S256x1 .f32 := minimumf v117 v116
  have v119 : IVec S256x1 32 := fptosi 32 v118
  have cst_35 : F .f32 := Scalar.ofBits .f32 0x00000000#32
  have cst_36 : F .f32 := Scalar.ofBits .f32 0x41D80000#32
  have v120 : FVec F S256x1 .f32 := broadcast S256x1 cst_35
  have v121 : FVec F S256x1 .f32 := maximumf v120 v112
  have v122 : FVec F S256x1 .f32 := broadcast S256x1 cst_36
  have v123 : FVec F S256x1 .f32 := minimumf v122 v121
  have v124 : IVec S256x1 32 := fptosi 32 v123
  have cst_37 : F .f32 := Scalar.ofBits .f32 0x00000000#32
  have cst_38 : F .f32 := Scalar.ofBits .f32 0x41D80000#32
  have v125 : FVec F S256x1 .f32 := broadcast S256x1 cst_37
  have v126 : FVec F S256x1 .f32 := maximumf v125 v113
  have v127 : FVec F S256x1 .f32 := broadcast S256x1 cst_38
  have v128 : FVec F S256x1 .f32 := minimumf v127 v126
  have v129 : IVec S256x1 32 := fptosi 32 v128
  have cst_39 : F .f32 := Scalar.ofBits .f32 0x00000000#32
  have cst_40 : F .f32 := Scalar.ofBits .f32 0x41D80000#32
  have v130 : FVec F S256x1 .f32 := broadcast S256x1 cst_39
  have v131 : FVec F S256x1 .f32 := maximumf v130 v114
  have v132 : FVec F S256x1 .f32 := broadcast S256x1 cst_40
  have v133 : FVec F S256x1 .f32 := minimumf v132 v131
  have v134 : IVec S256x1 32 := fptosi 32 v133
  have v135 : FVec F S256x1 .f32 := subf v112 v108
  have v136 : FVec F S256x1 .f32 := subf v108 v111
  have v137 : FVec F S256x1 .f32 := subf v114 v110
  have v138 : FVec F S256x1 .f32 := subf v110 v113
  have v139 : FVec F S256x1 .f32 := mulf v135 v137
  have v140 : FVec F S256x1 .f32 := mulf v136 v137
  have v141 : FVec F S256x1 .f32 := mulf v135 v138
  have v142 : FVec F S256x1 .f32 := mulf v136 v138
  have v143 : IVec S256x784 32 := iota .tc S256x784 32 [1] iota_S256x784_d1_w32
  have cst_41 : F .f32 := Scalar.ofBits .f32 0x00000000#32
  have v144 : FVec F S256x784 .f32 := broadcast S256x784 cst_41
  have c28_i32 : BitVec 32 := 28#32
  have v145 : IVec S256x1 32 := broadcast S256x1 c28_i32
  have v146 : IVec S256x1 32 := muli v119 v145
  have v147 : IVec S256x1 32 := addi v146 v129
  have v148 : IVec S256x784 32 := broadcastTo S256x784 v147 broadcasts_S256x1_S256x784
  have v149 : IVec S256x784 1 := cmpi .eq v143 v148
  have cst_42 : F .f32 := Scalar.ofBits .f32 0x00000000#32
  have v150 : FVec F S256x1 .f32 := shapeCast S256x1 v139 shapeCasts_S256x1_S256x1
  have v151 : FVec F S256x784 .f32 := broadcastTo S256x784 v150 broadcasts_S256x1_S256x784
  have v152 : FVec F S256x784 .f32 := broadcast S256x784 cst_42
  have v153 : FVec F S256x784 .f32 := select v149 v151 v152
  have v154 : FVec F S256x784 .f32 := addf v144 v153
  have c28_i32_43 : BitVec 32 := 28#32
  have v155 : IVec S256x1 32 := broadcast S256x1 c28_i32_43
  have v156 : IVec S256x1 32 := muli v124 v155
  have v157 : IVec S256x1 32 := addi v156 v129
  have v158 : IVec S256x784 32 := broadcastTo S256x784 v157 broadcasts_S256x1_S256x784
  have v159 : IVec S256x784 1 := cmpi .eq v143 v158
  have cst_44 : F .f32 := Scalar.ofBits .f32 0x00000000#32
  have v160 : FVec F S256x1 .f32 := shapeCast S256x1 v140 shapeCasts_S256x1_S256x1
  have v161 : FVec F S256x784 .f32 := broadcastTo S256x784 v160 broadcasts_S256x1_S256x784
  have v162 : FVec F S256x784 .f32 := broadcast S256x784 cst_44
  have v163 : FVec F S256x784 .f32 := select v159 v161 v162
  have v164 : FVec F S256x784 .f32 := addf v154 v163
  have c28_i32_45 : BitVec 32 := 28#32
  have v165 : IVec S256x1 32 := broadcast S256x1 c28_i32_45
  have v166 : IVec S256x1 32 := muli v119 v165
  have v167 : IVec S256x1 32 := addi v166 v134
  have v168 : IVec S256x784 32 := broadcastTo S256x784 v167 broadcasts_S256x1_S256x784
  have v169 : IVec S256x784 1 := cmpi .eq v143 v168
  have cst_46 : F .f32 := Scalar.ofBits .f32 0x00000000#32
  have v170 : FVec F S256x1 .f32 := shapeCast S256x1 v141 shapeCasts_S256x1_S256x1
  have v171 : FVec F S256x784 .f32 := broadcastTo S256x784 v170 broadcasts_S256x1_S256x784
  have v172 : FVec F S256x784 .f32 := broadcast S256x784 cst_46
  have v173 : FVec F S256x784 .f32 := select v169 v171 v172
  have v174 : FVec F S256x784 .f32 := addf v164 v173
  have c28_i32_47 : BitVec 32 := 28#32
  have v175 : IVec S256x1 32 := broadcast S256x1 c28_i32_47
  have v176 : IVec S256x1 32 := muli v124 v175
  have v177 : IVec S256x1 32 := addi v176 v134
  have v178 : IVec S256x784 32 := broadcastTo S256x784 v177 broadcasts_S256x1_S256x784
  have v179 : IVec S256x784 1 := cmpi .eq v143 v178
  have cst_48 : F .f32 := Scalar.ofBits .f32 0x00000000#32
  have v180 : FVec F S256x1 .f32 := shapeCast S256x1 v142 shapeCasts_S256x1_S256x1
  have v181 : FVec F S256x784 .f32 := broadcastTo S256x784 v180 broadcasts_S256x1_S256x784
  have v182 : FVec F S256x784 .f32 := broadcast S256x784 cst_48
  have v183 : FVec F S256x784 .f32 := select v179 v181 v182
  have v184 : FVec F S256x784 .f32 := addf v174 v183
  v184

/-- Level 2: the rows against the level's flat table. -/
def lvl2 (v21 v25 : FVec F S256x1 .f32) (f : Vec F S784x128 .f32) : FVec F S256x128 .f32 :=
  matmul dot_S256x784_S784x128_S256x128_1_0_0_1_n_n (some .fp32) (rowW2 v21 v25) (shapeCast S784x128 f shapeCasts_S784x128_S784x128) (constant S256x128 .f32 0x00000000#32)

/-- Level 3: per point a row over the 14×14 cells, zero plus the four corner weights at the corners' flat positions. -/
def rowW3 (v21 v25 : FVec F S256x1 .f32) : FVec F S256x196 .f32 :=
  have cst_52 : F .f32 := Scalar.ofBits .f32 0x41800000#32
  have v188 : FVec F S256x1 .f32 := broadcast S256x1 cst_52
  have v189 : FVec F S256x1 .f32 := divf v21 v188
  have cst_53 : F .f32 := Scalar.ofBits .f32 0x41800000#32
  have v190 : FVec F S256x1 .f32 := broadcast S256x1 cst_53
  have v191 : FVec F S256x1 .f32 := divf v25 v190
  have v192 : FVec F S256x1 .f32 := floor v189
  have v193 : FVec F S256x1 .f32 := ceil v189
  have v194 : FVec F S256x1 .f32 := floor v191
  have v195 : FVec F S256x1 .f32 := ceil v191
  have cst_54 : F .f32 := Scalar.ofBits .f32 0x00000000#32
  have cst_55 : F .f32 := Scalar.ofBits .f32 0x41500000#32
  have v196 : FVec F S256x1 .f32 := broadcast S256x1 cst_54
  have v197 : FVec F S256x1 .f32 := maximumf v196 v192
  have v198 : FVec F S256x1 .f32 := broadcast S256x1 cst_55
  have v199 : FVec F S256x1 .f32 := minimumf v198 v197
  have v200 : IVec S256x1 32 := fptosi 32 v199
  have cst_56 : F .f32 := Scalar.ofBits .f32 0x00000000#32
  have cst_57 : F .f32 := Scalar.ofBits .f32 0x41500000#32
  have v201 : FVec F S256x1 .f32 := broadcast S256x1 cst_56
  have v202 : FVec F S256x1 .f32 := maximumf v201 v193
  have v203 : FVec F S256x1 .f32 := broadcast S256x1 cst_57
  have v204 : FVec F S256x1 .f32 := minimumf v203 v202
  have v205 : IVec S256x1 32 := fptosi 32 v204
  have cst_58 : F .f32 := Scalar.ofBits .f32 0x00000000#32
  have cst_59 : F .f32 := Scalar.ofBits .f32 0x41500000#32
  have v206 : FVec F S256x1 .f32 := broadcast S256x1 cst_58
  have v207 : FVec F S256x1 .f32 := maximumf v206 v194
  have v208 : FVec F S256x1 .f32 := broadcast S256x1 cst_59
  have v209 : FVec F S256x1 .f32 := minimumf v208 v207
  have v210 : IVec S256x1 32 := fptosi 32 v209
  have cst_60 : F .f32 := Scalar.ofBits .f32 0x00000000#32
  have cst_61 : F .f32 := Scalar.ofBits .f32 0x41500000#32
  have v211 : FVec F S256x1 .f32 := broadcast S256x1 cst_60
  have v212 : FVec F S256x1 .f32 := maximumf v211 v195
  have v213 : FVec F S256x1 .f32 := broadcast S256x1 cst_61
  have v214 : FVec F S256x1 .f32 := minimumf v213 v212
  have v215 : IVec S256x1 32 := fptosi 32 v214
  have v216 : FVec F S256x1 .f32 := subf v193 v189
  have v217 : FVec F S256x1 .f32 := subf v189 v192
  have v218 : FVec F S256x1 .f32 := subf v195 v191
  have v219 : FVec F S256x1 .f32 := subf v191 v194
  have v220 : FVec F S256x1 .f32 := mulf v216 v218
  have v221 : FVec F S256x1 .f32 := mulf v217 v218
  have v222 : FVec F S256x1 .f32 := mulf v216 v219
  have v223 : FVec F S256x1 .f32 := mulf v217 v219
  have v224 : IVec S256x196 32 := iota .tc S256x196 32 [1] iota_S256x196_d1_w32
  have cst_62 : F .f32 := Scalar.ofBits .f32 0x00000000#32
  have v225 : FVec F S256x196 .f32 := broadcast S256x196 cst_62
  have c14_i32 : BitVec 32 := 14#32
  have v226 : IVec S256x1 32 := broadcast S256x1 c14_i32
  have v227 : IVec S256x1 32 := muli v200 v226
  have v228 : IVec S256x1 32 := addi v227 v210
  have v229 : IVec S256x196 32 := broadcastTo S256x196 v228 broadcasts_S256x1_S256x196
  have v230 : IVec S256x196 1 := cmpi .eq v224 v229
  have cst_63 : F .f32 := Scalar.ofBits .f32 0x00000000#32
  have v231 : FVec F S256x1 .f32 := shapeCast S256x1 v220 shapeCasts_S256x1_S256x1
  have v232 : FVec F S256x196 .f32 := broadcastTo S256x196 v231 broadcasts_S256x1_S256x196
  have v233 : FVec F S256x196 .f32 := broadcast S256x196 cst_63
  have v234 : FVec F S256x196 .f32 := select v230 v232 v233
  have v235 : FVec F S256x196 .f32 := addf v225 v234
  have c14_i32_64 : BitVec 32 := 14#32
  have v236 : IVec S256x1 32 := broadcast S256x1 c14_i32_64
  have v237 : IVec S256x1 32 := muli v205 v236
  have v238 : IVec S256x1 32 := addi v237 v210
  have v239 : IVec S256x196 32 := broadcastTo S256x196 v238 broadcasts_S256x1_S256x196
  have v240 : IVec S256x196 1 := cmpi .eq v224 v239
  have cst_65 : F .f32 := Scalar.ofBits .f32 0x00000000#32
  have v241 : FVec F S256x1 .f32 := shapeCast S256x1 v221 shapeCasts_S256x1_S256x1
  have v242 : FVec F S256x196 .f32 := broadcastTo S256x196 v241 broadcasts_S256x1_S256x196
  have v243 : FVec F S256x196 .f32 := broadcast S256x196 cst_65
  have v244 : FVec F S256x196 .f32 := select v240 v242 v243
  have v245 : FVec F S256x196 .f32 := addf v235 v244
  have c14_i32_66 : BitVec 32 := 14#32
  have v246 : IVec S256x1 32 := broadcast S256x1 c14_i32_66
  have v247 : IVec S256x1 32 := muli v200 v246
  have v248 : IVec S256x1 32 := addi v247 v215
  have v249 : IVec S256x196 32 := broadcastTo S256x196 v248 broadcasts_S256x1_S256x196
  have v250 : IVec S256x196 1 := cmpi .eq v224 v249
  have cst_67 : F .f32 := Scalar.ofBits .f32 0x00000000#32
  have v251 : FVec F S256x1 .f32 := shapeCast S256x1 v222 shapeCasts_S256x1_S256x1
  have v252 : FVec F S256x196 .f32 := broadcastTo S256x196 v251 broadcasts_S256x1_S256x196
  have v253 : FVec F S256x196 .f32 := broadcast S256x196 cst_67
  have v254 : FVec F S256x196 .f32 := select v250 v252 v253
  have v255 : FVec F S256x196 .f32 := addf v245 v254
  have c14_i32_68 : BitVec 32 := 14#32
  have v256 : IVec S256x1 32 := broadcast S256x1 c14_i32_68
  have v257 : IVec S256x1 32 := muli v205 v256
  have v258 : IVec S256x1 32 := addi v257 v215
  have v259 : IVec S256x196 32 := broadcastTo S256x196 v258 broadcasts_S256x1_S256x196
  have v260 : IVec S256x196 1 := cmpi .eq v224 v259
  have cst_69 : F .f32 := Scalar.ofBits .f32 0x00000000#32
  have v261 : FVec F S256x1 .f32 := shapeCast S256x1 v223 shapeCasts_S256x1_S256x1
  have v262 : FVec F S256x196 .f32 := broadcastTo S256x196 v261 broadcasts_S256x1_S256x196
  have v263 : FVec F S256x196 .f32 := broadcast S256x196 cst_69
  have v264 : FVec F S256x196 .f32 := select v260 v262 v263
  have v265 : FVec F S256x196 .f32 := addf v255 v264
  v265

/-- Level 3: the rows against the level's flat table. -/
def lvl3 (v21 v25 : FVec F S256x1 .f32) (f : Vec F S196x256 .f32) : FVec F S256x256 .f32 :=
  matmul dot_S256x196_S196x256_S256x256_1_0_0_1_n_n (some .fp32) (rowW3 v21 v25) (shapeCast S196x256 f shapeCasts_S196x256_S196x256) (constant S256x256 .f32 0x00000000#32)

/-- Level 4: per point a row over the 7×7 cells, zero plus the four corner weights at the corners' flat positions. -/
def rowW4 (v21 v25 : FVec F S256x1 .f32) : FVec F S256x49 .f32 :=
  have cst_73 : F .f32 := Scalar.ofBits .f32 0x42000000#32
  have v269 : FVec F S256x1 .f32 := broadcast S256x1 cst_73
  have v270 : FVec F S256x1 .f32 := divf v21 v269
  have cst_74 : F .f32 := Scalar.ofBits .f32 0x42000000#32
  have v271 : FVec F S256x1 .f32 := broadcast S256x1 cst_74
  have v272 : FVec F S256x1 .f32 := divf v25 v271
  have v273 : FVec F S256x1 .f32 := floor v270
  have v274 : FVec F S256x1 .f32 := ceil v270
  have v275 : FVec F S256x1 .f32 := floor v272
  have v276 : FVec F S256x1 .f32 := ceil v272
  have cst_75 : F .f32 := Scalar.ofBits .f32 0x00000000#32
  have cst_76 : F .f32 := Scalar.ofBits .f32 0x40C00000#32
  have v277 : FVec F S256x1 .f32 := broadcast S256x1 cst_75
  have v278 : FVec F S256x1 .f32 := maximumf v277 v273
  have v279 : FVec F S256x1 .f32 := broadcast S256x1 cst_76
  have v280 : FVec F S256x1 .f32 := minimumf v279 v278
  have v281 : IVec S256x1 32 := fptosi 32 v280
  have cst_77 : F .f32 := Scalar.ofBits .f32 0x00000000#32
  have cst_78 : F .f32 := Scalar.ofBits .f32 0x40C00000#32
  have v282 : FVec F S256x1 .f32 := broadcast S256x1 cst_77
  have v283 : FVec F S256x1 .f32 := maximumf v282 v274
  have v284 : FVec F S256x1 .f32 := broadcast S256x1 cst_78
  have v285 : FVec F S256x1 .f32 := minimumf v284 v283
  have v286 : IVec S256x1 32 := fptosi 32 v285
  have cst_79 : F .f32 := Scalar.ofBits .f32 0x00000000#32
  have cst_80 : F .f32 := Scalar.ofBits .f32 0x40C00000#32
  have v287 : FVec F S256x1 .f32 := broadcast S256x1 cst_79
  have v288 : FVec F S256x1 .f32 := maximumf v287 v275
  have v289 : FVec F S256x1 .f32 := broadcast S256x1 cst_80
  have v290 : FVec F S256x1 .f32 := minimumf v289 v288
  have v291 : IVec S256x1 32 := fptosi 32 v290
  have cst_81 : F .f32 := Scalar.ofBits .f32 0x00000000#32
  have cst_82 : F .f32 := Scalar.ofBits .f32 0x40C00000#32
  have v292 : FVec F S256x1 .f32 := broadcast S256x1 cst_81
  have v293 : FVec F S256x1 .f32 := maximumf v292 v276
  have v294 : FVec F S256x1 .f32 := broadcast S256x1 cst_82
  have v295 : FVec F S256x1 .f32 := minimumf v294 v293
  have v296 : IVec S256x1 32 := fptosi 32 v295
  have v297 : FVec F S256x1 .f32 := subf v274 v270
  have v298 : FVec F S256x1 .f32 := subf v270 v273
  have v299 : FVec F S256x1 .f32 := subf v276 v272
  have v300 : FVec F S256x1 .f32 := subf v272 v275
  have v301 : FVec F S256x1 .f32 := mulf v297 v299
  have v302 : FVec F S256x1 .f32 := mulf v298 v299
  have v303 : FVec F S256x1 .f32 := mulf v297 v300
  have v304 : FVec F S256x1 .f32 := mulf v298 v300
  have v305 : IVec S256x49 32 := iota .tc S256x49 32 [1] iota_S256x49_d1_w32
  have cst_83 : F .f32 := Scalar.ofBits .f32 0x00000000#32
  have v306 : FVec F S256x49 .f32 := broadcast S256x49 cst_83
  have c7_i32 : BitVec 32 := 7#32
  have v307 : IVec S256x1 32 := broadcast S256x1 c7_i32
  have v308 : IVec S256x1 32 := muli v281 v307
  have v309 : IVec S256x1 32 := addi v308 v291
  have v310 : IVec S256x49 32 := broadcastTo S256x49 v309 broadcasts_S256x1_S256x49
  have v311 : IVec S256x49 1 := cmpi .eq v305 v310
  have cst_84 : F .f32 := Scalar.ofBits .f32 0x00000000#32
  have v312 : FVec F S256x1 .f32 := shapeCast S256x1 v301 shapeCasts_S256x1_S256x1
  have v313 : FVec F S256x49 .f32 := broadcastTo S256x49 v312 broadcasts_S256x1_S256x49
  have v314 : FVec F S256x49 .f32 := broadcast S256x49 cst_84
  have v315 : FVec F S256x49 .f32 := select v311 v313 v314
  have v316 : FVec F S256x49 .f32 := addf v306 v315
  have c7_i32_85 : BitVec 32 := 7#32
  have v317 : IVec S256x1 32 := broadcast S256x1 c7_i32_85
  have v318 : IVec S256x1 32 := muli v286 v317
  have v319 : IVec S256x1 32 := addi v318 v291
  have v320 : IVec S256x49 32 := broadcastTo S256x49 v319 broadcasts_S256x1_S256x49
  have v321 : IVec S256x49 1 := cmpi .eq v305 v320
  have cst_86 : F .f32 := Scalar.ofBits .f32 0x00000000#32
  have v322 : FVec F S256x1 .f32 := shapeCast S256x1 v302 shapeCasts_S256x1_S256x1
  have v323 : FVec F S256x49 .f32 := broadcastTo S256x49 v322 broadcasts_S256x1_S256x49
  have v324 : FVec F S256x49 .f32 := broadcast S256x49 cst_86
  have v325 : FVec F S256x49 .f32 := select v321 v323 v324
  have v326 : FVec F S256x49 .f32 := addf v316 v325
  have c7_i32_87 : BitVec 32 := 7#32
  have v327 : IVec S256x1 32 := broadcast S256x1 c7_i32_87
  have v328 : IVec S256x1 32 := muli v281 v327
  have v329 : IVec S256x1 32 := addi v328 v296
  have v330 : IVec S256x49 32 := broadcastTo S256x49 v329 broadcasts_S256x1_S256x49
  have v331 : IVec S256x49 1 := cmpi .eq v305 v330
  have cst_88 : F .f32 := Scalar.ofBits .f32 0x00000000#32
  have v332 : FVec F S256x1 .f32 := shapeCast S256x1 v303 shapeCasts_S256x1_S256x1
  have v333 : FVec F S256x49 .f32 := broadcastTo S256x49 v332 broadcasts_S256x1_S256x49
  have v334 : FVec F S256x49 .f32 := broadcast S256x49 cst_88
  have v335 : FVec F S256x49 .f32 := select v331 v333 v334
  have v336 : FVec F S256x49 .f32 := addf v326 v335
  have c7_i32_89 : BitVec 32 := 7#32
  have v337 : IVec S256x1 32 := broadcast S256x1 c7_i32_89
  have v338 : IVec S256x1 32 := muli v286 v337
  have v339 : IVec S256x1 32 := addi v338 v296
  have v340 : IVec S256x49 32 := broadcastTo S256x49 v339 broadcasts_S256x1_S256x49
  have v341 : IVec S256x49 1 := cmpi .eq v305 v340
  have cst_90 : F .f32 := Scalar.ofBits .f32 0x00000000#32
  have v342 : FVec F S256x1 .f32 := shapeCast S256x1 v304 shapeCasts_S256x1_S256x1
  have v343 : FVec F S256x49 .f32 := broadcastTo S256x49 v342 broadcasts_S256x1_S256x49
  have v344 : FVec F S256x49 .f32 := broadcast S256x49 cst_90
  have v345 : FVec F S256x49 .f32 := select v341 v343 v344
  have v346 : FVec F S256x49 .f32 := addf v336 v345
  v346

/-- Level 4: the rows against the level's flat table. -/
def lvl4 (v21 v25 : FVec F S256x1 .f32) (f : Vec F S49x512 .f32) : FVec F S256x512 .f32 :=
  matmul dot_S256x49_S49x512_S256x512_1_0_0_1_n_n (some .fp32) (rowW4 v21 v25) (shapeCast S49x512 f shapeCasts_S49x512_S49x512) (constant S256x512 .f32 0x00000000#32)

/-- The block the body stores: the coordinates, then the four levels' samples. -/
def body (v0 : Vec F S256x3 .f32) (f1 : Vec F S3136x64 .f32) (f2 : Vec F S784x128 .f32) (f3 : Vec F S196x256 .f32) (f4 : Vec F S49x512 .f32) : FVec F S256x963 .f32 :=
  concatenate S256x963 1 [⟨S256x3, v0⟩, ⟨S256x64, lvl1 (hcol v0) (wcol v0) f1⟩, ⟨S256x128, lvl2 (hcol v0) (wcol v0) f2⟩, ⟨S256x256, lvl3 (hcol v0) (wcol v0) f3⟩, ⟨S256x512, lvl4 (hcol v0) (wcol v0) f4⟩] concatenates_S256x3_S256x64_S256x128_S256x256_S256x512_S256x963_d1

/-- What the body leaves in the output window's buffer is that block, stored whole. -/
theorem out_eq (x0 : Vec F S256x3 .f32) (x1 : Vec F S3136x64 .f32) (x2 : Vec F S784x128 .f32) (x3 : Vec F S196x256 .f32) (x4 : Vec F S49x512 .f32) :
    out0_5 x0 x1 x2 x3 x4 = View.canon [⟨r0_5, body (View.ld x0 r0_0) (View.ld x1 r0_1) (View.ld x2 r0_2) (View.ld x3 r0_3) (View.ld x4 r0_4)⟩] := rfl

end Cert.KernelIdeal.Body

end
-- ==== Proof.Spec.lean ====
/-
  The arithmetic of one pyramid level of the bilinear sampling, on scalars.

  A point's pixel coordinate, clipped to [0, 223], is a real number; divided by the level's cell width it is a real
  r with 0 ≤ r < S (S the level's side).  The four corner weights are products of the distances of r and s
  from their floors and ceilings.  One program adds the four weights into a row of S * S entries, each weight at
  the flat position row * S + column of its corner (rows and columns clipped to S - 1 as floats before the
  conversion to an integer), and takes the inner product of that row with the level's table; the other converts
  first and lets the lookup clamp the index, and adds the four weighted table entries.  Over the reals the two are
  one number (bridge): a row that is zero but at four positions picks four entries of the table.
-/
import Idealize.ShloMosaic.PureOps.Ideal
import Idealize.ShloMosaic.PureOps.Ideal.Laws
import Idealize.ShloMosaic.Lib.ValueIdx

noncomputable section

namespace Cert.Bilin

open Idealize.ShloMosaic Idealize.ShloMosaic.ValueIdx
open scoped BigOperators

/-! ## The float literals the two programs share, as real numbers -/

theorem c0 : Ideal.ofBits .f32 0x00000000#32 = ((0 : ℝ) : EReal) := by
  rw [Ideal.ofBits_zero_f32]; rfl
theorem c223 : Ideal.ofBits .f32 0x435F0000#32 = ((223 : ℝ) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem c16 : Ideal.ofBits .f32 0x41800000#32 = ((16 : ℝ) : EReal) := by
  simp [Ideal.ofBits, Ideal.ieee, -EReal.coe_mul]; norm_num
theorem c32 : Ideal.ofBits .f32 0x42000000#32 = ((32 : ℝ) : EReal) := by
  simp [Ideal.ofBits, Ideal.ieee, -EReal.coe_mul]; norm_num
theorem c55 : Ideal.ofBits .f32 0x425C0000#32 = ((55 : ℝ) : EReal) := by
  simp [Ideal.ofBits, Ideal.ieee, -EReal.coe_mul]; norm_num
theorem c27 : Ideal.ofBits .f32 0x41D80000#32 = ((27 : ℝ) : EReal) := by
  simp [Ideal.ofBits, Ideal.ieee, -EReal.coe_mul]; norm_num
theorem c13 : Ideal.ofBits .f32 0x41500000#32 = ((13 : ℝ) : EReal) := by
  simp [Ideal.ofBits, Ideal.ieee, -EReal.coe_mul]; norm_num
theorem c6 : Ideal.ofBits .f32 0x40C00000#32 = ((6 : ℝ) : EReal) := by
  simp [Ideal.ofBits, Ideal.ieee, -EReal.coe_mul]; norm_num

/-! ## The pixel coordinate -/

/-- 248 · (u / z) + 112 clipped to [0, 223]. -/
def pix (u z : EReal) : EReal :=
  min (Ideal.ofBits .f32 0x435F0000#32) (max (Ideal.ofBits .f32 0x00000000#32)
    (Ideal.ofBits .f32 0x43780000#32 * Ideal.div u z + Ideal.ofBits .f32 0x42E00000#32))

/-- A clipped extended real is a real number inside the clipping interval, whatever was clipped. -/
theorem clip_real (lo hi : ℝ) (hle : lo ≤ hi) (e : EReal) :
    ∃ ρ : ℝ, min (hi : EReal) (max (lo : EReal) e) = ρ ∧ lo ≤ ρ ∧ ρ ≤ hi := by
  induction e using EReal.rec with
  | bot =>
    refine ⟨lo, ?_, le_rfl, hle⟩
    rw [max_eq_left bot_le, min_eq_right (EReal.coe_le_coe_iff.2 hle)]
  | coe x =>
    refine ⟨min hi (max lo x), ?_, le_min hle (le_max_left _ _), min_le_left _ _⟩
    rw [EReal.coe_strictMono.monotone.map_min, EReal.coe_strictMono.monotone.map_max]
  | top =>
    refine ⟨hi, ?_, hle, le_rfl⟩
    rw [max_eq_right le_top, min_eq_left le_top]

theorem pix_real (u z : EReal) : ∃ ρ : ℝ, pix u z = ρ ∧ 0 ≤ ρ ∧ ρ ≤ 223 := by
  unfold pix
  rw [c223, c0]
  exact clip_real 0 223 (by norm_num) _

/-- A real divided by a nonzero real literal. -/
theorem div_real (ρ d : ℝ) (hd : d ≠ 0) : Ideal.div (ρ : EReal) (d : EReal) = ((ρ / d : ℝ) : EReal) := by
  rw [Ideal.div_coe hd, ← EReal.coe_mul]
  congr 1
  field_simp

/-! ## Floors, ceilings and their conversion to integers -/

/-- The floor and the ceiling of an extended real, as the programs compute them. -/
abbrev lo (x : EReal) : EReal := Ideal.liftRound Int.floor x
abbrev hi (x : EReal) : EReal := Ideal.liftRound Int.ceil x

/-- A small nonnegative integer converts to itself. -/
theorem fptosi_int (k : ℤ) (h0 : 0 ≤ k) (h1 : k < 2 ^ 31) :
    Ideal.fptosi 32 (((k : ℝ)) : EReal) = BitVec.ofNat 32 k.toNat := by
  unfold Ideal.fptosi
  rw [Ideal.toIntClamped_coe, if_pos (by exact_mod_cast h0), Int.floor_intCast]
  have e : max (-((2 ^ (32 - 1) : ℕ) : ℤ)) (min (((2 ^ (32 - 1) : ℕ) : ℤ) - 1) k) = k := by
    have : ((2 ^ (32 - 1) : ℕ) : ℤ) = 2 ^ 31 := by norm_num
    rw [this]; omega
  rw [e]
  conv_lhs => rw [← Int.toNat_of_nonneg h0]
  exact BitVec.ofInt_natCast _ _

/-- One program's row or column of a corner: the float clipped to [0, S - 1], then converted. -/
def cellK (MW x : EReal) : BitVec 32 :=
  Ideal.fptosi 32 (min MW (max (Ideal.ofBits .f32 0x00000000#32) x))

theorem cellK_int (S : ℕ) (hS : 0 < S) (hS' : S ≤ 1024) (MW : EReal) (hMW : MW = (((S : ℝ) - 1 : ℝ) : EReal))
    (k : ℤ) (h0 : 0 ≤ k) : cellK MW (((k : ℝ)) : EReal) = BitVec.ofNat 32 (min k.toNat (S - 1)) := by
  unfold cellK
  rw [c0, hMW, ← EReal.coe_strictMono.monotone.map_max, ← EReal.coe_strictMono.monotone.map_min]
  have e : min ((S : ℝ) - 1) (max (0 : ℝ) (k : ℝ)) = (((min ((S : ℤ) - 1) k : ℤ)) : ℝ) := by
    rw [max_eq_right (by exact_mod_cast h0)]
    push_cast
    rfl
  rw [e, fptosi_int _ (by omega) (by omega)]
  congr 1
  omega

/-- The other program's: converted, a negative index wrapped by S, then clamped to [0, S - 1] by the lookup. -/
def cellR (S : ℕ) (Sw : BitVec 32) (x : EReal) : ℕ :=
  min (Scalar.select (IntOp.cmpi .slt (Ideal.fptosi 32 x) 0#32) (IntOp.addi (Ideal.fptosi 32 x) Sw)
    (Ideal.fptosi 32 x)).toInt.toNat (S - 1)

theorem cellR_int (S : ℕ) (Sw : BitVec 32) (k : ℤ) (h0 : 0 ≤ k) (h1 : k < 2 ^ 31) :
    cellR S Sw (((k : ℝ)) : EReal) = min k.toNat (S - 1) := by
  unfold cellR
  rw [fptosi_int k h0 h1]
  have hk : k.toNat < 2 ^ 31 := by omega
  have hti : (BitVec.ofNat 32 k.toNat).toInt = k.toNat := by
    rw [BitVec.toInt_eq_toNat_cond, BitVec.toNat_ofNat, Nat.mod_eq_of_lt (by omega), if_pos (by omega)]
  have hslt : IntOp.cmpi .slt (BitVec.ofNat 32 k.toNat) 0#32 = 0#1 := by
    unfold IntOp.cmpi
    have : (BitVec.ofNat 32 k.toNat).slt 0#32 = false := by
      rw [BitVec.slt, hti]
      simp
    simp [this]
  rw [hslt, select_zero, hti, Int.toNat_natCast]

/-- The flat position of a corner is met by exactly one column of the row. -/
theorem flat_eq (S A B j : ℕ) (hA : A < S) (hB : B < S) (hS : S ≤ 1024) (hj : j < S * S) :
    IntOp.cmpi .eq (BitVec.ofNat 32 j)
      (IntOp.addi (IntOp.muli (BitVec.ofNat 32 A) (BitVec.ofNat 32 S)) (BitVec.ofNat 32 B))
      = if j = A * S + B then 1#1 else 0#1 := by
  unfold IntOp.cmpi IntOp.addi IntOp.muli
  have hm : A * S + B < 2 ^ 32 := by nlinarith
  have hj' : j < 2 ^ 32 := by nlinarith
  have e : BitVec.ofNat 32 A * BitVec.ofNat 32 S + BitVec.ofNat 32 B = BitVec.ofNat 32 (A * S + B) := by
    apply BitVec.eq_of_toNat_eq
    simp [BitVec.toNat_add, BitVec.toNat_mul, BitVec.toNat_ofNat]
  rw [e]
  by_cases h : j = A * S + B
  · rw [if_pos h, h]; simp
  · rw [if_neg h]
    have : (BitVec.ofNat 32 j == BitVec.ofNat 32 (A * S + B)) = false := by
      rw [beq_eq_false_iff_ne]
      intro hh
      apply h
      have := congrArg BitVec.toNat hh
      rw [BitVec.toNat_ofNat, BitVec.toNat_ofNat, Nat.mod_eq_of_lt hj', Nat.mod_eq_of_lt hm] at this
      exact this
    simp [this]

/-! ## The two forms of a level's value -/

/-- The weighted row at column word j: zero plus the four corner weights, each where j is its corner's flat
    position. -/
def hot (Sw : BitVec 32) (MW hc wc : EReal) (j : BitVec 32) : EReal :=
  (((Ideal.ofBits .f32 0x00000000#32
    + Scalar.select (IntOp.cmpi .eq j (IntOp.addi (IntOp.muli (cellK MW (lo hc)) Sw) (cellK MW (lo wc))))
        ((hi hc - hc) * (hi wc - wc)) (Ideal.ofBits .f32 0x00000000#32))
    + Scalar.select (IntOp.cmpi .eq j (IntOp.addi (IntOp.muli (cellK MW (hi hc)) Sw) (cellK MW (lo wc))))
        ((hc - lo hc) * (hi wc - wc)) (Ideal.ofBits .f32 0x00000000#32))
    + Scalar.select (IntOp.cmpi .eq j (IntOp.addi (IntOp.muli (cellK MW (lo hc)) Sw) (cellK MW (hi wc))))
        ((hi hc - hc) * (wc - lo wc)) (Ideal.ofBits .f32 0x00000000#32))
    + Scalar.select (IntOp.cmpi .eq j (IntOp.addi (IntOp.muli (cellK MW (hi hc)) Sw) (cellK MW (hi wc))))
        ((hc - lo hc) * (wc - lo wc)) (Ideal.ofBits .f32 0x00000000#32)

/-- The four weighted table entries, the table read at a row and a column. -/
def bil (S : ℕ) (Sw : BitVec 32) (hc wc : EReal) (f : ℕ → ℕ → EReal) : EReal :=
  (((hi hc - hc) * (hi wc - wc) * f (cellR S Sw (lo hc)) (cellR S Sw (lo wc))
    + (hc - lo hc) * (hi wc - wc) * f (cellR S Sw (hi hc)) (cellR S Sw (lo wc)))
    + (hi hc - hc) * (wc - lo wc) * f (cellR S Sw (lo hc)) (cellR S Sw (hi wc)))
    + (hc - lo hc) * (wc - lo wc) * f (cellR S Sw (hi hc)) (cellR S Sw (hi wc))

theorem cellR_lt (S : ℕ) (hS : 0 < S) (Sw : BitVec 32) (x : EReal) : cellR S Sw x < S := by
  unfold cellR
  omega

/-- The four entries are read inside the table only: two tables that agree there give one value. -/
theorem bil_congr (S : ℕ) (hS : 0 < S) (Sw : BitVec 32) (hc wc : EReal) (f g : ℕ → ℕ → EReal)
    (hfg : ∀ a b, a < S → b < S → f a b = g a b) : bil S Sw hc wc f = bil S Sw hc wc g := by
  unfold bil
  rw [hfg _ _ (cellR_lt S hS Sw _) (cellR_lt S hS Sw _), hfg _ _ (cellR_lt S hS Sw _) (cellR_lt S hS Sw _),
    hfg _ _ (cellR_lt S hS Sw _) (cellR_lt S hS Sw _), hfg _ _ (cellR_lt S hS Sw _) (cellR_lt S hS Sw _)]

/-- A sum of reals, cast. -/
theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- Over the reals: a row that is zero plus four weights at four positions, against a table. -/
theorem hot_sum_real (K : ℕ) (w1 w2 w3 w4 : ℝ) (f1 f2 f3 f4 : Fin K) (G : Fin K → ℝ) :
    ∑ j : Fin K, ((((0 + if j = f1 then w1 else 0) + if j = f2 then w2 else 0) + if j = f3 then w3 else 0)
      + if j = f4 then w4 else 0) * G j = ((w1 * G f1 + w2 * G f2) + w3 * G f3) + w4 * G f4 := by
  simp only [zero_add, add_mul, ite_mul, zero_mul, Finset.sum_add_distrib, Finset.sum_ite_eq', Finset.mem_univ,
    if_true]

/-- THE BRIDGE: for real coordinates inside the level, the weighted row against the flat table is the four weighted
    table entries. -/
theorem bridge (S K : ℕ) (hS : 0 < S) (hS56 : S ≤ 56) (hK : K = S * S) (Sw : BitVec 32)
    (hSw : Sw = BitVec.ofNat 32 S) (MW : EReal) (hMW : MW = (((S : ℝ) - 1 : ℝ) : EReal))
    (r s : ℝ) (hr : 0 ≤ r) (hr' : r < S) (hs : 0 ≤ s) (hs' : s < S) (F : ℕ → EReal) (hF : ∀ j, ∃ x : ℝ, F j = x) :
    ∑ j : Fin K, hot Sw MW r s (BitVec.ofNat 32 j.val) * F j.val = bil S Sw r s (fun a b => F (a * S + b)) := by
  subst hK hSw
  choose G hG using hF
  have ha0 : 0 ≤ ⌊r⌋ := Int.floor_nonneg.2 hr
  have ha1 : ⌊r⌋ ≤ ⌈r⌉ := Int.floor_le_ceil r
  have ha2 : ⌈r⌉ ≤ S := Int.ceil_le.2 (by exact_mod_cast hr'.le)
  have hb0 : 0 ≤ ⌊s⌋ := Int.floor_nonneg.2 hs
  have hb1 : ⌊s⌋ ≤ ⌈s⌉ := Int.floor_le_ceil s
  have hb2 : ⌈s⌉ ≤ S := Int.ceil_le.2 (by exact_mod_cast hs'.le)
  unfold hot bil
  simp only [lo, hi, Ideal.liftRound_coe]
  rw [cellK_int S hS (by omega) MW hMW ⌊r⌋ ha0, cellK_int S hS (by omega) MW hMW ⌈r⌉ (by omega),
    cellK_int S hS (by omega) MW hMW ⌊s⌋ hb0, cellK_int S hS (by omega) MW hMW ⌈s⌉ (by omega),
    cellR_int S _ ⌊r⌋ ha0 (by omega), cellR_int S _ ⌈r⌉ (by omega) (by omega),
    cellR_int S _ ⌊s⌋ hb0 (by omega), cellR_int S _ ⌈s⌉ (by omega) (by omega)]
  have hA : min ⌊r⌋.toNat (S - 1) < S := by omega
  have hA' : min ⌈r⌉.toNat (S - 1) < S := by omega
  have hB : min ⌊s⌋.toNat (S - 1) < S := by omega
  have hB' : min ⌈s⌉.toNat (S - 1) < S := by omega
  generalize min ⌊r⌋.toNat (S - 1) = A at hA ⊢
  generalize min ⌈r⌉.toNat (S - 1) = A' at hA' ⊢
  generalize min ⌊s⌋.toNat (S - 1) = B at hB ⊢
  generalize min ⌈s⌉.toNat (S - 1) = B' at hB' ⊢
  have hf : ∀ (a b : ℕ), a < S → b < S → a * S + b < S * S := fun a b ha hb => by nlinarith
  have key : ∀ j : Fin (S * S),
      ((((Ideal.ofBits .f32 0x00000000#32
        + Scalar.select (IntOp.cmpi .eq (BitVec.ofNat 32 j.val) (IntOp.addi (IntOp.muli (BitVec.ofNat 32 A) (BitVec.ofNat 32 S)) (BitVec.ofNat 32 B)))
            ((((⌈r⌉ : ℝ) : EReal) - r) * (((⌈s⌉ : ℝ) : EReal) - s)) (Ideal.ofBits .f32 0x00000000#32))
        + Scalar.select (IntOp.cmpi .eq (BitVec.ofNat 32 j.val) (IntOp.addi (IntOp.muli (BitVec.ofNat 32 A') (BitVec.ofNat 32 S)) (BitVec.ofNat 32 B)))
            (((r : EReal) - ((⌊r⌋ : ℝ) : EReal)) * (((⌈s⌉ : ℝ) : EReal) - s)) (Ideal.ofBits .f32 0x00000000#32))
        + Scalar.select (IntOp.cmpi .eq (BitVec.ofNat 32 j.val) (IntOp.addi (IntOp.muli (BitVec.ofNat 32 A) (BitVec.ofNat 32 S)) (BitVec.ofNat 32 B')))
            ((((⌈r⌉ : ℝ) : EReal) - r) * ((s : EReal) - ((⌊s⌋ : ℝ) : EReal))) (Ideal.ofBits .f32 0x00000000#32))
        + Scalar.select (IntOp.cmpi .eq (BitVec.ofNat 32 j.val) (IntOp.addi (IntOp.muli (BitVec.ofNat 32 A') (BitVec.ofNat 32 S)) (BitVec.ofNat 32 B')))
            (((r : EReal) - ((⌊r⌋ : ℝ) : EReal)) * ((s : EReal) - ((⌊s⌋ : ℝ) : EReal))) (Ideal.ofBits .f32 0x00000000#32)) * F j.val
      = ((((((0 + if j = ⟨A * S + B, hf A B hA hB⟩ then ((⌈r⌉ : ℝ) - r) * ((⌈s⌉ : ℝ) - s) else 0)
          + if j = ⟨A' * S + B, hf A' B hA' hB⟩ then (r - (⌊r⌋ : ℝ)) * ((⌈s⌉ : ℝ) - s) else 0)
          + if j = ⟨A * S + B', hf A B' hA hB'⟩ then ((⌈r⌉ : ℝ) - r) * (s - (⌊s⌋ : ℝ)) else 0)
          + if j = ⟨A' * S + B', hf A' B' hA' hB'⟩ then (r - (⌊r⌋ : ℝ)) * (s - (⌊s⌋ : ℝ)) else 0) * G j.val : ℝ) : EReal) := by
    intro j
    rw [flat_eq S A B j.val hA hB (by omega) j.isLt, flat_eq S A' B j.val hA' hB (by omega) j.isLt,
      flat_eq S A B' j.val hA hB' (by omega) j.isLt, flat_eq S A' B' j.val hA' hB' (by omega) j.isLt, hG j.val, c0]
    have hsel : ∀ (p : Prop) [Decidable p] (x : EReal) (y : ℝ), x = (y : EReal) →
        Scalar.select (if p then 1#1 else 0#1) x ((0 : ℝ) : EReal) = (((if p then y else 0 : ℝ)) : EReal) := by
      intro p _ x y hxy
      by_cases hp : p
      · rw [if_pos hp, if_pos hp, select_one, hxy]
      · rw [if_neg hp, if_neg hp, select_zero]
    have hj : ∀ m (hm : m < S * S), (j.val = m) ↔ (j = ⟨m, hm⟩) := fun m hm => by
      constructor
      · intro h; exact Fin.ext h
      · intro h; rw [h]
    rw [hsel (j.val = A * S + B) _ (((⌈r⌉ : ℝ) - r) * ((⌈s⌉ : ℝ) - s)) (by push_cast; rfl),
      hsel (j.val = A' * S + B) _ ((r - (⌊r⌋ : ℝ)) * ((⌈s⌉ : ℝ) - s)) (by push_cast; rfl),
      hsel (j.val = A * S + B') _ (((⌈r⌉ : ℝ) - r) * (s - (⌊s⌋ : ℝ))) (by push_cast; rfl),
      hsel (j.val = A' * S + B') _ ((r - (⌊r⌋ : ℝ)) * (s - (⌊s⌋ : ℝ))) (by push_cast; rfl)]
    simp only [hj _ (hf A B hA hB), hj _ (hf A' B hA' hB), hj _ (hf A B' hA hB'), hj _ (hf A' B' hA' hB')]
    push_cast
    rfl
  rw [Finset.sum_congr rfl (fun j _ => key j), ← coe_sum,
    hot_sum_real (S * S) _ _ _ _ _ _ _ _ (fun j => G j.val)]
  simp only [hG]
  push_cast
  rfl

/-- The same at a point's clipped pixel divided by the level's cell width d: the clipping makes both coordinates real
    numbers below the level's side S as soon as 223 < d * S. -/
theorem level_eq (S K : ℕ) (hS : 0 < S) (hS56 : S ≤ 56) (hK : K = S * S) (Sw : BitVec 32)
    (hSw : Sw = BitVec.ofNat 32 S) (MW : EReal) (hMW : MW = (((S : ℝ) - 1 : ℝ) : EReal)) (dW : EReal) (d : ℝ)
    (hdW : dW = (d : EReal)) (hd : 0 < d) (hSd : 223 < d * S) (u z u' z' : EReal) (F : ℕ → EReal)
    (hF : ∀ j, ∃ x : ℝ, F j = x) :
    ∑ j : Fin K, hot Sw MW (Ideal.div (pix u z) dW) (Ideal.div (pix u' z') dW) (BitVec.ofNat 32 j.val) * F j.val
      = bil S Sw (Ideal.div (pix u z) dW) (Ideal.div (pix u' z') dW) (fun a b => F (a * S + b)) := by
  obtain ⟨ρ, hρ, hρ0, hρ1⟩ := pix_real u z
  obtain ⟨σ, hσ, hσ0, hσ1⟩ := pix_real u' z'
  rw [hρ, hσ, hdW, div_real ρ d hd.ne', div_real σ d hd.ne']
  have h1 : ρ / d < S := by
    rw [div_lt_iff₀ hd]
    have : (S : ℝ) * d = d * S := mul_comm _ _
    linarith
  have h2 : σ / d < S := by
    rw [div_lt_iff₀ hd]
    have : (S : ℝ) * d = d * S := mul_comm _ _
    linarith
  exact bridge S K hS hS56 hK Sw hSw MW hMW (ρ / d) (σ / d) (div_nonneg hρ0 hd.le) h1 (div_nonneg hσ0 hd.le) h2 F hF

end Cert.Bilin

end
-- ==== Proof.LibRows.lean ====
/-
  Rows of a matrix at the ideal values: the two "keep the axis" layout steps a row reduction is followed by, and
  the row reductions themselves read at a row.

  A reduction along the columns of an [a, b] matrix leaves a vector of length a. To use it against the matrix again a
  program views it as an [a, 1] column and broadcasts the column along the rows to [a, b]. Read at (i, j) the result is
  entry i of the vector, whatever j is (`column_apply`, `spread_apply`).

  The reductions: the maximum of row i folded from the accumulator's value over the row's entries
  (`rowMaximum_apply`), and the sum of row i (`rowSum_apply`), both with the row's entries written (i, k).
-/
import Idealize.ShloMosaic.PureOps.Ideal.Laws
import Idealize.ShloMosaic.Lib.ValueIdx
import Idealize.ShloMosaic.Lib.Pipeline.Value

noncomputable section

namespace Cert.LibRows

open Idealize.ShloMosaic Idealize.ShloMosaic.ValueIdx

variable {α : Type}

/-- A vector of length `a` viewed as an [a, 1] column reads entry `i` at (i, 0). -/
theorem column_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ix2 i u) = v (ix1 i) :=
  shapeCast_apply v h _ _ (by
    have hu : u.val = 0 := by omega
    rw [Shape.rowMajor_val_one, Shape.rowMajor_val_two]
    show i.val = i.val * 1 + u.val
    rw [hu, Nat.mul_one, Nat.add_zero])

/-- An [a, 1] column broadcast along the rows to [a, b] reads the column's entry `i` at (i, j). -/
theorem spread_apply {a b : ℕ} (v : (⟨2, ![a, 1]⟩ : Shape).Idx → α) (h : (⟨2, ![a, 1]⟩ : Shape).Broadcasts ⟨2, ![a, b]⟩)
    (i : Fin a) (j : Fin b) (hb : a ≠ 1) : broadcastTo ⟨2, ![a, b]⟩ v h (ix2 i j) = v (ix2 i (0 : Fin 1)) :=
  broadcastTo_apply v h _ _ fun c => match c with
    | ⟨0, _⟩ => by
        show i.val = if a = 1 then 0 else i.val
        rw [if_neg hb]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The maximum along the columns, at row `i`: the fold of `max` from the accumulator's value over the row's entries. -/
theorem rowMaximum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  exact congrArg (Finset.fold max (Ideal.ofBits .f32 acc) · Finset.univ) (funext fun k => congrArg src (lift_row h i k))

/-- The sum along the columns, at row `i`: the sum of the row's entries. -/
theorem rowSum_apply {a b : ℕ} (src : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (lift_row h i k)

end Cert.LibRows

end
-- ==== Proof.LibDot.lean ====
/-
  A matrix product with one contracted axis, read at an entry as a sum over that axis's coordinate.

  A contraction's index set is a shape of rank one here; the sum over it is the sum over `Fin K` once each operand's index
  at contraction position `k` is named by the coordinate of `k` (`contr_sum`).  The hypotheses ask for each operand
  index as a function of that coordinate, which the dimension numbers of a literal product give by computation.
-/
import Idealize.ShloMosaic.PureOps.Ideal.Laws
import Idealize.ShloMosaic.Lib.ValueIdx

noncomputable section

namespace Cert.LibDot

open Idealize.ShloMosaic Idealize.ShloMosaic.ValueIdx
open scoped BigOperators

/-- The contraction sum of a product whose dimension numbers contract ONE axis of extent `K`, as a sum over `Fin K`:
    `L q` and `R q` are the operands' indices at a contraction position whose coordinate is `q`. -/
theorem contr_sum {sl sr so : Shape} (D : DotDims sl sr so) (K : ℕ) (hr : D.contr.rank = 1)
    (hs : D.contr.size ⟨0, by omega⟩ = K) (lhs : sl.Idx → EReal) (rhs : sr.Idx → EReal) (j : so.Idx)
    (L : Fin K → sl.Idx) (R : Fin K → sr.Idx)
    (hL : ∀ (k : D.contr.Idx) (q : Fin K), (k ⟨0, by omega⟩).val = q.val → D.lhsIdx j k = L q)
    (hR : ∀ (k : D.contr.Idx) (q : Fin K), (k ⟨0, by omega⟩).val = q.val → D.rhsIdx j k = R q) :
    ∑ k : D.contr.Idx, lhs (D.lhsIdx j k) * rhs (D.rhsIdx j k) = ∑ q : Fin K, lhs (L q) * rhs (R q) := by
  rw [← Equiv.sum_comp (contrEquiv1 D K hr hs).symm (fun k => lhs (D.lhsIdx j k) * rhs (D.rhsIdx j k))]
  refine Finset.sum_congr rfl fun q _ => ?_
  rw [hL _ q (contrEquiv1_symm_val D K hr hs q), hR _ q (contrEquiv1_symm_val D K hr hs q)]

end Cert.LibDot

end
-- ==== Proof.LibColumns.lean ====
/-
  Matrices laid side by side, and a lookup of table rows by a pair of integer coordinates.

  Five matrices with the same number of rows joined along the columns read, at (p, q), the matrix whose span of
  columns holds q, at column q less the widths of the matrices before it (pieces5_apply). Two one-column integer
  matrices joined the same way read the first at column 0 and the second at column 1 (pair_left, pair_right).

  A gather that takes from a table of shape [A, B, C] the row of length C at the position (u, v) given by the two
  columns of an integer matrix reads, at (n, c), the table at (u n, v n, c) with u and v read signed and clamped into
  the table (clampFin, gather_pair_apply): the clamping is the gather's own.
-/
import Idealize.ShloMosaic.Lib.ValueIdx
import Idealize.ShloMosaic.Lib.Pipeline.Value

noncomputable section

namespace Cert.LibColumns

open Idealize.ShloMosaic Idealize.ShloMosaic.ValueIdx

variable {α : Type}

/-- Two columns side by side, read at column 0: the first. -/
theorem pair_left {N : ℕ} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (0 : Fin 2)) = a (ix2 n (0 : Fin 1)) :=
  concatenate_pair_apply_left 1 a b h _ rfl _ fun c => match c with
    | ⟨0, _⟩ => rfl
    | ⟨1, _⟩ => rfl

/-- Two columns side by side, read at column 1: the second. -/
theorem pair_right {N : ℕ} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (1 : Fin 2)) = b (ix2 n (0 : Fin 1)) :=
  concatenate_pair_apply_right 1 a b h _ rfl rfl _ (fun c hc => match c with
    | ⟨0, _⟩ => rfl
    | ⟨1, _⟩ => absurd rfl hc) rfl

/-- Five matrices side by side, read at (p, q). -/
theorem pieces5_apply {a b0 b1 b2 b3 b4 B : ℕ} (hB : b0 + b1 + b2 + b3 + b4 = B)
    (x0 : (⟨2, ![a, b0]⟩ : Shape).Idx → α) (x1 : (⟨2, ![a, b1]⟩ : Shape).Idx → α) (x2 : (⟨2, ![a, b2]⟩ : Shape).Idx → α)
    (x3 : (⟨2, ![a, b3]⟩ : Shape).Idx → α) (x4 : (⟨2, ![a, b4]⟩ : Shape).Idx → α)
    (h : Shape.Concatenates [(⟨2, ![a, b0]⟩ : Shape), ⟨2, ![a, b1]⟩, ⟨2, ![a, b2]⟩, ⟨2, ![a, b3]⟩, ⟨2, ![a, b4]⟩] ⟨2, ![a, B]⟩ 1)
    (p : Fin a) (q : Fin B) :
    concatenate ⟨2, ![a, B]⟩ 1 [⟨⟨2, ![a, b0]⟩, x0⟩, ⟨⟨2, ![a, b1]⟩, x1⟩, ⟨⟨2, ![a, b2]⟩, x2⟩, ⟨⟨2, ![a, b3]⟩, x3⟩, ⟨⟨2, ![a, b4]⟩, x4⟩] h (ix2 p q)
      = if h0 : q.val < b0 then x0 (ix2 p ⟨q.val, h0⟩)
        else if h1 : q.val - b0 < b1 then x1 (ix2 p ⟨q.val - b0, h1⟩)
        else if h2 : q.val - b0 - b1 < b2 then x2 (ix2 p ⟨q.val - b0 - b1, h2⟩)
        else if h3 : q.val - b0 - b1 - b2 < b3 then x3 (ix2 p ⟨q.val - b0 - b1 - b2, h3⟩)
        else x4 (ix2 p ⟨q.val - b0 - b1 - b2 - b3, by have := q.isLt; omega⟩) := by
  have hq := q.isLt
  have side : ∀ (s₁ : Shape) (hr : s₁.rank = 2) (i : s₁.Idx) (hi0 : (i ⟨0, by omega⟩).val = p.val)
      (b : Fin s₁.rank), b.cast hr ≠ (1 : Fin 2) → (i b).val = ((ix2 p q) (b.cast hr)).val := by
    intro s₁ hr i hi0 b hb
    have hb0 : b = ⟨0, by omega⟩ := by
      apply Fin.ext
      have h1 : b.val < 2 := by have := b.isLt; omega
      have h2 : b.val ≠ 1 := fun h => hb (Fin.ext h)
      show b.val = 0
      omega
    subst hb0
    exact hi0
  split_ifs with h0 h1 h2 h3
  · exact concatenate_apply_piece 1 [⟨⟨2, ![a, b0]⟩, x0⟩, ⟨⟨2, ![a, b1]⟩, x1⟩, ⟨⟨2, ![a, b2]⟩, x2⟩, ⟨⟨2, ![a, b3]⟩, x3⟩, ⟨⟨2, ![a, b4]⟩, x4⟩] h (ix2 p q) 0 (by show 0 < 5; omega) _ x0 rfl rfl 0 rfl _
      (side _ rfl _ rfl) (by show 0 + q.val = q.val; omega)
  · exact concatenate_apply_piece 1 [⟨⟨2, ![a, b0]⟩, x0⟩, ⟨⟨2, ![a, b1]⟩, x1⟩, ⟨⟨2, ![a, b2]⟩, x2⟩, ⟨⟨2, ![a, b3]⟩, x3⟩, ⟨⟨2, ![a, b4]⟩, x4⟩] h (ix2 p q) 1 (by show 1 < 5; omega) _ x1 rfl rfl b0 (by simp) _
      (side _ rfl _ rfl) (by show b0 + (q.val - b0) = q.val; omega)
  · exact concatenate_apply_piece 1 [⟨⟨2, ![a, b0]⟩, x0⟩, ⟨⟨2, ![a, b1]⟩, x1⟩, ⟨⟨2, ![a, b2]⟩, x2⟩, ⟨⟨2, ![a, b3]⟩, x3⟩, ⟨⟨2, ![a, b4]⟩, x4⟩] h (ix2 p q) 2 (by show 2 < 5; omega) _ x2 rfl rfl (b0 + b1) (by simp) _
      (side _ rfl _ rfl) (by show b0 + b1 + (q.val - b0 - b1) = q.val; omega)
  · exact concatenate_apply_piece 1 [⟨⟨2, ![a, b0]⟩, x0⟩, ⟨⟨2, ![a, b1]⟩, x1⟩, ⟨⟨2, ![a, b2]⟩, x2⟩, ⟨⟨2, ![a, b3]⟩, x3⟩, ⟨⟨2, ![a, b4]⟩, x4⟩] h (ix2 p q) 3 (by show 3 < 5; omega) _ x3 rfl rfl (b0 + b1 + b2) (by simp; omega) _
      (side _ rfl _ rfl) (by show b0 + b1 + b2 + (q.val - b0 - b1 - b2) = q.val; omega)
  · exact concatenate_apply_piece 1 [⟨⟨2, ![a, b0]⟩, x0⟩, ⟨⟨2, ![a, b1]⟩, x1⟩, ⟨⟨2, ![a, b2]⟩, x2⟩, ⟨⟨2, ![a, b3]⟩, x3⟩, ⟨⟨2, ![a, b4]⟩, x4⟩] h (ix2 p q) 4 (by show 4 < 5; omega) _ x4 rfl rfl (b0 + b1 + b2 + b3) (by simp; omega) _
      (side _ rfl _ rfl) (by show b0 + b1 + b2 + b3 + (q.val - b0 - b1 - b2 - b3) = q.val; omega)

/-- The dimension numbers of a lookup of table rows [A, B, C] by pairs: start indices [N, 2], result [N, C]. -/
abbrev pairDims (A B C N : ℕ)
    (wf : GatherDims.WF ⟨3, ![A, B, C]⟩ ⟨2, ![N, 2]⟩ ⟨2, ![N, C]⟩ [1] [0, 1] [] [0, 1] [] 1 ![1, 1, C]) :
    GatherDims ⟨3, ![A, B, C]⟩ ⟨2, ![N, 2]⟩ ⟨2, ![N, C]⟩ where
  offsetDims := [1]
  collapsedSliceDims := [0, 1]
  operandBatchingDims := []
  startIndicesBatchingDims := []
  startIndexMap := [0, 1]
  indexVectorDim := 1
  sliceSizes := ![1, 1, C]
  wf := wf

private theorem mem0 (h : 0 < 3) : (⟨0, h⟩ : Fin 3) ∈ ([0, 1] : List (Fin 3)) := List.mem_cons.2 (Or.inl rfl)
private theorem mem1 (h : 1 < 3) : (⟨1, h⟩ : Fin 3) ∈ ([0, 1] : List (Fin 3)) :=
  List.mem_cons.2 (Or.inr (List.mem_cons.2 (Or.inl rfl)))
private theorem mem2 (h : 2 < 3) : (⟨2, h⟩ : Fin 3) ∉ ([0, 1] : List (Fin 3)) := by
  intro hm
  rcases List.mem_cons.1 hm with e | hm
  · exact absurd (congrArg Fin.val e) (by show (2 : ℕ) ≠ 0; omega)
  · rcases List.mem_cons.1 hm with e | hm
    · exact absurd (congrArg Fin.val e) (by show (2 : ℕ) ≠ 1; omega)
    · exact absurd hm List.not_mem_nil

/-- An integer word read signed and clamped into an axis of extent A. -/
def clampFin {A w : ℕ} (hA : 0 < A) (x : BitVec w) : Fin A := ⟨min x.toInt.toNat (A - 1), by omega⟩

/-- THE LOOKUP READ AT (n, c): the table at the pair in row n of the integer matrix, each coordinate read signed and
    clamped into its axis, and at c. -/
theorem gather_pair_apply {A B C N w : ℕ} (hA : 0 < A) (hB : 0 < B)
    (wf : GatherDims.WF ⟨3, ![A, B, C]⟩ ⟨2, ![N, 2]⟩ ⟨2, ![N, C]⟩ [1] [0, 1] [] [0, 1] [] 1 ![1, 1, C])
    (x : (⟨3, ![A, B, C]⟩ : Shape).Idx → α) (idx : IVec ⟨2, ![N, 2]⟩ w) (n : Fin N) (c : Fin C) :
    Host.gather (pairDims A B C N wf) x idx (ix2 n c)
      = x (ix3 (clampFin hA (idx (ix2 n (0 : Fin 2)))) (clampFin hB (idx (ix2 n (1 : Fin 2)))) c) := by
  unfold Host.gather
  refine congrArg x (funext fun a => Fin.ext ?_)
  show (pairDims A B C N wf).start (ix2 n c) idx a + (pairDims A B C N wf).batchCoord (ix2 n c) a
      + (pairDims A B C N wf).offCoord (ix2 n c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (mem0 _)), Nat.add_zero]
    unfold GatherDims.start
    rw [dif_pos (show (⟨0, by decide⟩ : Fin 3) ∈ (pairDims A B C N wf).startIndexMap from mem0 _)]
    have hsi : (pairDims A B C N wf).siIdx (ix2 n c) ⟨List.idxOf (⟨0, by decide⟩ : Fin 3) (pairDims A B C N wf).startIndexMap,
        List.idxOf_lt_length_iff.2 (mem0 _)⟩ = ix2 n (0 : Fin 2) := by
      funext b; refine Fin.ext ?_
      match b with
      | ⟨0, _⟩ => rfl
      | ⟨1, _⟩ => rfl
    rw [hsi]
    rfl
  | ⟨1, _⟩ =>
    rw [GatherDims.offCoord_eq_zero _ _ _ (fun h => ((GatherDims.mem_sKept _ _).mp h).1 (mem1 _)), Nat.add_zero]
    unfold GatherDims.start
    rw [dif_pos (show (⟨1, by decide⟩ : Fin 3) ∈ (pairDims A B C N wf).startIndexMap from mem1 _)]
    have hsi : (pairDims A B C N wf).siIdx (ix2 n c) ⟨List.idxOf (⟨1, by decide⟩ : Fin 3) (pairDims A B C N wf).startIndexMap,
        List.idxOf_lt_length_iff.2 (mem1 _)⟩ = ix2 n (1 : Fin 2) := by
      funext b; refine Fin.ext ?_
      match b with
      | ⟨0, _⟩ => rfl
      | ⟨1, _⟩ => rfl
    rw [hsi]
    rfl
  | ⟨2, _⟩ =>
    unfold GatherDims.start
    rw [dif_neg (show (⟨2, by decide⟩ : Fin 3) ∉ (pairDims A B C N wf).startIndexMap from mem2 _), Nat.zero_add]
    rfl

end Cert.LibColumns

end
-- ==== Proof.KRead.lean ====
/-
  The kernel's pieces read at an entry.

  At point p of a block the two pixel-coordinate columns are the clipped pixel coordinates of that point; a level's
  row matrix at (p, j) is the weighted row of the scalar arithmetic at the point's coordinates divided by the
  level's cell width; the level's product at (p, c) is the sum over the flat positions j of that row against
  column c of the flat table; and the stored block at (p, q) is the piece whose columns hold q.
-/
import proofs.«154923_j8203387535722_2_alg».proof.Proof.KDefs
import proofs.«154923_j8203387535722_2_alg».proof.Proof.Spec
import proofs.«154923_j8203387535722_2_alg».proof.Proof.LibRows
import proofs.«154923_j8203387535722_2_alg».proof.Proof.LibDot
import proofs.«154923_j8203387535722_2_alg».proof.Proof.LibColumns
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.TcCoe Idealize.SL.Sem
open Idealize.ShloMosaic.ValueIdx Cert.Bilin
open scoped BigOperators

/-! ## Elementwise operations read at an index -/

theorem cmpi_apply {s : Shape} {w : ℕ} (pr : CmpIPredicate) (a b : IVec s w) (i : s.Idx) :
    cmpi pr a b i = IntOp.cmpi pr (a i) (b i) := rfl
theorem addi_apply {s : Shape} {w : ℕ} (a b : IVec s w) (i : s.Idx) : addi a b i = IntOp.addi (a i) (b i) := rfl
theorem muli_apply {s : Shape} {w : ℕ} (a b : IVec s w) (i : s.Idx) : muli a b i = IntOp.muli (a i) (b i) := rfl
theorem fptosi_apply {s : Shape} (v : FVec Ideal s .f32) (i : s.Idx) : fptosi 32 v i = Ideal.fptosi 32 (v i) := rfl
theorem floor_apply {s : Shape} (v : FVec Ideal s .f32) (i : s.Idx) : floor v i = Ideal.liftRound Int.floor (v i) := rfl
theorem ceil_apply {s : Shape} (v : FVec Ideal s .f32) (i : s.Idx) : ceil v i = Ideal.liftRound Int.ceil (v i) := rfl

/-- A column of the coordinates: column o of the block's points, read at a point. -/
theorem col_apply (o : ℕ) (X : S256x3.Idx → EReal) (h : S256x3.Slices ![0, o] S256x1) (p : Fin 256) (k : Fin 3)
    (hk : k.val = o) : extractStridedSlice S256x1 ![0, o] X h (ix2 p (0 : Fin 1)) = X (ix2 p k) :=
  slice2_axis1_apply o X h p 0 k (by rw [hk]; rfl)

/-- A column over the points spread along a row of cells reads the column's entry. -/
theorem spread {α : Type} {b : ℕ} (v : (⟨2, ![256, 1]⟩ : Shape).Idx → α)
    (h : (⟨2, ![256, 1]⟩ : Shape).Broadcasts ⟨2, ![256, b]⟩) (p : Fin 256) (j : Fin b) :
    broadcastTo ⟨2, ![256, b]⟩ v h (ix2 p j) = v (ix2 p (0 : Fin 1)) :=
  Cert.LibRows.spread_apply v h p j (by decide)

/-- The column counter of a matrix reads the column. -/
theorem iota_col {a b : ℕ} (h : (⟨2, ![a, b]⟩ : Shape).Iotas .tc 32 [1]) (p : Fin a) (j : Fin b) :
    iota .tc ⟨2, ![a, b]⟩ 32 [1] h (ix2 p j) = BitVec.ofNat 32 j.val := by
  rw [iota_single_apply]
  rfl

/-! ## The pixel coordinates of a point -/

theorem hcol_apply (v0 : Vec Ideal S256x3 .f32) (p : Fin 256) :
    hcol v0 (ix2 p (0 : Fin 1)) = pix (-(v0 (ix2 p (1 : Fin 3)))) (-(v0 (ix2 p (2 : Fin 3)))) := by
  unfold hcol pix
  simp only [minimumf_apply, maximumf_apply, addf_apply, mulf_apply, divf_apply, subf_apply, broadcast_apply,
    col_apply 1 _ _ p 1 rfl, col_apply 2 _ _ p 2 rfl, Ideal.ofBits_def, Ideal.ofBits_zero_f32, zero_sub]

theorem wcol_apply (v0 : Vec Ideal S256x3 .f32) (p : Fin 256) :
    wcol v0 (ix2 p (0 : Fin 1)) = pix (v0 (ix2 p (0 : Fin 3))) (-(v0 (ix2 p (2 : Fin 3)))) := by
  unfold wcol pix
  simp only [minimumf_apply, maximumf_apply, addf_apply, mulf_apply, divf_apply, subf_apply, broadcast_apply,
    col_apply 0 _ _ p 0 rfl, col_apply 2 _ _ p 2 rfl, Ideal.ofBits_def, Ideal.ofBits_zero_f32, zero_sub]

/-! ## Level 1 -/

theorem rowW1_apply (h w : FVec Ideal S256x1 .f32) (p : Fin 256) (j : Fin 3136) :
    rowW1 h w (ix2 p j)
      = hot 56#32 (Ideal.ofBits .f32 0x425C0000#32) (Ideal.div (h (ix2 p (0 : Fin 1))) (Ideal.ofBits .f32 0x40800000#32))
          (Ideal.div (w (ix2 p (0 : Fin 1))) (Ideal.ofBits .f32 0x40800000#32)) (BitVec.ofNat 32 j.val) := by
  unfold rowW1 hot cellK
  simp only [addf_apply, select_apply, cmpi_apply, addi_apply, muli_apply, fptosi_apply, floor_apply, ceil_apply,
    minimumf_apply, maximumf_apply, mulf_apply, subf_apply, divf_apply, broadcast_apply, spread,
    iota_col iota_S256x3136_d1_w32 p j, shapeCast_self, Ideal.ofBits_def, lo, hi]

theorem lvl1_apply (h w : FVec Ideal S256x1 .f32) (f : Vec Ideal S3136x64 .f32) (p : Fin 256) (c : Fin 64) :
    lvl1 h w f (ix2 p c) = ∑ k : Fin 3136, rowW1 h w (ix2 p k) * f (ix2 k c) := by
  unfold lvl1
  rw [shapeCast_self]
  refine (Ideal.matmul_constant_zero_apply _ _ _ _ _).trans ?_
  exact Cert.LibDot.contr_sum dot_S256x3136_S3136x64_S256x64_1_0_0_1_n_n 3136 rfl rfl _ _ _
    (fun q => ix2 p q) (fun q => ix2 q c)
    (fun k q hk => funext fun a => Fin.ext (by match a with | ⟨0, _⟩ => rfl | ⟨1, _⟩ => exact hk))
    (fun k q hk => funext fun a => Fin.ext (by match a with | ⟨0, _⟩ => exact hk | ⟨1, _⟩ => rfl))

/-! ## Level 2 -/

theorem rowW2_apply (h w : FVec Ideal S256x1 .f32) (p : Fin 256) (j : Fin 784) :
    rowW2 h w (ix2 p j)
      = hot 28#32 (Ideal.ofBits .f32 0x41D80000#32) (Ideal.div (h (ix2 p (0 : Fin 1))) (Ideal.ofBits .f32 0x41000000#32))
          (Ideal.div (w (ix2 p (0 : Fin 1))) (Ideal.ofBits .f32 0x41000000#32)) (BitVec.ofNat 32 j.val) := by
  unfold rowW2 hot cellK
  simp only [addf_apply, select_apply, cmpi_apply, addi_apply, muli_apply, fptosi_apply, floor_apply, ceil_apply,
    minimumf_apply, maximumf_apply, mulf_apply, subf_apply, divf_apply, broadcast_apply, spread,
    iota_col iota_S256x784_d1_w32 p j, shapeCast_self, Ideal.ofBits_def, lo, hi]

theorem lvl2_apply (h w : FVec Ideal S256x1 .f32) (f : Vec Ideal S784x128 .f32) (p : Fin 256) (c : Fin 128) :
    lvl2 h w f (ix2 p c) = ∑ k : Fin 784, rowW2 h w (ix2 p k) * f (ix2 k c) := by
  unfold lvl2
  rw [shapeCast_self]
  refine (Ideal.matmul_constant_zero_apply _ _ _ _ _).trans ?_
  exact Cert.LibDot.contr_sum dot_S256x784_S784x128_S256x128_1_0_0_1_n_n 784 rfl rfl _ _ _
    (fun q => ix2 p q) (fun q => ix2 q c)
    (fun k q hk => funext fun a => Fin.ext (by match a with | ⟨0, _⟩ => rfl | ⟨1, _⟩ => exact hk))
    (fun k q hk => funext fun a => Fin.ext (by match a with | ⟨0, _⟩ => exact hk | ⟨1, _⟩ => rfl))

/-! ## Level 3 -/

theorem rowW3_apply (h w : FVec Ideal S256x1 .f32) (p : Fin 256) (j : Fin 196) :
    rowW3 h w (ix2 p j)
      = hot 14#32 (Ideal.ofBits .f32 0x41500000#32) (Ideal.div (h (ix2 p (0 : Fin 1))) (Ideal.ofBits .f32 0x41800000#32))
          (Ideal.div (w (ix2 p (0 : Fin 1))) (Ideal.ofBits .f32 0x41800000#32)) (BitVec.ofNat 32 j.val) := by
  unfold rowW3 hot cellK
  simp only [addf_apply, select_apply, cmpi_apply, addi_apply, muli_apply, fptosi_apply, floor_apply, ceil_apply,
    minimumf_apply, maximumf_apply, mulf_apply, subf_apply, divf_apply, broadcast_apply, spread,
    iota_col iota_S256x196_d1_w32 p j, shapeCast_self, Ideal.ofBits_def, lo, hi]

theorem lvl3_apply (h w : FVec Ideal S256x1 .f32) (f : Vec Ideal S196x256 .f32) (p : Fin 256) (c : Fin 256) :
    lvl3 h w f (ix2 p c) = ∑ k : Fin 196, rowW3 h w (ix2 p k) * f (ix2 k c) := by
  unfold lvl3
  rw [shapeCast_self]
  refine (Ideal.matmul_constant_zero_apply _ _ _ _ _).trans ?_
  exact Cert.LibDot.contr_sum dot_S256x196_S196x256_S256x256_1_0_0_1_n_n 196 rfl rfl _ _ _
    (fun q => ix2 p q) (fun q => ix2 q c)
    (fun k q hk => funext fun a => Fin.ext (by match a with | ⟨0, _⟩ => rfl | ⟨1, _⟩ => exact hk))
    (fun k q hk => funext fun a => Fin.ext (by match a with | ⟨0, _⟩ => exact hk | ⟨1, _⟩ => rfl))

/-! ## Level 4 -/

theorem rowW4_apply (h w : FVec Ideal S256x1 .f32) (p : Fin 256) (j : Fin 49) :
    rowW4 h w (ix2 p j)
      = hot 7#32 (Ideal.ofBits .f32 0x40C00000#32) (Ideal.div (h (ix2 p (0 : Fin 1))) (Ideal.ofBits .f32 0x42000000#32))
          (Ideal.div (w (ix2 p (0 : Fin 1))) (Ideal.ofBits .f32 0x42000000#32)) (BitVec.ofNat 32 j.val) := by
  unfold rowW4 hot cellK
  simp only [addf_apply, select_apply, cmpi_apply, addi_apply, muli_apply, fptosi_apply, floor_apply, ceil_apply,
    minimumf_apply, maximumf_apply, mulf_apply, subf_apply, divf_apply, broadcast_apply, spread,
    iota_col iota_S256x49_d1_w32 p j, shapeCast_self, Ideal.ofBits_def, lo, hi]

theorem lvl4_apply (h w : FVec Ideal S256x1 .f32) (f : Vec Ideal S49x512 .f32) (p : Fin 256) (c : Fin 512) :
    lvl4 h w f (ix2 p c) = ∑ k : Fin 49, rowW4 h w (ix2 p k) * f (ix2 k c) := by
  unfold lvl4
  rw [shapeCast_self]
  refine (Ideal.matmul_constant_zero_apply _ _ _ _ _).trans ?_
  exact Cert.LibDot.contr_sum dot_S256x49_S49x512_S256x512_1_0_0_1_n_n 49 rfl rfl _ _ _
    (fun q => ix2 p q) (fun q => ix2 q c)
    (fun k q hk => funext fun a => Fin.ext (by match a with | ⟨0, _⟩ => rfl | ⟨1, _⟩ => exact hk))
    (fun k q hk => funext fun a => Fin.ext (by match a with | ⟨0, _⟩ => exact hk | ⟨1, _⟩ => rfl))

/-! ## The stored block -/

theorem body_apply (v0 : Vec Ideal S256x3 .f32) (f1 : Vec Ideal S3136x64 .f32) (f2 : Vec Ideal S784x128 .f32)
    (f3 : Vec Ideal S196x256 .f32) (f4 : Vec Ideal S49x512 .f32) (p : Fin 256) (q : Fin 963) :
    body v0 f1 f2 f3 f4 (ix2 p q)
      = if h0 : q.val < 3 then v0 (ix2 p ⟨q.val, h0⟩)
        else if h1 : q.val - 3 < 64 then lvl1 (hcol v0) (wcol v0) f1 (ix2 p ⟨q.val - 3, h1⟩)
        else if h2 : q.val - 3 - 64 < 128 then lvl2 (hcol v0) (wcol v0) f2 (ix2 p ⟨q.val - 3 - 64, h2⟩)
        else if h3 : q.val - 3 - 64 - 128 < 256 then lvl3 (hcol v0) (wcol v0) f3 (ix2 p ⟨q.val - 3 - 64 - 128, h3⟩)
        else lvl4 (hcol v0) (wcol v0) f4 (ix2 p ⟨q.val - 3 - 64 - 128 - 256, by have := q.isLt; omega⟩) := by
  unfold body
  exact Cert.LibColumns.pieces5_apply (by norm_num) _ _ _ _ _ _ p q

end Cert.KernelIdeal.Body

end
-- ==== Proof.GDef.lean ====
/-
  What both programs compute, as one function of the five argument arrays.

  Row n of the result is point n's three coordinates followed by, for each pyramid level, the bilinear sample of the
  level's table at the point's pixel: the pixel's row and column (the coordinates projected, clipped to [0, 223])
  divided by the level's cell width, the four surrounding cells' entries weighted by the distances to them.
-/
import proofs.«154923_j8203387535722_2_alg».proof.Proof.Spec

noncomputable section

namespace Cert.GP

open Idealize.ShloMosaic Idealize.ShloMosaic.ValueIdx Cert.Bilin

/-- A level's table read at a row and a column for a channel; zero outside the table. -/
def tab {S C : ℕ} (x : (⟨3, ![S, S, C]⟩ : Shape).Idx → EReal) (c : Fin C) (a b : ℕ) : EReal :=
  if h : a < S ∧ b < S then x (ix3 ⟨a, h.1⟩ ⟨b, h.2⟩ c) else 0

theorem tab_eq {S C : ℕ} (x : (⟨3, ![S, S, C]⟩ : Shape).Idx → EReal) (c : Fin C) (a b : ℕ) (ha : a < S) (hb : b < S) :
    tab x c a b = x (ix3 ⟨a, ha⟩ ⟨b, hb⟩ c) := dif_pos ⟨ha, hb⟩

/-- Point n's pixel row and pixel column. -/
def hp (x0 : (⟨2, ![131072, 3]⟩ : Shape).Idx → EReal) (n : Fin 131072) : EReal :=
  pix (-(x0 (ix2 n (1 : Fin 3)))) (-(x0 (ix2 n (2 : Fin 3))))
def wp (x0 : (⟨2, ![131072, 3]⟩ : Shape).Idx → EReal) (n : Fin 131072) : EReal :=
  pix (x0 (ix2 n (0 : Fin 3))) (-(x0 (ix2 n (2 : Fin 3))))

/-- The bilinear sample of a level's table at point n, channel c. -/
def sample (S : ℕ) (Sw : BitVec 32) (dW : EReal) {C : ℕ} (x0 : (⟨2, ![131072, 3]⟩ : Shape).Idx → EReal)
    (x : (⟨3, ![S, S, C]⟩ : Shape).Idx → EReal) (n : Fin 131072) (c : Fin C) : EReal :=
  bil S Sw (Ideal.div (hp x0 n) dW) (Ideal.div (wp x0 n) dW) (tab x c)

/-- Entry (n, q) of the result. -/
def G' (x0 : (⟨2, ![131072, 3]⟩ : Shape).Idx → EReal) (x1 : (⟨3, ![56, 56, 64]⟩ : Shape).Idx → EReal)
    (x2 : (⟨3, ![28, 28, 128]⟩ : Shape).Idx → EReal) (x3 : (⟨3, ![14, 14, 256]⟩ : Shape).Idx → EReal)
    (x4 : (⟨3, ![7, 7, 512]⟩ : Shape).Idx → EReal) (n : Fin 131072) (q : Fin 963) : EReal :=
  if h0 : q.val < 3 then x0 (ix2 n ⟨q.val, h0⟩)
  else if h1 : q.val - 3 < 64 then sample 56 56#32 (Ideal.ofBits .f32 0x40800000#32) x0 x1 n ⟨q.val - 3, h1⟩
  else if h2 : q.val - 3 - 64 < 128 then sample 28 28#32 (Ideal.ofBits .f32 0x41000000#32) x0 x2 n ⟨q.val - 3 - 64, h2⟩
  else if h3 : q.val - 3 - 64 - 128 < 256 then
    sample 14 14#32 (Ideal.ofBits .f32 0x41800000#32) x0 x3 n ⟨q.val - 3 - 64 - 128, h3⟩
  else sample 7 7#32 (Ideal.ofBits .f32 0x42000000#32) x0 x4 n ⟨q.val - 3 - 64 - 128 - 256, by have := q.isLt; omega⟩

/-- The result array. -/
def G (x0 : (⟨2, ![131072, 3]⟩ : Shape).Idx → EReal) (x1 : (⟨3, ![56, 56, 64]⟩ : Shape).Idx → EReal)
    (x2 : (⟨3, ![28, 28, 128]⟩ : Shape).Idx → EReal) (x3 : (⟨3, ![14, 14, 256]⟩ : Shape).Idx → EReal)
    (x4 : (⟨3, ![7, 7, 512]⟩ : Shape).Idx → EReal) : (⟨2, ![131072, 963]⟩ : Shape).Idx → EReal :=
  fun i => G' x0 x1 x2 x3 x4 (i 0) (i 1)

end Cert.GP

end
-- ==== Proof.KValue.lean ====
/-
  From the blocks to the array: what the kernel leaves in its result array.

  Grid point t stores the block of rows 256 t … 256 t + 255. At row p of that block the body's pieces are, by the
  reads of the pieces and the scalar bridge, entry (256 t + p, q) of the function G of the argument arrays: the
  coordinate block is rows of the coordinates, a level's flat table is the level's table reshaped, and the weighted
  row against it is the bilinear sample once the table's entries are real numbers. The 512 blocks cover the array.
-/
import proofs.«154923_j8203387535722_2_alg».proof.Proof.KRead
import proofs.«154923_j8203387535722_2_alg».proof.Proof.GDef
import proofs.«154923_j8203387535722_2_alg».proof.Proof.Gen.KernelIdeal.Value
import Idealize.ShloMosaic.Lib.StableHlo.Run

set_option maxRecDepth 16384

noncomputable section

namespace Cert.KernelIdeal.KValue

open Cert.KernelIdeal Cert.KernelIdeal.Gen Cert.KernelIdeal.Body Idealize.ShloMosaic Idealize.ShloMosaic.TcCoe
open Idealize.SL.Sem Idealize.ShloMosaic.ValueIdx Cert.Bilin Cert.GP
open Idealize.ShloMosaic.Pipeline (Dat)
open scoped BigOperators

/-! ## A level's flat table is the table reshaped -/

/-- The [S, S, C] table viewed [S * S, C], read at (k, c): the table at row k / S, column k % S. -/
theorem flat_read {S C K : ℕ} (hK : K = S * S) (hS : 0 < S) (X : (⟨3, ![S, S, C]⟩ : Shape).Idx → EReal)
    (h : (⟨3, ![S, S, C]⟩ : Shape).ShapeCasts ⟨2, ![K, C]⟩) (k : Fin K) (c : Fin C) :
    shapeCast ⟨2, ![K, C]⟩ X h (ix2 k c) = tab X c (k.val / S) (k.val % S) := by
  have ha : k.val / S < S := (Nat.div_lt_iff_lt_mul hS).2 (hK ▸ k.isLt)
  have hb : k.val % S < S := Nat.mod_lt _ hS
  rw [tab_eq X c _ _ ha hb]
  refine shapeCast_apply X h _ _ ?_
  rw [Shape.rowMajor_val_three, Shape.rowMajor_val_two]
  show (k.val / S * S + k.val % S) * C + c.val = k.val * C + c.val
  rw [Nat.div_add_mod']

/-- A table entry read through a flat position is real when the table's entries are. -/
theorem tab_real {S C : ℕ} (X : (⟨3, ![S, S, C]⟩ : Shape).Idx → EReal) (hX : ∀ i, ∃ r : ℝ, X i = r) (c : Fin C)
    (a b : ℕ) : ∃ r : ℝ, tab X c a b = r := by
  unfold tab
  split_ifs
  · exact hX _
  · exact ⟨0, rfl⟩

/-! ## A level's product at a point is the bilinear sample -/

theorem klvl1 (v0 : Vec Ideal S256x3 .f32) (f : Vec Ideal S3136x64 .f32)
    (X0 : (⟨2, ![131072, 3]⟩ : Shape).Idx → EReal) (X : (⟨3, ![56, 56, 64]⟩ : Shape).Idx → EReal)
    (hX : ∀ i, ∃ r : ℝ, X i = r) (p : Fin 256) (n : Fin 131072) (c : Fin 64)
    (hv : ∀ k : Fin 3, v0 (ix2 p k) = X0 (ix2 n k))
    (hf : ∀ k : Fin 3136, f (ix2 k c) = tab X c (k.val / 56) (k.val % 56)) :
    lvl1 (hcol v0) (wcol v0) f (ix2 p c) = sample 56 56#32 (Ideal.ofBits .f32 0x40800000#32) X0 X n c := by
  rw [lvl1_apply]
  have e : ∀ k : Fin 3136, rowW1 (hcol v0) (wcol v0) (ix2 p k) * f (ix2 k c)
      = hot 56#32 (Ideal.ofBits .f32 0x425C0000#32)
          (Ideal.div (pix (-(X0 (ix2 n (1 : Fin 3)))) (-(X0 (ix2 n (2 : Fin 3))))) (Ideal.ofBits .f32 0x40800000#32))
          (Ideal.div (pix (X0 (ix2 n (0 : Fin 3))) (-(X0 (ix2 n (2 : Fin 3))))) (Ideal.ofBits .f32 0x40800000#32))
          (BitVec.ofNat 32 k.val) * (fun j : ℕ => tab X c (j / 56) (j % 56)) k.val := by
    intro k
    rw [rowW1_apply, hcol_apply, wcol_apply, hv, hv, hv, hf]
  rw [Finset.sum_congr rfl (fun k _ => e k)]
  refine (level_eq 56 3136 (by norm_num) (by norm_num) (by norm_num) 56#32 rfl _ (by rw [c55]; norm_num) _ 4 c4
    (by norm_num) (by norm_num) _ _ _ _ (fun j : ℕ => tab X c (j / 56) (j % 56)) (fun j => tab_real X hX c _ _)).trans ?_
  unfold sample Cert.GP.hp Cert.GP.wp
  refine bil_congr 56 (by norm_num) _ _ _ _ _ (fun a b ha hb => ?_)
  show tab X c ((a * 56 + b) / 56) ((a * 56 + b) % 56) = tab X c a b
  have e1 : (a * 56 + b) / 56 = a := by omega
  have e2 : (a * 56 + b) % 56 = b := by omega
  rw [e1, e2]

theorem klvl2 (v0 : Vec Ideal S256x3 .f32) (f : Vec Ideal S784x128 .f32)
    (X0 : (⟨2, ![131072, 3]⟩ : Shape).Idx → EReal) (X : (⟨3, ![28, 28, 128]⟩ : Shape).Idx → EReal)
    (hX : ∀ i, ∃ r : ℝ, X i = r) (p : Fin 256) (n : Fin 131072) (c : Fin 128)
    (hv : ∀ k : Fin 3, v0 (ix2 p k) = X0 (ix2 n k))
    (hf : ∀ k : Fin 784, f (ix2 k c) = tab X c (k.val / 28) (k.val % 28)) :
    lvl2 (hcol v0) (wcol v0) f (ix2 p c) = sample 28 28#32 (Ideal.ofBits .f32 0x41000000#32) X0 X n c := by
  rw [lvl2_apply]
  have e : ∀ k : Fin 784, rowW2 (hcol v0) (wcol v0) (ix2 p k) * f (ix2 k c)
      = hot 28#32 (Ideal.ofBits .f32 0x41D80000#32)
          (Ideal.div (pix (-(X0 (ix2 n (1 : Fin 3)))) (-(X0 (ix2 n (2 : Fin 3))))) (Ideal.ofBits .f32 0x41000000#32))
          (Ideal.div (pix (X0 (ix2 n (0 : Fin 3))) (-(X0 (ix2 n (2 : Fin 3))))) (Ideal.ofBits .f32 0x41000000#32))
          (BitVec.ofNat 32 k.val) * (fun j : ℕ => tab X c (j / 28) (j % 28)) k.val := by
    intro k
    rw [rowW2_apply, hcol_apply, wcol_apply, hv, hv, hv, hf]
  rw [Finset.sum_congr rfl (fun k _ => e k)]
  refine (level_eq 28 784 (by norm_num) (by norm_num) (by norm_num) 28#32 rfl _ (by rw [c27]; norm_num) _ 8 c8
    (by norm_num) (by norm_num) _ _ _ _ (fun j : ℕ => tab X c (j / 28) (j % 28)) (fun j => tab_real X hX c _ _)).trans ?_
  unfold sample Cert.GP.hp Cert.GP.wp
  refine bil_congr 28 (by norm_num) _ _ _ _ _ (fun a b ha hb => ?_)
  show tab X c ((a * 28 + b) / 28) ((a * 28 + b) % 28) = tab X c a b
  have e1 : (a * 28 + b) / 28 = a := by omega
  have e2 : (a * 28 + b) % 28 = b := by omega
  rw [e1, e2]

theorem klvl3 (v0 : Vec Ideal S256x3 .f32) (f : Vec Ideal S196x256 .f32)
    (X0 : (⟨2, ![131072, 3]⟩ : Shape).Idx → EReal) (X : (⟨3, ![14, 14, 256]⟩ : Shape).Idx → EReal)
    (hX : ∀ i, ∃ r : ℝ, X i = r) (p : Fin 256) (n : Fin 131072) (c : Fin 256)
    (hv : ∀ k : Fin 3, v0 (ix2 p k) = X0 (ix2 n k))
    (hf : ∀ k : Fin 196, f (ix2 k c) = tab X c (k.val / 14) (k.val % 14)) :
    lvl3 (hcol v0) (wcol v0) f (ix2 p c) = sample 14 14#32 (Ideal.ofBits .f32 0x41800000#32) X0 X n c := by
  rw [lvl3_apply]
  have e : ∀ k : Fin 196, rowW3 (hcol v0) (wcol v0) (ix2 p k) * f (ix2 k c)
      = hot 14#32 (Ideal.ofBits .f32 0x41500000#32)
          (Ideal.div (pix (-(X0 (ix2 n (1 : Fin 3)))) (-(X0 (ix2 n (2 : Fin 3))))) (Ideal.ofBits .f32 0x41800000#32))
          (Ideal.div (pix (X0 (ix2 n (0 : Fin 3))) (-(X0 (ix2 n (2 : Fin 3))))) (Ideal.ofBits .f32 0x41800000#32))
          (BitVec.ofNat 32 k.val) * (fun j : ℕ => tab X c (j / 14) (j % 14)) k.val := by
    intro k
    rw [rowW3_apply, hcol_apply, wcol_apply, hv, hv, hv, hf]
  rw [Finset.sum_congr rfl (fun k _ => e k)]
  refine (level_eq 14 196 (by norm_num) (by norm_num) (by norm_num) 14#32 rfl _ (by rw [c13]; norm_num) _ 16 c16
    (by norm_num) (by norm_num) _ _ _ _ (fun j : ℕ => tab X c (j / 14) (j % 14)) (fun j => tab_real X hX c _ _)).trans ?_
  unfold sample Cert.GP.hp Cert.GP.wp
  refine bil_congr 14 (by norm_num) _ _ _ _ _ (fun a b ha hb => ?_)
  show tab X c ((a * 14 + b) / 14) ((a * 14 + b) % 14) = tab X c a b
  have e1 : (a * 14 + b) / 14 = a := by omega
  have e2 : (a * 14 + b) % 14 = b := by omega
  rw [e1, e2]

theorem klvl4 (v0 : Vec Ideal S256x3 .f32) (f : Vec Ideal S49x512 .f32)
    (X0 : (⟨2, ![131072, 3]⟩ : Shape).Idx → EReal) (X : (⟨3, ![7, 7, 512]⟩ : Shape).Idx → EReal)
    (hX : ∀ i, ∃ r : ℝ, X i = r) (p : Fin 256) (n : Fin 131072) (c : Fin 512)
    (hv : ∀ k : Fin 3, v0 (ix2 p k) = X0 (ix2 n k))
    (hf : ∀ k : Fin 49, f (ix2 k c) = tab X c (k.val / 7) (k.val % 7)) :
    lvl4 (hcol v0) (wcol v0) f (ix2 p c) = sample 7 7#32 (Ideal.ofBits .f32 0x42000000#32) X0 X n c := by
  rw [lvl4_apply]
  have e : ∀ k : Fin 49, rowW4 (hcol v0) (wcol v0) (ix2 p k) * f (ix2 k c)
      = hot 7#32 (Ideal.ofBits .f32 0x40C00000#32)
          (Ideal.div (pix (-(X0 (ix2 n (1 : Fin 3)))) (-(X0 (ix2 n (2 : Fin 3))))) (Ideal.ofBits .f32 0x42000000#32))
          (Ideal.div (pix (X0 (ix2 n (0 : Fin 3))) (-(X0 (ix2 n (2 : Fin 3))))) (Ideal.ofBits .f32 0x42000000#32))
          (BitVec.ofNat 32 k.val) * (fun j : ℕ => tab X c (j / 7) (j % 7)) k.val := by
    intro k
    rw [rowW4_apply, hcol_apply, wcol_apply, hv, hv, hv, hf]
  rw [Finset.sum_congr rfl (fun k _ => e k)]
  refine (level_eq 7 49 (by norm_num) (by norm_num) (by norm_num) 7#32 rfl _ (by rw [c6]; norm_num) _ 32 c32
    (by norm_num) (by norm_num) _ _ _ _ (fun j : ℕ => tab X c (j / 7) (j % 7)) (fun j => tab_real X hX c _ _)).trans ?_
  unfold sample Cert.GP.hp Cert.GP.wp
  refine bil_congr 7 (by norm_num) _ _ _ _ _ (fun a b ha hb => ?_)
  show tab X c ((a * 7 + b) / 7) ((a * 7 + b) % 7) = tab X c a b
  have e1 : (a * 7 + b) / 7 = a := by omega
  have e2 : (a * 7 + b) % 7 = b := by omega
  rw [e1, e2]

/-! ## A point's stored row is the row of G -/

/-- Over variables: a block of coordinates that is rows of the coordinate array, flat tables that are the tables
    reshaped, real table entries; then the body's block at (p, q) is G at (n, q). -/
theorem point_eq (v0 : Vec Ideal S256x3 .f32) (f1 : Vec Ideal S3136x64 .f32) (f2 : Vec Ideal S784x128 .f32)
    (f3 : Vec Ideal S196x256 .f32) (f4 : Vec Ideal S49x512 .f32)
    (X0 : (⟨2, ![131072, 3]⟩ : Shape).Idx → EReal) (X1 : (⟨3, ![56, 56, 64]⟩ : Shape).Idx → EReal)
    (X2 : (⟨3, ![28, 28, 128]⟩ : Shape).Idx → EReal) (X3 : (⟨3, ![14, 14, 256]⟩ : Shape).Idx → EReal)
    (X4 : (⟨3, ![7, 7, 512]⟩ : Shape).Idx → EReal)
    (h1 : ∀ i, ∃ r : ℝ, X1 i = r) (h2 : ∀ i, ∃ r : ℝ, X2 i = r) (h3 : ∀ i, ∃ r : ℝ, X3 i = r) (h4 : ∀ i, ∃ r : ℝ, X4 i = r)
    (p : Fin 256) (q : Fin 963) (n : Fin 131072)
    (hv : ∀ k : Fin 3, v0 (ix2 p k) = X0 (ix2 n k))
    (hf1 : ∀ (k : Fin 3136) (c : Fin 64), f1 (ix2 k c) = tab X1 c (k.val / 56) (k.val % 56))
    (hf2 : ∀ (k : Fin 784) (c : Fin 128), f2 (ix2 k c) = tab X2 c (k.val / 28) (k.val % 28))
    (hf3 : ∀ (k : Fin 196) (c : Fin 256), f3 (ix2 k c) = tab X3 c (k.val / 14) (k.val % 14))
    (hf4 : ∀ (k : Fin 49) (c : Fin 512), f4 (ix2 k c) = tab X4 c (k.val / 7) (k.val % 7)) :
    body v0 f1 f2 f3 f4 (ix2 p q) = G' X0 X1 X2 X3 X4 n q := by
  rw [body_apply]
  unfold G'
  split_ifs with c0 c1 c2 c3
  · exact hv _
  · exact klvl1 v0 f1 X0 X1 h1 p n _ hv (fun k => hf1 k _)
  · exact klvl2 v0 f2 X0 X2 h2 p n _ hv (fun k => hf2 k _)
  · exact klvl3 v0 f3 X0 X3 h3 p n _ hv (fun k => hf3 k _)
  · exact klvl4 v0 f4 X0 X4 h4 p n _ hv (fun k => hf4 k _)

/-! ## The blocks -/

variable (m : (ℓ : Loc nD τ sig) → Buf (Elt Ideal) ℓ)

/-- The five argument arrays on core c, as functions of their indices. -/
abbrev A0 (c : Dev nD) : (⟨2, ![131072, 3]⟩ : Shape).Idx → EReal := m ((c : Thread nD τ).loc main_arg0)
abbrev A1 (c : Dev nD) : (⟨3, ![56, 56, 64]⟩ : Shape).Idx → EReal := m ((c : Thread nD τ).loc main_arg1)
abbrev A2 (c : Dev nD) : (⟨3, ![28, 28, 128]⟩ : Shape).Idx → EReal := m ((c : Thread nD τ).loc main_arg2)
abbrev A3 (c : Dev nD) : (⟨3, ![14, 14, 256]⟩ : Shape).Idx → EReal := m ((c : Thread nD τ).loc main_arg3)
abbrev A4 (c : Dev nD) : (⟨3, ![7, 7, 512]⟩ : Shape).Idx → EReal := m ((c : Thread nD τ).loc main_arg4)

theorem hz2 : (![0, 0] : Fin 2 → Nat) = fun _ => 0 := funext fun a => by fin_cases a <;> rfl

/-- The printed index maps, decided over the grid: the coordinates' and the result's blocks move with the point along
    the rows; the tables' one block stays. -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The region finds table 1's flat array as the table reshaped. -/
theorem V_flat1 (c : Dev nD) :
    (V m c main_v0 : S3136x64.Idx → EReal)
      = shapeCast S3136x64 (m ((c : Thread nD τ).loc main_arg1)) shapeCasts_S56x56x64_S3136x64 := by
  dsimp only [Gen.V, Gen.hostOps0]
  after_results
  rfl

/-- The region finds table 2's flat array as the table reshaped. -/
theorem V_flat2 (c : Dev nD) :
    (V m c main_v1 : S784x128.Idx → EReal)
      = shapeCast S784x128 (m ((c : Thread nD τ).loc main_arg2)) shapeCasts_S28x28x128_S784x128 := by
  dsimp only [Gen.V, Gen.hostOps0]
  after_results
  rfl

/-- The region finds table 3's flat array as the table reshaped. -/
theorem V_flat3 (c : Dev nD) :
    (V m c main_v2 : S196x256.Idx → EReal)
      = shapeCast S196x256 (m ((c : Thread nD τ).loc main_arg3)) shapeCasts_S14x14x256_S196x256 := by
  dsimp only [Gen.V, Gen.hostOps0]
  after_results
  rfl

/-- The region finds table 4's flat array as the table reshaped. -/
theorem V_flat4 (c : Dev nD) :
    (V m c main_v3 : S49x512.Idx → EReal)
      = shapeCast S49x512 (m ((c : Thread nD τ).loc main_arg4)) shapeCasts_S7x7x512_S49x512 := by
  dsimp only [Gen.V, Gen.hostOps0]
  after_results
  rfl

/-- WHAT POINT t WRITES BACK is block t of G of the argument arrays, the tables' entries being real numbers. -/
theorem flushed_eq (c : Dev nD)
    (h1 : ∀ i, ∃ r : ℝ, A1 m c i = r) (h2 : ∀ i, ∃ r : ℝ, A2 m c i = r)
    (h3 : ∀ i, ∃ r : ℝ, A3 m c i = r) (h4 : ∀ i, ∃ r : ℝ, A4 m c i = r)
    (t : Fin cfg0.N) :
    (dats m 0 c).flushed 5 t = ((cfg0.win 5).blk t).view.read (Elt Ideal)
      (G (A0 m c) (A1 m c) (A2 m c) (A3 m c) (A4 m c)) := by
  show (cfg0.win 5).cut (grid0.coords t) ((dats m 0 c).after 5 t) = _
  rw [after0_5, out_eq, View.canon_unit_zero hz2]
  simp only [View.ld_unit_zero (S := S256x3) hz2, View.ld_unit_zero (S := S3136x64) hz2,
    View.ld_unit_zero (S := S784x128) hz2, View.ld_unit_zero (S := S196x256) hz2, View.ld_unit_zero (S := S49x512) hz2]
  obtain ⟨e00, e01, e50, e51, e10, e11, e20, e21, e30, e31, e40, e41⟩ := idx_facts t
  have ht : t.val < 512 := t.isLt
  funext j
  obtain ⟨p, q, rfl⟩ : ∃ (p : Fin 256) (q : Fin 963), j = ix2 p q := ⟨j 0, j 1, eq_ix2 j⟩
  have hemb : ((cfg0.win 5).blk t).view.emb (ix2 p q) = ix2 (⟨t.val * 256 + p.val, by omega⟩ : Fin 131072) q := by
    funext a; apply Fin.ext
    match a with
    | ⟨0, _⟩ => show win0_5.index t (0 : Fin 2) * 256 + 1 * p.val = t.val * 256 + p.val; omega
    | ⟨1, _⟩ => show win0_5.index t (1 : Fin 2) * 963 + 1 * q.val = q.val; omega
  show body (iblk m c 0 t) (iblk m c 1 t) (iblk m c 2 t) (iblk m c 3 t) (iblk m c 4 t) (ix2 p q)
    = G _ _ _ _ _ (((cfg0.win 5).blk t).view.emb (ix2 p q))
  rw [hemb]
  show _ = G' _ _ _ _ _ (⟨t.val * 256 + p.val, by omega⟩ : Fin 131072) q
  refine point_eq _ _ _ _ _ _ _ _ _ _ h1 h2 h3 h4 p q _ ?_ ?_ ?_ ?_ ?_
  · intro k
    show V m c main_arg0 (((cfg0.win 0).blk t).view.emb (ix2 p k)) = _
    rw [V_main_arg0]
    refine congrArg _ (funext fun a => Fin.ext ?_)
    match a with
    | ⟨0, _⟩ => show win0_0.index t (0 : Fin 2) * 256 + 1 * p.val = t.val * 256 + p.val; omega
    | ⟨1, _⟩ => show win0_0.index t (1 : Fin 2) * 3 + 1 * k.val = k.val; omega
  · intro k cc
    show V m c main_v0 (((cfg0.win 1).blk t).view.emb (ix2 k cc)) = _
    have he : ((cfg0.win 1).blk t).view.emb (ix2 k cc) = ix2 k cc := by
      funext a; apply Fin.ext
      match a with
      | ⟨0, _⟩ => show win0_1.index t (0 : Fin 2) * 3136 + 1 * k.val = k.val; omega
      | ⟨1, _⟩ => show win0_1.index t (1 : Fin 2) * 64 + 1 * cc.val = cc.val; omega
    rw [he, V_flat1]
    exact flat_read (by norm_num) (by norm_num) _ _ k cc
  · intro k cc
    show V m c main_v1 (((cfg0.win 2).blk t).view.emb (ix2 k cc)) = _
    have he : ((cfg0.win 2).blk t).view.emb (ix2 k cc) = ix2 k cc := by
      funext a; apply Fin.ext
      match a with
      | ⟨0, _⟩ => show win0_2.index t (0 : Fin 2) * 784 + 1 * k.val = k.val; omega
      | ⟨1, _⟩ => show win0_2.index t (1 : Fin 2) * 128 + 1 * cc.val = cc.val; omega
    rw [he, V_flat2]
    exact flat_read (by norm_num) (by norm_num) _ _ k cc
  · intro k cc
    show V m c main_v2 (((cfg0.win 3).blk t).view.emb (ix2 k cc)) = _
    have he : ((cfg0.win 3).blk t).view.emb (ix2 k cc) = ix2 k cc := by
      funext a; apply Fin.ext
      match a with
      | ⟨0, _⟩ => show win0_3.index t (0 : Fin 2) * 196 + 1 * k.val = k.val; omega
      | ⟨1, _⟩ => show win0_3.index t (1 : Fin 2) * 256 + 1 * cc.val = cc.val; omega
    rw [he, V_flat3]
    exact flat_read (by norm_num) (by norm_num) _ _ k cc
  · intro k cc
    show V m c main_v3 (((cfg0.win 4).blk t).view.emb (ix2 k cc)) = _
    have he : ((cfg0.win 4).blk t).view.emb (ix2 k cc) = ix2 k cc := by
      funext a; apply Fin.ext
      match a with
      | ⟨0, _⟩ => show win0_4.index t (0 : Fin 2) * 49 + 1 * k.val = k.val; omega
      | ⟨1, _⟩ => show win0_4.index t (1 : Fin 2) * 512 + 1 * cc.val = cc.val; omega
    rw [he, V_flat4]
    exact flat_read (by norm_num) (by norm_num) _ _ k cc

/-- An index of the array is in point t's block iff each coordinate is in the block's range on its axis. -/
theorem mem_blk (t : Fin cfg0.N) (i : S131072x963.Idx) :
    i ∈ ((cfg0.win 5).blk t).view.set ↔ ∀ a : Fin 2, win0_5.index t a * S256x963.size a ≤ (i a).val
      ∧ (i a).val < win0_5.index t a * S256x963.size a + S256x963.size a := by
  show i ∈ ((View.whole main_v4).slice (win0_5.rect t)).set ↔ _
  rw [View.set_slice_whole, Rect.mem_set_unit]
  exact Iff.rfl

/-- Every row of the array is in the block of the point its row number divided by 256 names. -/
theorem cover (i : S131072x963.Idx) : ∃ t : Fin cfg0.N, (cfg0.win 5).flush t = true ∧ i ∈ ((cfg0.win 5).blk t).view.set := by
  have hi0 : (i 0).val < 131072 := (i 0).isLt
  have hi1 : (i 1).val < 963 := (i 1).isLt
  refine ⟨⟨(i 0).val / 256, by show (i 0).val / 256 < 512; omega⟩, flush0_5 _, ?_⟩
  rw [mem_blk]
  obtain ⟨-, -, e50, e51, -⟩ := idx_facts ⟨(i 0).val / 256, by show (i 0).val / 256 < 512; omega⟩
  intro a
  match a with
  | ⟨0, _⟩ =>
    show win0_5.index _ (0 : Fin 2) * 256 ≤ (i 0).val ∧ (i 0).val < win0_5.index _ (0 : Fin 2) * 256 + 256
    rw [e50]
    show (i 0).val / 256 * 256 ≤ (i 0).val ∧ (i 0).val < (i 0).val / 256 * 256 + 256
    omega
  | ⟨1, _⟩ =>
    show win0_5.index _ (1 : Fin 2) * 963 ≤ (i 1).val ∧ (i 1).val < win0_5.index _ (1 : Fin 2) * 963 + 963
    rw [e51]
    omega

/-- THE ARRAY after the run is G of the argument arrays. -/
theorem final (c : Dev nD)
    (h1 : ∀ i, ∃ r : ℝ, A1 m c i = r) (h2 : ∀ i, ∃ r : ℝ, A2 m c i = r)
    (h3 : ∀ i, ∃ r : ℝ, A3 m c i = r) (h4 : ∀ i, ∃ r : ℝ, A4 m c i = r) :
    (dats m 0 c).arrAt 5 cfg0.N
      = G (A0 m c) (A1 m c) (A2 m c) (A3 m c) (A4 m c) :=
  (dats m 0 c).arrAt_eq_of_cover 5 _ (fun t _ => flushed_eq m c h1 h2 h3 h4 t) cover

end Cert.KernelIdeal.KValue

end
-- ==== Proof.LibHostRows.lean ====
/-
  Rows of a matrix on the host, at the ideal values: the `broadcast_in_dim` steps a jnp program surrounds a row reduction
  with, and the host's own row reductions read at a row.

  A scalar broadcast to any shape reads the scalar everywhere (`scalar_apply`). A vector of length b viewed as a [1, b]
  row and the row repeated along the rows to [a, b] reads entry j at (i, j) (`row_apply`, `rowSpread_apply`): a bias
  added to every row. A vector of length a viewed as an [a, 1] column and the column repeated along the columns to [a, b]
  reads entry i at (i, j) (`column_apply`, `spread_apply`): a row statistic set against the matrix again.

  The host's one-operand reduce along the columns with a maximum body is, at row i, the fold of max from the initial
  value over the row's entries (`rowMaximum_apply`); its sum is the initial value plus the sum of the row's entries
  (`rowSum_apply`). Both with the row's entries written (i, k).
-/
import Idealize.ShloMosaic.PureOps.Ideal.Laws
import Idealize.ShloMosaic.PureOps.Reduce
import Idealize.ShloMosaic.Lib.ValueIdx
import Idealize.ShloMosaic.Lib.Pipeline.Value

noncomputable section

namespace Cert.LibHostRows

open Idealize.ShloMosaic Idealize.ShloMosaic.ValueIdx

variable {α : Type}

/-- A scalar broadcast to any shape reads the scalar at every index. -/
theorem scalar_apply {s : Shape} (v : (⟨0, ![]⟩ : Shape).Idx → α)
    (h : (⟨0, ![]⟩ : Shape).BroadcastsInDim s (![] : Fin 0 → Fin s.rank)) (j : s.Idx) :
    broadcastInDim s ![] h v j = v ix0 :=
  broadcastInDim_apply _ h v j ix0 fun c => c.elim0

/-- A vector of length `b` viewed as a [1, b] row reads entry `j` at (0, j). -/
theorem row_apply {b : ℕ} (v : (⟨1, ![b]⟩ : Shape).Idx → α)
    (h : (⟨1, ![b]⟩ : Shape).BroadcastsInDim ⟨2, ![1, b]⟩ (![1] : Fin 1 → Fin 2)) (u : Fin 1) (j : Fin b) (hb : b ≠ 1) :
    broadcastInDim ⟨2, ![1, b]⟩ ![1] h v (ix2 u j) = v (ix1 j) :=
  broadcastInDim_apply _ h v _ _ fun c => match c with
    | ⟨0, _⟩ => by
        show j.val = if b = 1 then 0 else j.val
        rw [if_neg hb]

/-- A [1, b] row repeated along the rows to [a, b] reads the row's entry `j` at (i, j). -/
theorem rowSpread_apply {a b : ℕ} (v : (⟨2, ![1, b]⟩ : Shape).Idx → α)
    (h : (⟨2, ![1, b]⟩ : Shape).BroadcastsInDim ⟨2, ![a, b]⟩ (![0, 1] : Fin 2 → Fin 2)) (i : Fin a) (j : Fin b) (hb : b ≠ 1) :
    broadcastInDim ⟨2, ![a, b]⟩ ![0, 1] h v (ix2 i j) = v (ix2 (0 : Fin 1) j) :=
  broadcastInDim_apply _ h v _ _ fun c => match c with
    | ⟨0, _⟩ => rfl
    | ⟨1, _⟩ => by
        show j.val = if b = 1 then 0 else j.val
        rw [if_neg hb]

/-- A vector of length `a` viewed as an [a, 1] column reads entry `i` at (i, 0). -/
theorem column_apply {a : ℕ} (v : (⟨1, ![a]⟩ : Shape).Idx → α)
    (h : (⟨1, ![a]⟩ : Shape).BroadcastsInDim ⟨2, ![a, 1]⟩ (![0] : Fin 1 → Fin 2)) (i : Fin a) (u : Fin 1) (ha : a ≠ 1) :
    broadcastInDim ⟨2, ![a, 1]⟩ ![0] h v (ix2 i u) = v (ix1 i) :=
  broadcastInDim_apply _ h v _ _ fun c => match c with
    | ⟨0, _⟩ => by
        show i.val = if a = 1 then 0 else i.val
        rw [if_neg ha]

/-- An [a, 1] column repeated along the columns to [a, b] reads the column's entry `i` at (i, j). -/
theorem spread_apply {a b : ℕ} (v : (⟨2, ![a, 1]⟩ : Shape).Idx → α)
    (h : (⟨2, ![a, 1]⟩ : Shape).BroadcastsInDim ⟨2, ![a, b]⟩ (![0, 1] : Fin 2 → Fin 2)) (i : Fin a) (j : Fin b) (ha : a ≠ 1) :
    broadcastInDim ⟨2, ![a, b]⟩ ![0, 1] h v (ix2 i j) = v (ix2 i (0 : Fin 1)) :=
  broadcastInDim_apply _ h v _ _ fun c => match c with
    | ⟨0, _⟩ => by
        show i.val = if a = 1 then 0 else i.val
        rw [if_neg ha]
    | ⟨1, _⟩ => rfl

/-- The source index over row `i` with `k` inserted on the column axis is (i, k). -/
theorem lift_row {a b : ℕ} (h : Shape.Reduces ⟨2, ![a, b]⟩ [1] ⟨1, ![a]⟩) (i : Fin a) (k : Fin b) :
    h.lift (ix1 i) k = ix2 i k :=
  funext fun c => Fin.ext (by match c with | ⟨0, _⟩ => rfl | ⟨1, _⟩ => rfl)

/-- The host's maximum along the columns, at row `i`: the fold of `max` from the initial value over the row's entries. -/
theorem rowMaximum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduce FloatOps.maximumf y init h' hu (ix1 i)
      = (Finset.univ : Finset (Fin b)).fold max (init (Shape.Idx.first hu)) (fun k => y (ix2 i k)) := by
  refine (Host.reduce_eq_fold_single FloatOps.maximumf y init h' h hu (ix1 i)).trans ?_
  exact congrArg (Finset.fold max (init (Shape.Idx.first hu)) · Finset.univ) (funext fun k => congrArg y (lift_row h i k))

/-- The host's sum along the columns, at row `i`: the initial value plus the sum of the row's entries. -/
theorem rowSum_apply {a b : ℕ} {u : Shape} (y : FVec Ideal ⟨2, ![a, b]⟩ .f32) (init : u.Idx → Ideal .f32)
    (h' : Shape.ReducesTo ⟨2, ![a, b]⟩ [1] ⟨1, ![a]⟩) (h : Shape.Reduces ⟨2, ![a, b]⟩ [1] ⟨1, ![a]⟩) (hu : 0 < u.numel) (i : Fin a) :
    Host.reduceAdd y init h' hu (ix1 i) = init (Shape.Idx.first hu) + ∑ k : Fin b, y (ix2 i k) := by
  show Ideal.hostReduceAdd h' y (init (Shape.Idx.first hu)) (ix1 i) = _
  rw [Ideal.hostReduceAdd_single h' h]
  exact congrArg (_ + ·) (Finset.sum_congr rfl fun k _ => congrArg y (lift_row h i k))

end Cert.LibHostRows

end
-- ==== Proof.RRead.lean ====
/-
  The reference read at an entry.

  Its pixel row and column at point n are the clipped projections of the point's coordinates; a level's weighted sum
  at (n, c) is the bilinear sample of the level's table at the point's pixel, channel c — the lookups clamp their
  integer coordinates into the table —; the result at (n, q) is the piece whose columns hold q.
-/
import proofs.«154923_j8203387535722_2_alg».proof.Proof.RefReadP
import proofs.«154923_j8203387535722_2_alg».proof.Proof.GDef
import proofs.«154923_j8203387535722_2_alg».proof.Proof.LibHostRows
import proofs.«154923_j8203387535722_2_alg».proof.Proof.LibColumns
import Idealize.ShloMosaic.Lib.ValueLayout

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx Cert.Bilin Cert.GP

/-! ## Elementwise operations read at an index -/

theorem hdivf_apply {s : Shape} (a b : FVec Ideal s .f32) (i : s.Idx) : Host.divf a b i = Ideal.div (a i) (b i) := rfl
theorem hnegf_apply {s : Shape} (a : FVec Ideal s .f32) (i : s.Idx) : Host.negf a i = -(a i) := rfl
theorem hfloor_apply {s : Shape} (a : FVec Ideal s .f32) (i : s.Idx) :
    Host.floor a i = Ideal.liftRound Int.floor (a i) := rfl
theorem hceil_apply {s : Shape} (a : FVec Ideal s .f32) (i : s.Idx) :
    Host.ceil a i = Ideal.liftRound Int.ceil (a i) := rfl
theorem fptosi_apply {s : Shape} (v : FVec Ideal s .f32) (i : s.Idx) : fptosi 32 v i = Ideal.fptosi 32 (v i) := rfl
theorem cmpi_apply {s : Shape} {w : ℕ} (pr : CmpIPredicate) (a b : IVec s w) (i : s.Idx) :
    cmpi pr a b i = IntOp.cmpi pr (a i) (b i) := rfl
theorem addi_apply {s : Shape} {w : ℕ} (a b : IVec s w) (i : s.Idx) : addi a b i = IntOp.addi (a i) (b i) := rfl

/-! ## The layout steps between the per-point vectors and the matrices -/

/-- A scalar spread over the points reads the scalar. -/
theorem sc {α : Type} (v : S_.Idx → α) (h : S_.BroadcastsInDim S131072 (![] : Fin 0 → Fin 1)) (n : Fin 131072) :
    broadcastInDim S131072 ![] h v (ix1 n) = v ix0 :=
  Cert.LibHostRows.scalar_apply v h _

/-- A per-point vector viewed as a column reads the point's entry. -/
theorem colN {α : Type} (v : S131072.Idx → α) (h : S131072.BroadcastsInDim S131072x1 (![0] : Fin 1 → Fin 2))
    (n : Fin 131072) : broadcastInDim S131072x1 ![0] h v (ix2 n (0 : Fin 1)) = v (ix1 n) :=
  Cert.LibHostRows.column_apply v h n 0 (by decide)

/-- A column over the points spread along the channels reads the point's entry. -/
theorem spreadN {α : Type} {b : ℕ} (v : (⟨2, ![131072, 1]⟩ : Shape).Idx → α)
    (h : (⟨2, ![131072, 1]⟩ : Shape).BroadcastsInDim ⟨2, ![131072, b]⟩ (![0, 1] : Fin 2 → Fin 2)) (n : Fin 131072)
    (c : Fin b) : broadcastInDim ⟨2, ![131072, b]⟩ ![0, 1] h v (ix2 n c) = v (ix2 n (0 : Fin 1)) :=
  Cert.LibHostRows.spread_apply v h n c (by decide)

/-- A column over the points viewed as a per-point vector reads the column's entry. -/
theorem uncol {α : Type} (v : S131072x1.Idx → α) (h : S131072x1.ShapeCasts S131072) (n : Fin 131072) :
    shapeCast S131072 v h (ix1 n) = v (ix2 n (0 : Fin 1)) :=
  shapeCast_apply v h _ _ (by
    rw [Shape.rowMajor_val_two, Shape.rowMajor_val_one]
    show n.val * 1 + 0 = n.val
    omega)

/-- The same three, at the shapes and facts the program names. -/
theorem sc' {α : Type} (v : S_.Idx → α) (n : Fin 131072) :
    broadcastInDim S131072 ![] bcast_S_S131072 v (ix1 n) = v ix0 := sc v _ n
theorem colN' {α : Type} (v : S131072.Idx → α) (n : Fin 131072) :
    broadcastInDim S131072x1 ![0] bcast_S131072_S131072x1_0 v (ix2 n (0 : Fin 1)) = v (ix1 n) := colN v _ n
theorem spread64 {α : Type} (v : S131072x1.Idx → α) (n : Fin 131072) (c : Fin 64) :
    broadcastInDim S131072x64 ![0, 1] bcast_S131072x1_S131072x64_0_1 v (ix2 n c) = v (ix2 n (0 : Fin 1)) :=
  spreadN v _ n c
theorem spread128 {α : Type} (v : S131072x1.Idx → α) (n : Fin 131072) (c : Fin 128) :
    broadcastInDim S131072x128 ![0, 1] bcast_S131072x1_S131072x128_0_1 v (ix2 n c) = v (ix2 n (0 : Fin 1)) :=
  spreadN v _ n c
theorem spread256 {α : Type} (v : S131072x1.Idx → α) (n : Fin 131072) (c : Fin 256) :
    broadcastInDim S131072x256 ![0, 1] bcast_S131072x1_S131072x256_0_1 v (ix2 n c) = v (ix2 n (0 : Fin 1)) :=
  spreadN v _ n c
theorem spread512 {α : Type} (v : S131072x1.Idx → α) (n : Fin 131072) (c : Fin 512) :
    broadcastInDim S131072x512 ![0, 1] bcast_S131072x1_S131072x512_0_1 v (ix2 n c) = v (ix2 n (0 : Fin 1)) :=
  spreadN v _ n c

/-- Column o of the points' coordinates, read at a point. -/
theorem colX (o : ℕ) (X : S131072x3.Idx → EReal) (h : S131072x3.Slices ![0, o] S131072x1) (n : Fin 131072) (k : Fin 3)
    (hk : k.val = o) : extractStridedSlice S131072x1 ![0, o] X h (ix2 n (0 : Fin 1)) = X (ix2 n k) :=
  slice2_axis1_apply o X h n 0 k (by rw [hk]; rfl)

/-! ## The pixel of a point -/

theorem ref_h (x0 : (⟨S131072x3, .f32⟩ : BufTy).Contents (Elt Ideal)) (n : Fin 131072) :
    val_main_v19 (F := Ideal) x0 (ix1 n) = hp x0 n := by
  unfold hp pix
  simp only [
    val_main_v0, val_main_v1, val_main_v2, val_main_v3, val_main_v4, val_main_v5, val_main_v6, val_main_v7,
    val_main_v8, val_main_cst, val_main_v9, val_main_v10, val_main_cst_0, val_main_v11, val_main_v12, val_main_v13,
    val_main_v14, val_main_cst_1, val_main_v15, val_main_v16, val_main_cst_2, val_main_v17, val_main_v18,
    val_main_cst_3, val_main_cst_4, val_main_call0_v0, val_main_call0_v1, val_main_call0_v2, val_main_call0_v3,
    val_main_call0_v4, val_main_v19, val_main_cst_5, val_main_cst_6, val_main_call1_v0, val_main_call1_v1,
    val_main_call1_v2, val_main_call1_v3, val_main_call1_v4, val_main_v20]
  repeat first
    | rw [sc']
    | simp only [minimumf_apply, maximumf_apply, addf_apply, mulf_apply, hdivf_apply, hnegf_apply, uncol,
        colX 1 _ _ n 1 rfl, colX 2 _ _ n 2 rfl, constant_apply, id]

theorem ref_w (x0 : (⟨S131072x3, .f32⟩ : BufTy).Contents (Elt Ideal)) (n : Fin 131072) :
    val_main_v20 (F := Ideal) x0 (ix1 n) = wp x0 n := by
  unfold wp pix
  simp only [
    val_main_v0, val_main_v1, val_main_v2, val_main_v3, val_main_v4, val_main_v5, val_main_v6, val_main_v7,
    val_main_v8, val_main_cst, val_main_v9, val_main_v10, val_main_cst_0, val_main_v11, val_main_v12, val_main_v13,
    val_main_v14, val_main_cst_1, val_main_v15, val_main_v16, val_main_cst_2, val_main_v17, val_main_v18,
    val_main_cst_3, val_main_cst_4, val_main_call0_v0, val_main_call0_v1, val_main_call0_v2, val_main_call0_v3,
    val_main_call0_v4, val_main_v19, val_main_cst_5, val_main_cst_6, val_main_call1_v0, val_main_call1_v1,
    val_main_call1_v2, val_main_call1_v3, val_main_call1_v4, val_main_v20]
  repeat first
    | rw [sc']
    | simp only [minimumf_apply, maximumf_apply, addf_apply, mulf_apply, hdivf_apply, hnegf_apply, uncol,
        colX 0 _ _ n 0 rfl, colX 2 _ _ n 2 rfl, constant_apply, id]

/-! ## Level 1 -/

theorem ref_lvl1 (x0 : (⟨S131072x3, .f32⟩ : BufTy).Contents (Elt Ideal)) (x : (⟨S56x56x64, .f32⟩ : BufTy).Contents (Elt Ideal))
    (n : Fin 131072) (c : Fin 64) :
    val_main_v115 (F := Ideal) x0 x (ix2 n c) = sample 56 56#32 (Ideal.ofBits .f32 0x40800000#32) x0 x n c := by
  have hg : gather_S56x56x64_S131072x2_S131072x64_1_01_n_n_01_1_1164 = Cert.LibColumns.pairDims 56 56 64 131072 gather_S56x56x64_S131072x2_S131072x64_1_01_n_n_01_1_1164_wf := rfl
  unfold sample bil
  rw [tab_eq _ _ _ _ (cellR_lt 56 (by norm_num) _ _) (cellR_lt 56 (by norm_num) _ _),
    tab_eq _ _ _ _ (cellR_lt 56 (by norm_num) _ _) (cellR_lt 56 (by norm_num) _ _),
    tab_eq _ _ _ _ (cellR_lt 56 (by norm_num) _ _) (cellR_lt 56 (by norm_num) _ _),
    tab_eq _ _ _ _ (cellR_lt 56 (by norm_num) _ _) (cellR_lt 56 (by norm_num) _ _)]
  unfold cellR
  rw [← ref_h, ← ref_w]
  simp only [
    val_main_cst_7, val_main_v21, val_main_v22, val_main_cst_8, val_main_v23, val_main_v24, val_main_v25,
    val_main_v26, val_main_v27, val_main_v28, val_main_v29, val_main_v30, val_main_v31, val_main_v32, val_main_c,
    val_main_v33, val_main_v34, val_main_c_9, val_main_v35, val_main_v36, val_main_v37, val_main_c_10, val_main_v38,
    val_main_v39, val_main_c_11, val_main_v40, val_main_v41, val_main_v42, val_main_v43, val_main_v44, val_main_v45,
    val_main_v46, val_main_c_12, val_main_v47, val_main_v48, val_main_c_13, val_main_v49, val_main_v50, val_main_v51,
    val_main_c_14, val_main_v52, val_main_v53, val_main_c_15, val_main_v54, val_main_v55, val_main_v56, val_main_v57,
    val_main_v58, val_main_v59, val_main_v60, val_main_c_16, val_main_v61, val_main_v62, val_main_c_17, val_main_v63,
    val_main_v64, val_main_v65, val_main_c_18, val_main_v66, val_main_v67, val_main_c_19, val_main_v68, val_main_v69,
    val_main_v70, val_main_v71, val_main_v72, val_main_v73, val_main_v74, val_main_c_20, val_main_v75, val_main_v76,
    val_main_c_21, val_main_v77, val_main_v78, val_main_v79, val_main_c_22, val_main_v80, val_main_v81,
    val_main_c_23, val_main_v82, val_main_v83, val_main_v84, val_main_v85, val_main_v86, val_main_v87, val_main_v88,
    val_main_v89, val_main_v90, val_main_v91, val_main_v92, val_main_v93, val_main_v94, val_main_v95, val_main_v96,
    val_main_v97, val_main_v98, val_main_v99, val_main_v100, val_main_v101, val_main_v102, val_main_v103,
    val_main_v104, val_main_v105, val_main_v106, val_main_v107, val_main_v108, val_main_v109, val_main_v110,
    val_main_v111, val_main_v112, val_main_v113, val_main_v114, val_main_v115]
  repeat first
    | rw [spread64]
    | rw [colN']
    | rw [sc']
    | simp only [hg, addf_apply, mulf_apply, subf_apply,
        Cert.LibColumns.gather_pair_apply (A := 56) (B := 56) (by norm_num) (by norm_num), Cert.LibColumns.pair_left,
        Cert.LibColumns.pair_right, select_apply, cmpi_apply, addi_apply, fptosi_apply, hfloor_apply, hceil_apply,
        hdivf_apply, constant_apply, constantI_apply, id, lo, hi]
  all_goals rfl

/-! ## Level 2 -/

theorem ref_lvl2 (x0 : (⟨S131072x3, .f32⟩ : BufTy).Contents (Elt Ideal)) (x : (⟨S28x28x128, .f32⟩ : BufTy).Contents (Elt Ideal))
    (n : Fin 131072) (c : Fin 128) :
    val_main_v210 (F := Ideal) x0 x (ix2 n c) = sample 28 28#32 (Ideal.ofBits .f32 0x41000000#32) x0 x n c := by
  have hg : gather_S28x28x128_S131072x2_S131072x128_1_01_n_n_01_1_11128 = Cert.LibColumns.pairDims 28 28 128 131072 gather_S28x28x128_S131072x2_S131072x128_1_01_n_n_01_1_11128_wf := rfl
  unfold sample bil
  rw [tab_eq _ _ _ _ (cellR_lt 28 (by norm_num) _ _) (cellR_lt 28 (by norm_num) _ _),
    tab_eq _ _ _ _ (cellR_lt 28 (by norm_num) _ _) (cellR_lt 28 (by norm_num) _ _),
    tab_eq _ _ _ _ (cellR_lt 28 (by norm_num) _ _) (cellR_lt 28 (by norm_num) _ _),
    tab_eq _ _ _ _ (cellR_lt 28 (by norm_num) _ _) (cellR_lt 28 (by norm_num) _ _)]
  unfold cellR
  rw [← ref_h, ← ref_w]
  simp only [
    val_main_cst_24, val_main_v116, val_main_v117, val_main_cst_25, val_main_v118, val_main_v119, val_main_v120,
    val_main_v121, val_main_v122, val_main_v123, val_main_v124, val_main_v125, val_main_v126, val_main_v127,
    val_main_c_26, val_main_v128, val_main_v129, val_main_c_27, val_main_v130, val_main_v131, val_main_v132,
    val_main_c_28, val_main_v133, val_main_v134, val_main_c_29, val_main_v135, val_main_v136, val_main_v137,
    val_main_v138, val_main_v139, val_main_v140, val_main_v141, val_main_c_30, val_main_v142, val_main_v143,
    val_main_c_31, val_main_v144, val_main_v145, val_main_v146, val_main_c_32, val_main_v147, val_main_v148,
    val_main_c_33, val_main_v149, val_main_v150, val_main_v151, val_main_v152, val_main_v153, val_main_v154,
    val_main_v155, val_main_c_34, val_main_v156, val_main_v157, val_main_c_35, val_main_v158, val_main_v159,
    val_main_v160, val_main_c_36, val_main_v161, val_main_v162, val_main_c_37, val_main_v163, val_main_v164,
    val_main_v165, val_main_v166, val_main_v167, val_main_v168, val_main_v169, val_main_c_38, val_main_v170,
    val_main_v171, val_main_c_39, val_main_v172, val_main_v173, val_main_v174, val_main_c_40, val_main_v175,
    val_main_v176, val_main_c_41, val_main_v177, val_main_v178, val_main_v179, val_main_v180, val_main_v181,
    val_main_v182, val_main_v183, val_main_v184, val_main_v185, val_main_v186, val_main_v187, val_main_v188,
    val_main_v189, val_main_v190, val_main_v191, val_main_v192, val_main_v193, val_main_v194, val_main_v195,
    val_main_v196, val_main_v197, val_main_v198, val_main_v199, val_main_v200, val_main_v201, val_main_v202,
    val_main_v203, val_main_v204, val_main_v205, val_main_v206, val_main_v207, val_main_v208, val_main_v209,
    val_main_v210]
  repeat first
    | rw [spread128]
    | rw [colN']
    | rw [sc']
    | simp only [hg, addf_apply, mulf_apply, subf_apply,
        Cert.LibColumns.gather_pair_apply (A := 28) (B := 28) (by norm_num) (by norm_num), Cert.LibColumns.pair_left,
        Cert.LibColumns.pair_right, select_apply, cmpi_apply, addi_apply, fptosi_apply, hfloor_apply, hceil_apply,
        hdivf_apply, constant_apply, constantI_apply, id, lo, hi]
  all_goals rfl

/-! ## Level 3 -/

theorem ref_lvl3 (x0 : (⟨S131072x3, .f32⟩ : BufTy).Contents (Elt Ideal)) (x : (⟨S14x14x256, .f32⟩ : BufTy).Contents (Elt Ideal))
    (n : Fin 131072) (c : Fin 256) :
    val_main_v305 (F := Ideal) x0 x (ix2 n c) = sample 14 14#32 (Ideal.ofBits .f32 0x41800000#32) x0 x n c := by
  have hg : gather_S14x14x256_S131072x2_S131072x256_1_01_n_n_01_1_11256 = Cert.LibColumns.pairDims 14 14 256 131072 gather_S14x14x256_S131072x2_S131072x256_1_01_n_n_01_1_11256_wf := rfl
  unfold sample bil
  rw [tab_eq _ _ _ _ (cellR_lt 14 (by norm_num) _ _) (cellR_lt 14 (by norm_num) _ _),
    tab_eq _ _ _ _ (cellR_lt 14 (by norm_num) _ _) (cellR_lt 14 (by norm_num) _ _),
    tab_eq _ _ _ _ (cellR_lt 14 (by norm_num) _ _) (cellR_lt 14 (by norm_num) _ _),
    tab_eq _ _ _ _ (cellR_lt 14 (by norm_num) _ _) (cellR_lt 14 (by norm_num) _ _)]
  unfold cellR
  rw [← ref_h, ← ref_w]
  simp only [
    val_main_cst_42, val_main_v211, val_main_v212, val_main_cst_43, val_main_v213, val_main_v214, val_main_v215,
    val_main_v216, val_main_v217, val_main_v218, val_main_v219, val_main_v220, val_main_v221, val_main_v222,
    val_main_c_44, val_main_v223, val_main_v224, val_main_c_45, val_main_v225, val_main_v226, val_main_v227,
    val_main_c_46, val_main_v228, val_main_v229, val_main_c_47, val_main_v230, val_main_v231, val_main_v232,
    val_main_v233, val_main_v234, val_main_v235, val_main_v236, val_main_c_48, val_main_v237, val_main_v238,
    val_main_c_49, val_main_v239, val_main_v240, val_main_v241, val_main_c_50, val_main_v242, val_main_v243,
    val_main_c_51, val_main_v244, val_main_v245, val_main_v246, val_main_v247, val_main_v248, val_main_v249,
    val_main_v250, val_main_c_52, val_main_v251, val_main_v252, val_main_c_53, val_main_v253, val_main_v254,
    val_main_v255, val_main_c_54, val_main_v256, val_main_v257, val_main_c_55, val_main_v258, val_main_v259,
    val_main_v260, val_main_v261, val_main_v262, val_main_v263, val_main_v264, val_main_c_56, val_main_v265,
    val_main_v266, val_main_c_57, val_main_v267, val_main_v268, val_main_v269, val_main_c_58, val_main_v270,
    val_main_v271, val_main_c_59, val_main_v272, val_main_v273, val_main_v274, val_main_v275, val_main_v276,
    val_main_v277, val_main_v278, val_main_v279, val_main_v280, val_main_v281, val_main_v282, val_main_v283,
    val_main_v284, val_main_v285, val_main_v286, val_main_v287, val_main_v288, val_main_v289, val_main_v290,
    val_main_v291, val_main_v292, val_main_v293, val_main_v294, val_main_v295, val_main_v296, val_main_v297,
    val_main_v298, val_main_v299, val_main_v300, val_main_v301, val_main_v302, val_main_v303, val_main_v304,
    val_main_v305]
  repeat first
    | rw [spread256]
    | rw [colN']
    | rw [sc']
    | simp only [hg, addf_apply, mulf_apply, subf_apply,
        Cert.LibColumns.gather_pair_apply (A := 14) (B := 14) (by norm_num) (by norm_num), Cert.LibColumns.pair_left,
        Cert.LibColumns.pair_right, select_apply, cmpi_apply, addi_apply, fptosi_apply, hfloor_apply, hceil_apply,
        hdivf_apply, constant_apply, constantI_apply, id, lo, hi]
  all_goals rfl

/-! ## Level 4 -/

theorem ref_lvl4 (x0 : (⟨S131072x3, .f32⟩ : BufTy).Contents (Elt Ideal)) (x : (⟨S7x7x512, .f32⟩ : BufTy).Contents (Elt Ideal))
    (n : Fin 131072) (c : Fin 512) :
    val_main_v400 (F := Ideal) x0 x (ix2 n c) = sample 7 7#32 (Ideal.ofBits .f32 0x42000000#32) x0 x n c := by
  have hg : gather_S7x7x512_S131072x2_S131072x512_1_01_n_n_01_1_11512 = Cert.LibColumns.pairDims 7 7 512 131072 gather_S7x7x512_S131072x2_S131072x512_1_01_n_n_01_1_11512_wf := rfl
  unfold sample bil
  rw [tab_eq _ _ _ _ (cellR_lt 7 (by norm_num) _ _) (cellR_lt 7 (by norm_num) _ _),
    tab_eq _ _ _ _ (cellR_lt 7 (by norm_num) _ _) (cellR_lt 7 (by norm_num) _ _),
    tab_eq _ _ _ _ (cellR_lt 7 (by norm_num) _ _) (cellR_lt 7 (by norm_num) _ _),
    tab_eq _ _ _ _ (cellR_lt 7 (by norm_num) _ _) (cellR_lt 7 (by norm_num) _ _)]
  unfold cellR
  rw [← ref_h, ← ref_w]
  simp only [
    val_main_cst_60, val_main_v306, val_main_v307, val_main_cst_61, val_main_v308, val_main_v309, val_main_v310,
    val_main_v311, val_main_v312, val_main_v313, val_main_v314, val_main_v315, val_main_v316, val_main_v317,
    val_main_c_62, val_main_v318, val_main_v319, val_main_c_63, val_main_v320, val_main_v321, val_main_v322,
    val_main_c_64, val_main_v323, val_main_v324, val_main_c_65, val_main_v325, val_main_v326, val_main_v327,
    val_main_v328, val_main_v329, val_main_v330, val_main_v331, val_main_c_66, val_main_v332, val_main_v333,
    val_main_c_67, val_main_v334, val_main_v335, val_main_v336, val_main_c_68, val_main_v337, val_main_v338,
    val_main_c_69, val_main_v339, val_main_v340, val_main_v341, val_main_v342, val_main_v343, val_main_v344,
    val_main_v345, val_main_c_70, val_main_v346, val_main_v347, val_main_c_71, val_main_v348, val_main_v349,
    val_main_v350, val_main_c_72, val_main_v351, val_main_v352, val_main_c_73, val_main_v353, val_main_v354,
    val_main_v355, val_main_v356, val_main_v357, val_main_v358, val_main_v359, val_main_c_74, val_main_v360,
    val_main_v361, val_main_c_75, val_main_v362, val_main_v363, val_main_v364, val_main_c_76, val_main_v365,
    val_main_v366, val_main_c_77, val_main_v367, val_main_v368, val_main_v369, val_main_v370, val_main_v371,
    val_main_v372, val_main_v373, val_main_v374, val_main_v375, val_main_v376, val_main_v377, val_main_v378,
    val_main_v379, val_main_v380, val_main_v381, val_main_v382, val_main_v383, val_main_v384, val_main_v385,
    val_main_v386, val_main_v387, val_main_v388, val_main_v389, val_main_v390, val_main_v391, val_main_v392,
    val_main_v393, val_main_v394, val_main_v395, val_main_v396, val_main_v397, val_main_v398, val_main_v399,
    val_main_v400]
  repeat first
    | rw [spread512]
    | rw [colN']
    | rw [sc']
    | simp only [hg, addf_apply, mulf_apply, subf_apply,
        Cert.LibColumns.gather_pair_apply (A := 7) (B := 7) (by norm_num) (by norm_num), Cert.LibColumns.pair_left,
        Cert.LibColumns.pair_right, select_apply, cmpi_apply, addi_apply, fptosi_apply, hfloor_apply, hceil_apply,
        hdivf_apply, constant_apply, constantI_apply, id, lo, hi]
  all_goals rfl

/-! ## The result -/

theorem ref_eq (x0 : (⟨S131072x3, .f32⟩ : BufTy).Contents (Elt Ideal)) (x1 : (⟨S56x56x64, .f32⟩ : BufTy).Contents (Elt Ideal))
    (x2 : (⟨S28x28x128, .f32⟩ : BufTy).Contents (Elt Ideal)) (x3 : (⟨S14x14x256, .f32⟩ : BufTy).Contents (Elt Ideal))
    (x4 : (⟨S7x7x512, .f32⟩ : BufTy).Contents (Elt Ideal)) :
    val_main_v401 (F := Ideal) x0 x1 x2 x3 x4 = G x0 x1 x2 x3 x4 := by
  funext i
  obtain ⟨n, q, rfl⟩ : ∃ (n : Fin 131072) (q : Fin 963), i = ix2 n q := ⟨i 0, i 1, eq_ix2 i⟩
  show _ = G' x0 x1 x2 x3 x4 n q
  unfold val_main_v401 G'
  rw [Cert.LibColumns.pieces5_apply (by norm_num)]
  split_ifs with h0 h1 h2 h3
  · rfl
  · exact ref_lvl1 x0 x1 n _
  · exact ref_lvl2 x0 x2 n _
  · exact ref_lvl3 x0 x3 n _
  · exact ref_lvl4 x0 x4 n _

end Cert.ReferenceIdeal.RefValue

end
-- ==== Proof.Finite.lean ====
/-
  The precondition, read back: every entry of the four feature tables is a real number.

  The precondition is the conjunction, over the five arguments, of "every entry's absolute value is below +∞"; an
  extended real whose absolute value is below +∞ is neither infinity.
-/
import proofs.«154923_j8203387535722_2_alg».proof.Pre_finite_inputs
import proofs.«154923_j8203387535722_2_alg».proof.Proof.LibHostRows
import Idealize.ShloMosaic.PureOps.Ideal.Laws
import Idealize.ShloMosaic.Lib.ReduceAll
import Idealize.ShloMosaic.Lib.Affine

noncomputable section

namespace Cert.Finite

open Idealize.ShloMosaic Idealize.ShloMosaic.ValueIdx

instance : Subsingleton Cert.Pre_finite_inputs.S_.Idx := ⟨fun a b => funext fun d => d.elim0⟩

/-- An extended real whose absolute value compares below the +∞ pattern is a real number. -/
theorem real_of_abs_lt (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => exfalso; simp [Ideal.cmp] at h
  | coe r => exact ⟨r, rfl⟩
  | top => exfalso; simp [Ideal.cmp] at h

/-- One argument's conjunct, at an entry. -/
theorem elem_real {s : Shape} (a : FVec Ideal s .f32)
    (hb : Cert.Pre_finite_inputs.S_.BroadcastsInDim s (![] : Fin 0 → Fin s.rank)) (i : s.Idx)
    (h : cmpf .olt (Host.absf a) (broadcastInDim s ![] hb (constant (F := Ideal) Cert.Pre_finite_inputs.S_ .f32 0x7F800000#32)) i = 1#1) :
    ∃ r : ℝ, a i = r := by
  have e : broadcastInDim s ![] hb (constant (F := Ideal) Cert.Pre_finite_inputs.S_ .f32 0x7F800000#32) i
      = Ideal.ofBits .f32 0x7F800000#32 := by
    rw [Cert.LibHostRows.scalar_apply]; rfl
  have h' : Ideal.cmp .olt (max (a i) (-(a i)))
      (broadcastInDim s ![] hb (constant (F := Ideal) Cert.Pre_finite_inputs.S_ .f32 0x7F800000#32) i) = 1#1 := h
  rw [e] at h'
  exact real_of_abs_lt _ h'

/-- The precondition gives every table entry as a real number. -/
theorem tables_real [Cert.Pre_finite_inputs.Facts] (a0 : FVec Ideal Cert.Pre_finite_inputs.S131072x3 .f32)
    (a1 : FVec Ideal Cert.Pre_finite_inputs.S56x56x64 .f32) (a2 : FVec Ideal Cert.Pre_finite_inputs.S28x28x128 .f32)
    (a3 : FVec Ideal Cert.Pre_finite_inputs.S14x14x256 .f32) (a4 : FVec Ideal Cert.Pre_finite_inputs.S7x7x512 .f32)
    (h : Cert.Pre_finite_inputs.fn (F := Ideal) a0 a1 a2 a3 a4 = fun _ => 1#1) :
    (∀ i, ∃ r : ℝ, a1 i = r) ∧ (∀ i, ∃ r : ℝ, a2 i = r) ∧ (∀ i, ∃ r : ℝ, a3 i = r) ∧ (∀ i, ∃ r : ℝ, a4 i = r) := by
  have h0 := congrFun h ix0
  dsimp only [Cert.Pre_finite_inputs.fn, Cert.Pre_finite_inputs.fn_part1] at h0
  obtain ⟨h18, h22⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  exact ⟨fun i => elem_real a1 _ i (Host.reduce_andi_all _ _ _ _ ix0 h7 i),
    fun i => elem_real a2 _ i (Host.reduce_andi_all _ _ _ _ ix0 h12 i),
    fun i => elem_real a3 _ i (Host.reduce_andi_all _ _ _ _ ix0 h17 i),
    fun i => elem_real a4 _ i (Host.reduce_andi_all _ _ _ _ ix0 h22 i)⟩

end Cert.Finite

end
-- ==== Proof.lean ====
/-
  Graph projection: for each of 131072 points, the point's three coordinates followed by bilinear samples of four
  feature tables (56×56×64, 28×28×128, 14×14×256, 7×7×512) at the pixel the point projects to.

  The pixel's row and column are 248 · (−Y / −Z) + 112 and 248 · (X / −Z) + 112, clipped to [0, 223]: whatever the
  coordinates are, the clipped values are real numbers in [0, 223]. A level of side S divides them by 224 / S; the
  quotients r, s are real with 0 ≤ r, s < S. The four corners are (⌊r⌋ or ⌈r⌉, ⌊s⌋ or ⌈s⌉), a corner's weight the
  product of the distances of r and s to the opposite corner.

  The kernel forms, per point, a row over the S · S cells of the level — zero plus each corner's weight at the
  corner's flat position row · S + column, the corner clipped to S − 1 before it becomes an integer — and multiplies
  the rows by the table viewed as an [S · S, C] matrix. The reference turns the corners into integers first, gathers
  the four table rows (the gather clamps an index past the table's edge to S − 1) and adds them weighted. Over the
  extended reals the kernel's inner product of a row that is zero but at four positions with a column of real
  numbers is the four weighted entries: that is the one place where the tables' entries are used to be real numbers,
  which is what the precondition says of them. A ceiling equal to S (a pixel in the last fraction of a cell) meets
  the same entry on both sides: clipped to S − 1 before the conversion by one program, clamped by the gather in the
  other.

  Both programs therefore end with the same array G of the five arguments: the kernel block by block (grid point t
  writes rows 256 t … 256 t + 255, and the 512 blocks cover the array), the reference operation by operation.
-/
import proofs.«154923_j8203387535722_2_alg».proof.Defs
import proofs.«154923_j8203387535722_2_alg».proof.Proof.Gen.Kernel
import proofs.«154923_j8203387535722_2_alg».proof.Proof.Gen.Kernel.Skeleton
import proofs.«154923_j8203387535722_2_alg».proof.Proof.Gen.Kernel.Launch
import proofs.«154923_j8203387535722_2_alg».proof.Proof.Gen.Kernel.Points
import proofs.«154923_j8203387535722_2_alg».proof.Proof.Gen.Kernel.Frame
import proofs.«154923_j8203387535722_2_alg».proof.Proof.Gen.KernelIdeal
import proofs.«154923_j8203387535722_2_alg».proof.Proof.Gen.KernelIdeal.Skeleton
import proofs.«154923_j8203387535722_2_alg».proof.Proof.Gen.KernelIdeal.Launch
import proofs.«154923_j8203387535722_2_alg».proof.Proof.Gen.KernelIdeal.Points
import proofs.«154923_j8203387535722_2_alg».proof.Proof.Gen.KernelIdeal.Frame
import proofs.«154923_j8203387535722_2_alg».proof.Proof.Gen.ReferenceIdeal
import proofs.«154923_j8203387535722_2_alg».proof.Proof.Gen.Pre_finite_inputs
import proofs.«154923_j8203387535722_2_alg».proof.Proof.Gen.KernelIdeal.Value
import proofs.«154923_j8203387535722_2_alg».proof.Proof.RefRunP
import proofs.«154923_j8203387535722_2_alg».proof.Proof.RefReadP
import proofs.«154923_j8203387535722_2_alg».proof.Proof.KValue
import proofs.«154923_j8203387535722_2_alg».proof.Proof.RRead
import proofs.«154923_j8203387535722_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with G of the arguments: the kernel by its blocks, given real table entries from the
    precondition; the reference by its operations, its arguments being the kernel's. -/
theorem algebraic : Cert.algebraic_KernelIdeal_ReferenceIdeal := by
  intro m ρ m' ρ' hpre hagree
  refine ⟨fun c => Cert.GP.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Value.run_blocks (F := Ideal) m ρ)
    obtain ⟨h1, h2, h3, h4⟩ := Cert.Finite.tables_real _ _ _ _ _ (hpre c)
    exact Cert.KernelIdeal.KValue.final m c h1 h2 h3 h4
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v401_eq, Cert.ReferenceIdeal.RefValue.ref_eq, (hagree c).1,
      (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
